-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v17) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S8x4096x1024 : Shape := ⟨3, ![8, 4096, 1024]⟩
abbrev S8x1024x768 : Shape := ⟨3, ![8, 1024, 768]⟩
abbrev S256x768 : Shape := ⟨2, ![256, 768]⟩
abbrev S256x1024 : Shape := ⟨2, ![256, 1024]⟩
abbrev S_ : Shape := ⟨0, ![]⟩

class Facts : Prop where
  bcast_S_S8x4096x1024 : S_.BroadcastsInDim S8x4096x1024 (![] : Fin 0 → Fin S8x4096x1024.rank)
  reducesTo_S8x4096x1024_S_d0_1_2 : S8x4096x1024.ReducesTo [0, 1, 2] S_
  h_S_ : 0 < S_.numel
  bcast_S_S8x1024x768 : S_.BroadcastsInDim S8x1024x768 (![] : Fin 0 → Fin S8x1024x768.rank)
  reducesTo_S8x1024x768_S_d0_1_2 : S8x1024x768.ReducesTo [0, 1, 2] S_
  bcast_S_S256x768 : S_.BroadcastsInDim S256x768 (![] : Fin 0 → Fin S256x768.rank)
  reducesTo_S256x768_S_d0_1 : S256x768.ReducesTo [0, 1] S_
  bcast_S_S256x1024 : S_.BroadcastsInDim S256x1024 (![] : Fin 0 → Fin S256x1024.rank)
  reducesTo_S256x1024_S_d0_1 : S256x1024.ReducesTo [0, 1] S_

variable [Facts]

def fn_part1 {F : FTy → Type} [FloatOps F] (main_v13 : IVec S_ 1) (main_v16 : IVec S256x1024 1) : IVec S_ 1 :=
  let main_c_5 : IVec S_ 1 := constantI S_ 1 1#1
  let main_v17 : IVec S_ 1 := (fun x v => Host.reduce IntOp.andi x v reducesTo_S256x1024_S_d0_1 h_S_) main_v16 main_c_5
  let main_v18 : IVec S_ 1 := andi main_v13 main_v17
  main_v18

def fn {F : FTy → Type} [FloatOps F] (main_arg0 : FVec F S8x4096x1024 .f32) (main_arg1 : FVec F S8x1024x768 .f32) (main_arg2 : FVec F S256x768 .f32) (main_arg3 : FVec F S256x1024 .f32) : IVec S_ 1 :=
  let main_v0 : FVec F S8x4096x1024 .f32 := Host.absf main_arg0
  let main_cst : FVec F S_ .f32 := constant S_ .f32 0x7F800000#32
  let main_v1 : FVec F S8x4096x1024 .f32 := broadcastInDim S8x4096x1024 ![] bcast_S_S8x4096x1024 main_cst
  let main_v2 : IVec S8x4096x1024 1 := cmpf .olt main_v0 main_v1
  let main_c : IVec S_ 1 := constantI S_ 1 1#1
  let main_v3 : IVec S_ 1 := (fun x v => Host.reduce IntOp.andi x v reducesTo_S8x4096x1024_S_d0_1_2 h_S_) main_v2 main_c
  let main_v4 : FVec F S8x1024x768 .f32 := Host.absf main_arg1
  let main_cst_0 : FVec F S_ .f32 := constant S_ .f32 0x7F800000#32
  let main_v5 : FVec F S8x1024x768 .f32 := broadcastInDim S8x1024x768 ![] bcast_S_S8x1024x768 main_cst_0
  let main_v6 : IVec S8x1024x768 1 := cmpf .olt main_v4 main_v5
  let main_c_1 : IVec S_ 1 := constantI S_ 1 1#1
  let main_v7 : IVec S_ 1 := (fun x v => Host.reduce IntOp.andi x v reducesTo_S8x1024x768_S_d0_1_2 h_S_) main_v6 main_c_1
  let main_v8 : IVec S_ 1 := andi main_v3 main_v7
  let main_v9 : FVec F S256x768 .f32 := Host.absf main_arg2
  let main_cst_2 : FVec F S_ .f32 := constant S_ .f32 0x7F800000#32
  let main_v10 : FVec F S256x768 .f32 := broadcastInDim S256x768 ![] bcast_S_S256x768 main_cst_2
  let main_v11 : IVec S256x768 1 := cmpf .olt main_v9 main_v10
  let main_c_3 : IVec S_ 1 := constantI S_ 1 1#1
  let main_v12 : IVec S_ 1 := (fun x v => Host.reduce IntOp.andi x v reducesTo_S256x768_S_d0_1 h_S_) main_v11 main_c_3
  let main_v13 : IVec S_ 1 := andi main_v8 main_v12
  let main_v14 : FVec F S256x1024 .f32 := Host.absf main_arg3
  let main_cst_4 : FVec F S_ .f32 := constant S_ .f32 0x7F800000#32
  let main_v15 : FVec F S256x1024 .f32 := broadcastInDim S256x1024 ![] bcast_S_S256x1024 main_cst_4
  let main_v16 : IVec S256x1024 1 := cmpf .olt main_v14 main_v15
  fn_part1 (F := F) main_v13 main_v16
-- ==== Kernel.lean ====
abbrev S8x4096x1024 : Shape := ⟨3, ![8, 4096, 1024]⟩
abbrev S8x1024x768 : Shape := ⟨3, ![8, 1024, 768]⟩
abbrev S256x768 : Shape := ⟨2, ![256, 768]⟩
abbrev S256x1024 : Shape := ⟨2, ![256, 1024]⟩
abbrev S8x1024x256 : Shape := ⟨3, ![8, 1024, 256]⟩
abbrev S1x1024x768 : Shape := ⟨3, ![1, 1024, 768]⟩
abbrev S1x1024x256 : Shape := ⟨3, ![1, 1024, 256]⟩
abbrev S1024x768 : Shape := ⟨2, ![1024, 768]⟩
abbrev S1024x256 : Shape := ⟨2, ![1024, 256]⟩
abbrev S8x1024x1024 : Shape := ⟨3, ![8, 1024, 1024]⟩
abbrev S1x1024x1024 : Shape := ⟨3, ![1, 1024, 1024]⟩
abbrev S1024x1 : Shape := ⟨2, ![1024, 1]⟩
abbrev S1024x1024 : Shape := ⟨2, ![1024, 1024]⟩
abbrev S1024 : Shape := ⟨1, ![1024]⟩

abbrev nBuf : Space → Nat
  | .hbm => 6
  | .vmem => 15
  | .smem => 0
  | _ => 0

abbrev bufTy : (tb : Table) → Fin (tcTables nBuf tb) → BufTy
  | .hbm, ⟨0, _⟩ => ⟨S8x4096x1024, .f32⟩
  | .hbm, ⟨1, _⟩ => ⟨S8x1024x768, .f32⟩
  | .hbm, ⟨2, _⟩ => ⟨S256x768, .f32⟩
  | .hbm, ⟨3, _⟩ => ⟨S256x1024, .f32⟩
  | .hbm, ⟨4, _⟩ => ⟨S8x1024x256, .bf16⟩
  | .hbm, ⟨5, _⟩ => ⟨S8x1024x1024, .f32⟩
  | .local _ .vmem, ⟨0, _⟩ => ⟨S1x1024x768, .f32⟩
  | .local _ .vmem, ⟨1, _⟩ => ⟨S1x1024x768, .f32⟩
  | .local _ .vmem, ⟨2, _⟩ => ⟨S256x768, .f32⟩
  | .local _ .vmem, ⟨3, _⟩ => ⟨S1x1024x256, .bf16⟩
  | .local _ .vmem, ⟨4, _⟩ => ⟨S1x1024x256, .bf16⟩
  | .local _ .vmem, ⟨5, _⟩ => ⟨S1x1024x256, .bf16⟩
  | .local _ .vmem, ⟨6, _⟩ => ⟨S1x1024x256, .bf16⟩
  | .local _ .vmem, ⟨7, _⟩ => ⟨S1x1024x1024, .f32⟩
  | .local _ .vmem, ⟨8, _⟩ => ⟨S1x1024x1024, .f32⟩
  | .local _ .vmem, ⟨9, _⟩ => ⟨S256x1024, .f32⟩
  | .local _ .vmem, ⟨10, _⟩ => ⟨S1x1024x1024, .f32⟩
  | .local _ .vmem, ⟨11, _⟩ => ⟨S1x1024x1024, .f32⟩
  | .local _ .vmem, ⟨12, _⟩ => ⟨S1024x1, .f32⟩
  | .local _ .vmem, ⟨13, _⟩ => ⟨S1024x1, .f32⟩
  | .local _ .vmem, ⟨14, _⟩ => ⟨S1024x1024, .f32⟩
  | _, _ => ⟨S8x4096x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | .vmem, ⟨12, _⟩ => true
  | .vmem, ⟨13, _⟩ => true
  | .vmem, ⟨14, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_v0 : Ref sig .tc := ⟨.hbm, 4, rfl⟩
abbrev main_v1 : Ref sig .tc := ⟨.hbm, 5, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg2_0 : Ref sig .tc := ⟨.vmem, 3, rfl⟩
abbrev cc0_stg2_1 : Ref sig .tc := ⟨.vmem, 4, rfl⟩
abbrev cc1_stg0_0 : Ref sig .tc := ⟨.vmem, 5, rfl⟩
abbrev cc1_stg0_1 : Ref sig .tc := ⟨.vmem, 6, rfl⟩
abbrev cc1_stg1_0 : Ref sig .tc := ⟨.vmem, 7, rfl⟩
abbrev cc1_stg1_1 : Ref sig .tc := ⟨.vmem, 8, rfl⟩
abbrev cc1_stg2_0 : Ref sig .tc := ⟨.vmem, 9, rfl⟩
abbrev cc1_stg3_0 : Ref sig .tc := ⟨.vmem, 10, rfl⟩
abbrev cc1_stg3_1 : Ref sig .tc := ⟨.vmem, 11, rfl⟩
abbrev cc1_scratch0 : Ref sig .tc := ⟨.vmem, 12, rfl⟩
abbrev cc1_scratch1 : Ref sig .tc := ⟨.vmem, 13, rfl⟩
abbrev cc1_scratch2 : Ref sig .tc := ⟨.vmem, 14, rfl⟩
abbrev cc0_sem0_0 : DmaSem sig := 0
abbrev cc0_sem0_1 : DmaSem sig := 1
abbrev cc0_sem1_0 : DmaSem sig := 2
abbrev cc0_sem2_0 : DmaSem sig := 3
abbrev cc0_sem2_1 : DmaSem sig := 4
abbrev cc1_sem0_0 : DmaSem sig := 5
abbrev cc1_sem0_1 : DmaSem sig := 6
abbrev cc1_sem1_0 : DmaSem sig := 7
abbrev cc1_sem1_1 : DmaSem sig := 8
abbrev cc1_sem2_0 : DmaSem sig := 9
abbrev cc1_sem3_0 : DmaSem sig := 10
abbrev cc1_sem3_1 : DmaSem sig := 11

abbrev nD : Nat := 1
abbrev τ : Topo := Topo.v7x

variable {F : FTy → Type} [FloatOps F]

abbrev grid0 : Pipeline.Grid := ⟨1, ![8], ![false]⟩

def cc0_transform_0 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

def cc0_transform_1 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_2 (i : grid0.Coords) : Fin 3 → Nat :=
  let arg0 : BitVec 32 := BitVec.ofNat 32 (i 0).val
  let c0_i32 : BitVec 32 := 0#32
  let c0_i32_0 : BitVec 32 := 0#32
  let c0_i32_1 : BitVec 32 := 0#32
  ![arg0.toNat, c0_i32.toNat, c0_i32_0.toNat]

abbrev stage0_0 : Fin 2 → Memref sig .tc .vmem S1x1024x768 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 1 → Memref sig .tc .vmem S256x768 .f32 := fun | 0 => Memref.whole cc0_stg1_0 | ⟨_ + 1, h⟩ => absurd h (Nat.not_lt.2 (Nat.le_add_left _ _))
abbrev sem0_1 : Fin 1 → DmaSem sig := fun | 0 => cc0_sem1_0 | ⟨_ + 1, h⟩ => absurd h (Nat.not_lt.2 (Nat.le_add_left _ _))
abbrev reads0_1 : Fin grid0.rank → Bool := ![false]

abbrev stage0_2 : Fin 2 → Memref sig .tc .vmem S1x1024x256 .bf16 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev grid1 : Pipeline.Grid := ⟨2, ![8, 4], ![false, false]⟩

def k1_cond2 (i : grid1.Coords) : BitVec 1 :=
  let arg1 : BitVec 32 := BitVec.ofNat 32 (i 1).val
  let c3_i32 : BitVec 32 := 3#32
  let v43 : BitVec 1 := Scalar.cmpi .eq arg1 c3_i32
  let v44 : BitVec 32 := Scalar.extui v43
  let c0_i32_26 : BitVec 32 := 0#32
  let v45 : BitVec 1 := Scalar.cmpi .ne v44 c0_i32_26
  v45

def cc1_transform_0 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

def cc1_transform_1 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  ![arg0.toNat, arg1.toNat, c0_i32.toNat]

def cc1_transform_2 (i : grid1.Coords) : Fin 2 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![c0_i32.toNat, c0_i32_0.toNat]

def cc1_transform_3 (i : grid1.Coords) : Fin 3 → Nat :=
  let arg0 : BitVec 32 := BitVec.ofNat 32 (i 0).val
  let arg1 : BitVec 32 := BitVec.ofNat 32 (i 1).val
  let c0_i32 : BitVec 32 := 0#32
  let c0_i32_0 : BitVec 32 := 0#32
  let c0_i32_1 : BitVec 32 := 0#32
  ![arg0.toNat, c0_i32.toNat, c0_i32_0.toNat]

abbrev stage1_0 : Fin 2 → Memref sig .tc .vmem S1x1024x256 .bf16 := fun | 0 => Memref.whole cc1_stg0_0 | 1 => Memref.whole cc1_stg0_1 | ⟨_ + 2, h⟩ => absurd h (Nat.not_lt.2 (Nat.le_add_left _ _))
abbrev sem1_0 : Fin 2 → DmaSem sig := fun | 0 => cc1_sem0_0 | 1 => cc1_sem0_1 | ⟨_ + 2, h⟩ => absurd h (Nat.not_lt.2 (Nat.le_add_left _ _))
abbrev reads1_0 : Fin grid1.rank → Bool := ![true, false]

abbrev stage1_1 : Fin 2 → Memref sig .tc .vmem S1x1024x1024 .f32 := fun | 0 => Memref.whole cc1_stg1_0 | 1 => Memref.whole cc1_stg1_1 | ⟨_ + 2, h⟩ => absurd h (Nat.not_lt.2 (Nat.le_add_left _ _))
abbrev sem1_1 : Fin 2 → DmaSem sig := fun | 0 => cc1_sem1_0 | 1 => cc1_sem1_1 | ⟨_ + 2, h⟩ => absurd h (Nat.not_lt.2 (Nat.le_add_left _ _))
abbrev reads1_1 : Fin grid1.rank → Bool := ![true, true]

abbrev stage1_2 : Fin 1 → Memref sig .tc .vmem S256x1024 .f32 := fun | 0 => Memref.whole cc1_stg2_0 | ⟨_ + 1, h⟩ => absurd h (Nat.not_lt.2 (Nat.le_add_left _ _))
abbrev sem1_2 : Fin 1 → DmaSem sig := fun | 0 => cc1_sem2_0 | ⟨_ + 1, h⟩ => absurd h (Nat.not_lt.2 (Nat.le_add_left _ _))
abbrev reads1_2 : Fin grid1.rank → Bool := ![false, false]

abbrev stage1_3 : Fin 2 → Memref sig .tc .vmem S1x1024x1024 .f32 := fun | 0 => Memref.whole cc1_stg3_0 | 1 => Memref.whole cc1_stg3_1 | ⟨_ + 2, h⟩ => absurd h (Nat.not_lt.2 (Nat.le_add_left _ _))
abbrev sem1_3 : Fin 2 → DmaSem sig := fun | 0 => cc1_sem3_0 | 1 => cc1_sem3_1 | ⟨_ + 2, h⟩ => absurd h (Nat.not_lt.2 (Nat.le_add_left _ _))
abbrev reads1_3 : Fin grid1.rank → Bool := ![true, false]

class Facts₀ : Prop where
  inb_S1x1024x768_S1x1024x768_0_0_0 : ∀ a, (![0, 0, 0] : Fin 3 → Nat) a + S1x1024x768.size a ≤ S1x1024x768.size a
  h_S1x1024x768 : 0 < S1x1024x768.numel
  shapeCasts_S1x1024x768_S1024x768 : S1x1024x768.ShapeCasts S1024x768
  bitsLt_bf16_f32 : FTy.bits .bf16 < FTy.bits .f32
  inb_S256x768_S256x768_0_0 : ∀ a, (![0, 0] : Fin 2 → Nat) a + S256x768.size a ≤ S256x768.size a
  h_S256x768 : 0 < S256x768.numel
  inb_S1x1024x256_S1x1024x256_0_0_0 : ∀ a, (![0, 0, 0] : Fin 3 → Nat) a + S1x1024x256.size a ≤ S1x1024x256.size a
  h_S1x1024x256 : 0 < S1x1024x256.numel
  shapeCasts_S1x1024x256_S1024x256 : S1x1024x256.ShapeCasts S1024x256
  shapeCasts_S1024x256_S1x1024x256 : S1024x256.ShapeCasts S1x1024x256
  packedbf16_S1x1024x256_S1x1024x256_0_0_0 : (Rect.unit (s := S1x1024x256) ![0, 0, 0] S1x1024x256.size inb_S1x1024x256_S1x1024x256_0_0_0).PackedRows (EltTy.packing .bf16)
  inb_S1024x1_S1024x1_0_0 : ∀ a, (![0, 0] : Fin 2 → Nat) a + S1024x1.size a ≤ S1024x1.size a
  h_S1024x1 : 0 < S1024x1.numel
  shapeCasts_S1024x1_S1024x1 : S1024x1.ShapeCasts S1024x1
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024x1024_S1x1024x1024_0_0_0 : ∀ a, (![0, 0, 0] : Fin 3 → Nat) a + S1x1024x1024.size a ≤ S1x1024x1024.size a
  h_S1x1024x1024 : 0 < S1x1024x1024.numel
  shapeCasts_S1x1024x1024_S1024x1024 : S1x1024x1024.ShapeCasts S1024x1024
  inb_S256x1024_S256x1024_0_0 : ∀ a, (![0, 0] : Fin 2 → Nat) a + S256x1024.size a ≤ S256x1024.size a
  h_S256x1024 : 0 < S256x1024.numel
  reduces_S1024x1024_S1024 : S1024x1024.Reduces [1] S1024
  shapeCasts_S1024_S1024x1 : S1024.ShapeCasts S1024x1
  broadcasts_S1024x1_S1024x1024 : S1024x1.Broadcasts S1024x1024
  shapeCasts_S1024x1024_S1x1024x1024 : S1024x1024.ShapeCasts S1x1024x1024
  dot_S1024x768_S256x768_S1024x256_1_1_0_0_n_n_wf : DotDims.WF S1024x768 S256x768 S1024x256 [1] [1] [0] [0] [] []
  dot_S1024x1024_S256x1024_S1024x256_1_1_0_0_n_n_wf : DotDims.WF S1024x1024 S256x1024 S1024x256 [1] [1] [0] [0] [] []
  dot_S1024x256_S1024x256_S1024x1024_1_1_0_0_n_n_wf : DotDims.WF S1024x256 S1024x256 S1024x1024 [1] [1] [0] [0] [] []
  dot_S1024x1024_S1024x1024_S1024x1024_1_0_0_1_n_n_wf : DotDims.WF S1024x1024 S1024x1024 S1024x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S1x1024x768.size a ≤ S8x1024x768.size a
  hwx0_0 : ∀ i : grid0.Coords, EltTy.bits .f32 = 32 ∨ (Rect.block (s := S8x1024x768) S1x1024x768.size (cc0_transform_0 i) (hinb0_0 i)).WholeWords (EltTy.packing .f32)
  hstage0_1 : ∀ j, (stage0_1 j).IsWhole
  nbuf0_1 : grid0.bufCount reads0_1 true = 1
  hreads0_1 : ∀ i i' : grid0.Coords, (∀ a, reads0_1 a = true → i a = i' a) → cc0_transform_1 i = cc0_transform_1 i'
  hinb0_1 : ∀ (i : grid0.Coords) a, (cc0_transform_1 i a + 1) * S256x768.size a ≤ S256x768.size a
  hwx0_1 : ∀ i : grid0.Coords, EltTy.bits .f32 = 32 ∨ (Rect.block (s := S256x768) S256x768.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S1x1024x256.size a ≤ S8x1024x256.size a
  hwx0_2 : ∀ i : grid0.Coords, EltTy.bits .bf16 = 32 ∨ (Rect.block (s := S8x1024x256) S1x1024x256.size (cc0_transform_2 i) (hinb0_2 i)).WholeWords (EltTy.packing .bf16)
  hrank1 : 0 < grid1.rank
  hstage1_0 : ∀ j, (stage1_0 j).IsWhole
  nbuf1_0 : grid1.bufCount reads1_0 false = 2
  hreads1_0 : ∀ i i' : grid1.Coords, (∀ a, reads1_0 a = true → i a = i' a) → cc1_transform_0 i = cc1_transform_0 i'
  hinb1_0 : ∀ (i : grid1.Coords) a, (cc1_transform_0 i a + 1) * S1x1024x256.size a ≤ S8x1024x256.size a
  hwx1_0 : ∀ i : grid1.Coords, EltTy.bits .bf16 = 32 ∨ (Rect.block (s := S8x1024x256) S1x1024x256.size (cc1_transform_0 i) (hinb1_0 i)).WholeWords (EltTy.packing .bf16)
  hstage1_1 : ∀ j, (stage1_1 j).IsWhole
  nbuf1_1 : grid1.bufCount reads1_1 false = 2
  hreads1_1 : ∀ i i' : grid1.Coords, (∀ a, reads1_1 a = true → i a = i' a) → cc1_transform_1 i = cc1_transform_1 i'
  hinb1_1 : ∀ (i : grid1.Coords) a, (cc1_transform_1 i a + 1) * S1x1024x1024.size a ≤ S8x4096x1024.size a
  hwx1_1 : ∀ i : grid1.Coords, EltTy.bits .f32 = 32 ∨ (Rect.block (s := S8x4096x1024) S1x1024x1024.size (cc1_transform_1 i) (hinb1_1 i)).WholeWords (EltTy.packing .f32)
  hstage1_2 : ∀ j, (stage1_2 j).IsWhole
  nbuf1_2 : grid1.bufCount reads1_2 true = 1
  hreads1_2 : ∀ i i' : grid1.Coords, (∀ a, reads1_2 a = true → i a = i' a) → cc1_transform_2 i = cc1_transform_2 i'
  hinb1_2 : ∀ (i : grid1.Coords) a, (cc1_transform_2 i a + 1) * S256x1024.size a ≤ S256x1024.size a
  hwx1_2 : ∀ i : grid1.Coords, EltTy.bits .f32 = 32 ∨ (Rect.block (s := S256x1024) S256x1024.size (cc1_transform_2 i) (hinb1_2 i)).WholeWords (EltTy.packing .f32)
  hstage1_3 : ∀ j, (stage1_3 j).IsWhole
  nbuf1_3 : grid1.bufCount reads1_3 false = 2
  hreads1_3 : ∀ i i' : grid1.Coords, (∀ a, reads1_3 a = true → i a = i' a) → cc1_transform_3 i = cc1_transform_3 i'
  hinb1_3 : ∀ (i : grid1.Coords) a, (cc1_transform_3 i a + 1) * S1x1024x1024.size a ≤ S8x1024x1024.size a
  hwx1_3 : ∀ i : grid1.Coords, EltTy.bits .f32 = 32 ∨ (Rect.block (s := S8x1024x1024) S1x1024x1024.size (cc1_transform_3 i) (hinb1_3 i)).WholeWords (EltTy.packing .f32)

variable [Facts₀]

def dot_S1024x768_S256x768_S1024x256_1_1_0_0_n_n : DotDims S1024x768 S256x768 S1024x256 where
  lhsContracting := [1]
  rhsContracting := [1]
  lhsNonContracting := [0]
  rhsNonContracting := [0]
  lhsBatch := []
  rhsBatch := []
  wf := dot_S1024x768_S256x768_S1024x256_1_1_0_0_n_n_wf
def dot_S1024x1024_S256x1024_S1024x256_1_1_0_0_n_n : DotDims S1024x1024 S256x1024 S1024x256 where
  lhsContracting := [1]
  rhsContracting := [1]
  lhsNonContracting := [0]
  rhsNonContracting := [0]
  lhsBatch := []
  rhsBatch := []
  wf := dot_S1024x1024_S256x1024_S1024x256_1_1_0_0_n_n_wf
def dot_S1024x256_S1024x256_S1024x1024_1_1_0_0_n_n : DotDims S1024x256 S1024x256 S1024x1024 where
  lhsContracting := [1]
  rhsContracting := [1]
  lhsNonContracting := [0]
  rhsNonContracting := [0]
  lhsBatch := []
  rhsBatch := []
  wf := dot_S1024x256_S1024x256_S1024x1024_1_1_0_0_n_n_wf
def dot_S1024x1024_S1024x1024_S1024x1024_1_0_0_1_n_n : DotDims S1024x1024 S1024x1024 S1024x1024 where
  lhsContracting := [1]
  rhsContracting := [0]
  lhsNonContracting := [0]
  rhsNonContracting := [1]
  lhsBatch := []
  rhsBatch := []
  wf := dot_S1024x1024_S1024x1024_S1024x1024_1_0_0_1_n_n_wf

abbrev win0_0 : Pipeline.Window sig grid0 :=
  Pipeline.Window.ofSpec (Memref.whole main_arg1) S1x1024x768.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_arg2) S256x768.size cc0_transform_1 reads0_1 false true 1 stage0_1 sem0_1
    hrank0 hreads0_1 hinb0_1 nbuf0_1 (Memref.isWhole_whole _) hwx0_1 hstage0_1

abbrev win0_2 : Pipeline.Window sig grid0 :=
  Pipeline.Window.ofSpec (Memref.whole main_v0) S1x1024x256.size cc0_transform_2 reads0_2 true false 2 stage0_2 sem0_2
    hrank0 hreads0_2 hinb0_2 nbuf0_2 (Memref.isWhole_whole _) hwx0_2 hstage0_2

abbrev win0 : Fin 3 → Pipeline.Window sig grid0 := fun | 0 => win0_0 | 1 => win0_1 | 2 => win0_2 | ⟨_ + 3, h⟩ => absurd h (Nat.not_lt.2 (Nat.le_add_left _ _))
abbrev spec0 : Fin 3 → Pipeline.WinSpec sig grid0.rank := fun w => (win0 w).toWinSpec

abbrev win1_0 : Pipeline.Window sig grid1 :=
  Pipeline.Window.ofSpec (Memref.whole main_v0) S1x1024x256.size cc1_transform_0 reads1_0 false false 2 stage1_0 sem1_0
    hrank1 hreads1_0 hinb1_0 nbuf1_0 (Memref.isWhole_whole _) hwx1_0 hstage1_0

abbrev win1_1 : Pipeline.Window sig grid1 :=
  Pipeline.Window.ofSpec (Memref.whole main_arg0) S1x1024x1024.size cc1_transform_1 reads1_1 false false 2 stage1_1 sem1_1
    hrank1 hreads1_1 hinb1_1 nbuf1_1 (Memref.isWhole_whole _) hwx1_1 hstage1_1

abbrev win1_2 : Pipeline.Window sig grid1 :=
  Pipeline.Window.ofSpec (Memref.whole main_arg3) S256x1024.size cc1_transform_2 reads1_2 false true 1 stage1_2 sem1_2
    hrank1 hreads1_2 hinb1_2 nbuf1_2 (Memref.isWhole_whole _) hwx1_2 hstage1_2

abbrev win1_3 : Pipeline.Window sig grid1 :=
  Pipeline.Window.ofSpec (Memref.whole main_v1) S1x1024x1024.size cc1_transform_3 reads1_3 true false 2 stage1_3 sem1_3
    hrank1 hreads1_3 hinb1_3 nbuf1_3 (Memref.isWhole_whole _) hwx1_3 hstage1_3

abbrev win1 : Fin 4 → Pipeline.Window sig grid1 := fun | 0 => win1_0 | 1 => win1_1 | 2 => win1_2 | 3 => win1_3 | ⟨_ + 4, h⟩ => absurd h (Nat.not_lt.2 (Nat.le_add_left _ _))
abbrev spec1 : Fin 4 → Pipeline.WinSpec sig grid1.rank := fun w => (win1 w).toWinSpec

abbrev idle1 : Fin 4 → grid1.Coords → Bool := fun | 0 => fun _ => false | 1 => fun _ => false | 2 => fun _ => false | 3 => fun i => !(k1_cond2 i == 1#1) | ⟨_ + 4, h⟩ => absurd h (Nat.not_lt.2 (Nat.le_add_left _ _))

class Facts : Prop extends Facts₀ where

variable [Facts]
-- ==== ReferenceIdeal.lean ====
abbrev S8x4096x1024 : Shape := ⟨3, ![8, 4096, 1024]⟩
abbrev S8x1024x768 : Shape := ⟨3, ![8, 1024, 768]⟩
abbrev S256x768 : Shape := ⟨2, ![256, 768]⟩
abbrev S256x1024 : Shape := ⟨2, ![256, 1024]⟩
abbrev S_ : Shape := ⟨0, ![]⟩
abbrev S8x1024x256 : Shape := ⟨3, ![8, 1024, 256]⟩
abbrev S8x4096x256 : Shape := ⟨3, ![8, 4096, 256]⟩
abbrev S8x1024x4096 : Shape := ⟨3, ![8, 1024, 4096]⟩
abbrev S8x1024 : Shape := ⟨2, ![8, 1024]⟩
abbrev S8x1024x1 : Shape := ⟨3, ![8, 1024, 1]⟩
abbrev S8x1024x1024 : Shape := ⟨3, ![8, 1024, 1024]⟩

abbrev nBuf : Space → Nat
  | .hbm => 27
  | .vmem => 0
  | .smem => 0
  | _ => 0

abbrev bufTy : (tb : Table) → Fin (tcTables nBuf tb) → BufTy
  | .hbm, ⟨0, _⟩ => ⟨S8x4096x1024, .f32⟩
  | .hbm, ⟨1, _⟩ => ⟨S8x1024x768, .f32⟩
  | .hbm, ⟨2, _⟩ => ⟨S256x768, .f32⟩
  | .hbm, ⟨3, _⟩ => ⟨S256x1024, .f32⟩
  | .hbm, ⟨4, _⟩ => ⟨S_, .f32⟩
  | .hbm, ⟨5, _⟩ => ⟨S_, .f32⟩
  | .hbm, ⟨6, _⟩ => ⟨S_, .f32⟩
  | .hbm, ⟨7, _⟩ => ⟨S8x1024x256, .f32⟩
  | .hbm, ⟨8, _⟩ => ⟨S8x4096x256, .f32⟩
  | .hbm, ⟨9, _⟩ => ⟨S8x1024x4096, .f32⟩
  | .hbm, ⟨10, _⟩ => ⟨S8x1024x4096, .f32⟩
  | .hbm, ⟨11, _⟩ => ⟨S8x1024x4096, .f32⟩
  | .hbm, ⟨12, _⟩ => ⟨S_, .f32⟩
  | .hbm, ⟨13, _⟩ => ⟨S8x1024, .f32⟩
  | .hbm, ⟨14, _⟩ => ⟨S8x1024x1, .f32⟩
  | .hbm, ⟨15, _⟩ => ⟨S8x1024x4096, .f32⟩
  | .hbm, ⟨16, _⟩ => ⟨S8x1024x4096, .f32⟩
  | .hbm, ⟨17, _⟩ => ⟨S8x1024x4096, .f32⟩
  | .hbm, ⟨18, _⟩ => ⟨S_, .f32⟩
  | .hbm, ⟨19, _⟩ => ⟨S8x1024, .f32⟩
  | .hbm, ⟨20, _⟩ => ⟨S8x1024x1, .f32⟩
  | .hbm, ⟨21, _⟩ => ⟨S8x1024x1024, .f32⟩
  | .hbm, ⟨22, _⟩ => ⟨S_, .f32⟩
  | .hbm, ⟨23, _⟩ => ⟨S8x1024x1, .f32⟩
  | .hbm, ⟨24, _⟩ => ⟨S8x1024x1, .f32⟩
  | .hbm, ⟨25, _⟩ => ⟨S8x1024x1024, .f32⟩
  | .hbm, ⟨26, _⟩ => ⟨S8x1024x1024, .f32⟩
  | _, _ => ⟨S8x4096x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_cst : Ref sig .tc := ⟨.hbm, 4, rfl⟩
abbrev main_cst_0 : Ref sig .tc := ⟨.hbm, 5, rfl⟩
abbrev main_v0 : Ref sig .tc := ⟨.hbm, 6, rfl⟩
abbrev main_v1 : Ref sig .tc := ⟨.hbm, 7, rfl⟩
abbrev main_v2 : Ref sig .tc := ⟨.hbm, 8, rfl⟩
abbrev main_v3 : Ref sig .tc := ⟨.hbm, 9, rfl⟩
abbrev main_v4 : Ref sig .tc := ⟨.hbm, 10, rfl⟩
abbrev main_v5 : Ref sig .tc := ⟨.hbm, 11, rfl⟩
abbrev main_cst_1 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_cst_2 : Ref sig .tc := ⟨.hbm, 18, rfl⟩
abbrev main_v11 : Ref sig .tc := ⟨.hbm, 19, rfl⟩
abbrev main_v12 : Ref sig .tc := ⟨.hbm, 20, rfl⟩
abbrev main_v13 : Ref sig .tc := ⟨.hbm, 21, rfl⟩
abbrev main_cst_3 : Ref sig .tc := ⟨.hbm, 22, rfl⟩
abbrev main_v14 : Ref sig .tc := ⟨.hbm, 23, rfl⟩
abbrev main_v15 : Ref sig .tc := ⟨.hbm, 24, rfl⟩
abbrev main_v16 : Ref sig .tc := ⟨.hbm, 25, rfl⟩
abbrev main_v17 : Ref sig .tc := ⟨.hbm, 26, rfl⟩

abbrev nD : Nat := 1
abbrev τ : Topo := Topo.v7x

variable {F : FTy → Type} [FloatOps F]

class Facts₀ : Prop where
  bcast_S_S8x1024x4096 : S_.BroadcastsInDim S8x1024x4096 (![] : Fin 0 → Fin S8x1024x4096.rank)
  reducesTo_S8x1024x4096_S8x1024_d2 : S8x1024x4096.ReducesTo [2] S8x1024
  h_S_ : 0 < S_.numel
  bcast_S8x1024_S8x1024x1_0_1 : S8x1024.BroadcastsInDim S8x1024x1 (![0, 1] : Fin 2 → Fin S8x1024x1.rank)
  bcast_S8x1024x1_S8x1024x4096_0_1_2 : S8x1024x1.BroadcastsInDim S8x1024x4096 (![0, 1, 2] : Fin 3 → Fin S8x1024x4096.rank)
  bcast_S_S8x1024x1 : S_.BroadcastsInDim S8x1024x1 (![] : Fin 0 → Fin S8x1024x1.rank)
  bcast_S8x1024x1_S8x1024x1024_0_1_2 : S8x1024x1.BroadcastsInDim S8x1024x1024 (![0, 1, 2] : Fin 3 → Fin S8x1024x1024.rank)
  dot_S8x1024x768_S256x768_S8x1024x256_2_1_01_0_n_n_wf : DotDims.WF S8x1024x768 S256x768 S8x1024x256 [2] [1] [0, 1] [0] [] []
  dot_S8x4096x1024_S256x1024_S8x4096x256_2_1_01_0_n_n_wf : DotDims.WF S8x4096x1024 S256x1024 S8x4096x256 [2] [1] [0, 1] [0] [] []
  dot_S8x1024x256_S8x4096x256_S8x1024x4096_2_2_1_1_0_0_wf : DotDims.WF S8x1024x256 S8x4096x256 S8x1024x4096 [2] [2] [1] [1] [0] [0]
  dot_S8x1024x4096_S8x4096x1024_S8x1024x1024_2_1_1_2_0_0_wf : DotDims.WF S8x1024x4096 S8x4096x1024 S8x1024x1024 [2] [1] [1] [2] [0] [0]

variable [Facts₀]

def dot_S8x1024x768_S256x768_S8x1024x256_2_1_01_0_n_n : DotDims S8x1024x768 S256x768 S8x1024x256 where
  lhsContracting := [2]
  rhsContracting := [1]
  lhsNonContracting := [0, 1]
  rhsNonContracting := [0]
  lhsBatch := []
  rhsBatch := []
  wf := dot_S8x1024x768_S256x768_S8x1024x256_2_1_01_0_n_n_wf
def dot_S8x4096x1024_S256x1024_S8x4096x256_2_1_01_0_n_n : DotDims S8x4096x1024 S256x1024 S8x4096x256 where
  lhsContracting := [2]
  rhsContracting := [1]
  lhsNonContracting := [0, 1]
  rhsNonContracting := [0]
  lhsBatch := []
  rhsBatch := []
  wf := dot_S8x4096x1024_S256x1024_S8x4096x256_2_1_01_0_n_n_wf
def dot_S8x1024x256_S8x4096x256_S8x1024x4096_2_2_1_1_0_0 : DotDims S8x1024x256 S8x4096x256 S8x1024x4096 where
  lhsContracting := [2]
  rhsContracting := [2]
  lhsNonContracting := [1]
  rhsNonContracting := [1]
  lhsBatch := [0]
  rhsBatch := [0]
  wf := dot_S8x1024x256_S8x4096x256_S8x1024x4096_2_2_1_1_0_0_wf
def dot_S8x1024x4096_S8x4096x1024_S8x1024x1024_2_1_1_2_0_0 : DotDims S8x1024x4096 S8x4096x1024 S8x1024x1024 where
  lhsContracting := [2]
  rhsContracting := [1]
  lhsNonContracting := [1]
  rhsNonContracting := [2]
  lhsBatch := [0]
  rhsBatch := [0]
  wf := dot_S8x1024x4096_S8x4096x1024_S8x1024x1024_2_1_1_2_0_0_wf

class Facts : Prop extends Facts₀ where

variable [Facts]
-- ==== Proof.BitsQProjRegion.lean ====
/-
  Region 0 of the kernel program: the query projection. One grid point per batch entry b; the body reads the whole
  1×1024×768 block of G and the whole 256×768 matrix Wq and stores, over the whole 1×1024×256 output block, one
  value computed from those two blocks alone. Stated at a parameter V, the buffer contents when the region is
  entered, and at any float instance.
-/
import proofs.«145177_j79886391705810_2_alg».proof.Proof.Gen.Kernel.Launch
import proofs.«145177_j79886391705810_2_alg».proof.Proof.Gen.Kernel.Skeleton
import proofs.«145177_j79886391705810_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev r0_g : Rect S1x1024x768 := Rect.unit (s := S1x1024x768) ![0, 0, 0] S1x1024x768.size inb_S1x1024x768_S1x1024x768_0_0_0
abbrev r0_w : Rect S256x768 := Rect.unit (s := S256x768) ![0, 0] S256x768.size inb_S256x768_S256x768_0_0
abbrev r0_q : Rect S1x1024x256 := Rect.unit (s := S1x1024x256) ![0, 0, 0] S1x1024x256.size inb_S1x1024x256_S1x1024x256_0_0_0

/-- What the body leaves in the output block: its one store, over the whole block, of the projection of the two input blocks. -/
def out0_2 (x0 : Vec F S1x1024x768 .f32) (x1 : Vec F S256x768 .f32) : Vec F S1x1024x256 .bf16 :=
  View.canon [⟨r0_q, k0_pay1 (View.ld x0 r0_g) (View.ld x1 r0_w)⟩]

/-- The one store covers the block. -/
theorem cover0_2 (p0 : Vec F S1x1024x256 .bf16) (y : S1x1024x256.Idx) :
    ∃ pc ∈ ([⟨r0_q, p0⟩] : List (View.Piece (Elt F) S1x1024x256 .bf16)), y ∈ pc.1.set :=
  View.cover_of_tiled [⟨r0_q, p0⟩] S1x1024x256.size (by rfl) y

set_option maxHeartbeats 1000000 in
/-- The body on whole staging buffers: the two inputs are left as read, the output block holds out0_2 of them. -/
theorem sound_kernel0 (c : Dev nD) (E : Set ℕ) (i : grid0.Coords) (arg1 : Memref sig .tc .vmem S1x1024x768 .f32) (harg1 : arg1.IsWhole)
    (arg2 : Memref sig .tc .vmem S256x768 .f32) (harg2 : arg2.IsWhole) (arg3 : Memref sig .tc .vmem S1x1024x256 .bf16) (harg3 : arg3.IsWhole)
    (x0 : Vec F S1x1024x768 .f32) (x1 : Vec F S256x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core c: the arrays as the region finds them; after the body the inputs' buffers
    at their blocks, the output's at out0_2 of them; the invariant the scoped rest and the random-number register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.Kernel.Hand

end
-- ==== Proof.BitsAttnShared.lean ====
/-
  Region 1 of the kernel program, the streaming attention: what its three control cases share. The grid is
  8 × 4: point t is batch entry t / 4 and key tile t % 4. The body resets its three running buffers (row maxima,
  row denominators, the 1024×1024 accumulator) at tile 0, updates them at every tile, and divides the
  accumulator by the denominators into the output block at tile 3 only; at the other tiles the output block is
  idle and is not written back.
-/
import proofs.«145177_j79886391705810_2_alg».proof.Proof.Gen.Kernel.Launch
import proofs.«145177_j79886391705810_2_alg».proof.Proof.Gen.Kernel.Skeleton
import proofs.«145177_j79886391705810_2_alg».proof.Proof.Gen.Kernel.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Shared

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Shared

/-! ## The body's two branch conditions, decided over the grid -/

/-- "This is key tile 0": the reset of the running buffers. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is key tile 3": the division into the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from tile 3 the output block is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At tile 3 it is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three running buffers: row maxima, row denominators, accumulator. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2
abbrev VM : View sig .tc .vmem S1024x1 .f32 := scM.view
abbrev VL : View sig .tc .vmem S1024x1 .f32 := scL.view
abbrev VA : View sig .tc .vmem S1024x1024 .f32 := scA.view
/-- One staging buffer of the output window, through which its contents are stated. -/
abbrev VO : View sig .tc .vmem S1x1024x1024 .f32 := (Memref.whole cc1_stg3_0 : Memref sig .tc .vmem S1x1024x1024 .f32).view

/-- The region's resting invariant with the three running buffers owned at some contents. -/
theorem PhiA1_eq (c : Dev nD) :
    (Pipeline.ΦA spec1 c : sProp 𝕄)
      = iprop(iprop((∃ d, owns (c : Thread nD τ) (Memref.whole cc0_stg0_0) fullShare d) ∗ (∃ d, owns (c : Thread nD τ) (Memref.whole cc0_stg0_1) fullShare d) ∗ (∃ d, owns (c : Thread nD τ) (Memref.whole cc0_stg1_0) fullShare d) ∗ (∃ d, owns (c : Thread nD τ) (Memref.whole cc0_stg2_0) fullShare d) ∗ (∃ d, owns (c : Thread nD τ) (Memref.whole cc0_stg2_1) fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.Kernel.Hand

end
-- ==== Proof.BitsAttnRunA.lean ====
/-
  Region 1 at key tile 0 of a batch entry: the running buffers are reset (maxima to -inf, denominators and accumulator to 0) and then updated with the tile; the output block is idle.
-/
import proofs.«145177_j79886391705810_2_alg».proof.Proof.BitsAttnShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 8000000 in
/-- The body in this case, on whole buffers: the three input blocks at their contents, the output block idle (handed back untouched),
    the three running buffers at anything. It runs to the end, the inputs as they were, and each buffer it
    stored into holding its stores, as pieces the run finds. -/
noncomputable def kernelRun1_A (c : Dev nD) (i : grid1.Coords) (arg2 : Memref sig .tc .vmem S1x1024x256 .bf16) (harg2 : arg2.IsWhole) (arg3 : Memref sig .tc .vmem S1x1024x1024 .f32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1x1024x256 .bf16) (x1 : Vec F S1x1024x1024 .f32) (x2 : Vec F S256x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.BitsAttnRunB.lean ====
/-
  Region 1 at key tiles 1 and 2: the running buffers, as the tile before left them, are updated with the tile; the output block is idle.
-/
import proofs.«145177_j79886391705810_2_alg».proof.Proof.BitsAttnShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 8000000 in
/-- The body in this case, on whole buffers: the three input blocks at their contents, the output block idle (handed back untouched),
    the three running buffers at what the tile before left. It runs to the end, the inputs as they were, and each buffer it
    stored into holding its stores, as pieces the run finds. -/
noncomputable def kernelRun1_B (c : Dev nD) (i : grid1.Coords) (arg2 : Memref sig .tc .vmem S1x1024x256 .bf16) (harg2 : arg2.IsWhole) (arg3 : Memref sig .tc .vmem S1x1024x1024 .f32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1x1024x256 .bf16) (x1 : Vec F S1x1024x1024 .f32) (x2 : Vec F S256x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.Kernel.Hand

end
-- ==== Proof.BitsAttnRunC.lean ====
/-
  Region 1 at key tile 3, the last of a batch entry: the running buffers are updated with the tile and the accumulator divided by the denominators (plus the guard constant) is stored over the whole output block.
-/
import proofs.«145177_j79886391705810_2_alg».proof.Proof.BitsAttnShared

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

set_option maxHeartbeats 8000000 in
/-- The body in this case, on whole buffers: the three input blocks at their contents, the output block at anything,
    the three running buffers at what the tile before left. It runs to the end, the inputs as they were, and each buffer it
    stored into holding its stores, as pieces the run finds. -/
noncomputable def kernelRun1_C (c : Dev nD) (i : grid1.Coords) (arg2 : Memref sig .tc .vmem S1x1024x256 .bf16) (harg2 : arg2.IsWhole) (arg3 : Memref sig .tc .vmem S1x1024x1024 .f32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1x1024x256 .bf16) (x1 : Vec F S1x1024x1024 .f32) (x2 : Vec F S256x1024 .f32) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.Kernel.Hand

end
-- ==== Proof.BitsAttnRegion.lean ====
/-
  Region 1 assembled: what the output block and the three running buffers hold after each grid point, by
  recursion on the point (tile 0 starts afresh; tiles 1, 2, 3 continue from what the tile before left), the
  region's invariant carrying the running buffers at those contents from one point to the next, the proof data,
  and the body's obligation at every point.
-/
import proofs.«145177_j79886391705810_2_alg».proof.Proof.BitsAttnRunA
import proofs.«145177_j79886391705810_2_alg».proof.Proof.BitsAttnRunB
import proofs.«145177_j79886391705810_2_alg».proof.Proof.BitsAttnRunC

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves, read back from the pieces its run found -/

/-- After tile 0: (row maxima, row denominators, accumulator). -/
def stepA (c : Dev nD) (t : Fin cfg1.N) (h0 : t.val % 4 = 0) : Vec F S1024x1 .f32 × Vec F S1024x1 .f32 × Vec F S1024x1024 .f32 :=
  (VM.read (Elt F) (VM.writes (Elt F) VM.junk (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).1),
   VL.read (Elt F) (VL.writes (Elt F) VL.junk (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.1),
   VA.read (Elt F) (VA.writes (Elt F) VA.junk (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.1))
/-- After tile 1 or 2, from what the tile before left (p). -/
def stepB (c : Dev nD) (t : Fin cfg1.N) (h0 : ¬t.val % 4 = 0) (h1 : ¬t.val % 4 = 3) (p : Vec F S1024x1 .f32 × Vec F S1024x1 .f32 × Vec F S1024x1024 .f32) : Vec F S1024x1 .f32 × Vec F S1024x1 .f32 × Vec F S1024x1024 .f32 :=
  (VM.read (Elt F) (VM.writes (Elt F) VM.junk (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).1),
   VL.read (Elt F) (VL.writes (Elt F) VL.junk (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.1),
   VA.read (Elt F) (VA.writes (Elt F) VA.junk (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.2.1))
/-- After tile 3, from what tile 2 left (p): the running buffers, -/
def stepC (c : Dev nD) (t : Fin cfg1.N) (h1 : t.val % 4 = 3) (p : Vec F S1024x1 .f32 × Vec F S1024x1 .f32 × Vec F S1024x1024 .f32) : Vec F S1024x1 .f32 × Vec F S1024x1 .f32 × Vec F S1024x1024 .f32 :=
  (VM.read (Elt F) (VM.writes (Elt F) VM.junk (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.1),
   VL.read (Elt F) (VL.writes (Elt F) VL.junk (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.1),
   VA.read (Elt F) (VA.writes (Elt F) VA.junk (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.2.1))
/-- and the output block. -/
def outC (c : Dev nD) (t : Fin cfg1.N) (h1 : t.val % 4 = 3) (p : Vec F S1024x1 .f32 × Vec F S1024x1 .f32 × Vec F S1024x1024 .f32) : Vec F S1x1024x1024 .f32 :=
  VO.read (Elt F) (VO.writes (Elt F) VO.junk (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).1)
/-- At the other tiles nothing is stored into the output block; nothing reads this placeholder. -/
def outIdle : Vec F S1x1024x1024 .f32 := VO.read (Elt F) VO.junk

/-! ## Each buffer a case stores into is covered by its stores -/

theorem coverM_A (c : Dev nD) (t : Fin cfg1.N) (h0 : t.val % 4 = 0) (y : S1024x1.Idx) : ∃ pc ∈ (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).1, y ∈ pc.1.set :=
  View.cover_of_tiledL (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).1 S1024x1.size (by sl_kernel_rfl) y
theorem coverL_A (c : Dev nD) (t : Fin cfg1.N) (h0 : t.val % 4 = 0) (y : S1024x1.Idx) : ∃ pc ∈ (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.1 S1024x1.size (by sl_kernel_rfl) y
theorem coverA_A (c : Dev nD) (t : Fin cfg1.N) (h0 : t.val % 4 = 0) (y : S1024x1024.Idx) : ∃ pc ∈ (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.1 S1024x1024.size (by sl_kernel_rfl) y
theorem coverM_B (c : Dev nD) (t : Fin cfg1.N) (h0 : ¬t.val % 4 = 0) (h1 : ¬t.val % 4 = 3) (p : Vec F S1024x1 .f32 × Vec F S1024x1 .f32 × Vec F S1024x1024 .f32) (y : S1024x1.Idx) : ∃ pc ∈ (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).1, y ∈ pc.1.set :=
  View.cover_of_tiledL (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).1 S1024x1.size (by sl_kernel_rfl) y
theorem coverL_B (c : Dev nD) (t : Fin cfg1.N) (h0 : ¬t.val % 4 = 0) (h1 : ¬t.val % 4 = 3) (p : Vec F S1024x1 .f32 × Vec F S1024x1 .f32 × Vec F S1024x1024 .f32) (y : S1024x1.Idx) : ∃ pc ∈ (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.1, y ∈ pc.1.set :=
  View.cover_of_tiledL (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.1 S1024x1.size (by sl_kernel_rfl) y
theorem coverA_B (c : Dev nD) (t : Fin cfg1.N) (h0 : ¬t.val % 4 = 0) (h1 : ¬t.val % 4 = 3) (p : Vec F S1024x1 .f32 × Vec F S1024x1 .f32 × Vec F S1024x1024 .f32) (y : S1024x1024.Idx) : ∃ pc ∈ (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.2.1 S1024x1024.size (by sl_kernel_rfl) y
theorem coverM_C (c : Dev nD) (t : Fin cfg1.N) (h1 : t.val % 4 = 3) (p : Vec F S1024x1 .f32 × Vec F S1024x1 .f32 × Vec F S1024x1024 .f32) (y : S1024x1.Idx) : ∃ pc ∈ (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.1 S1024x1.size (by sl_kernel_rfl) y
theorem coverL_C (c : Dev nD) (t : Fin cfg1.N) (h1 : t.val % 4 = 3) (p : Vec F S1024x1 .f32 × Vec F S1024x1 .f32 × Vec F S1024x1024 .f32) (y : S1024x1.Idx) : ∃ pc ∈ (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.1 S1024x1.size (by sl_kernel_rfl) y
theorem coverA_C (c : Dev nD) (t : Fin cfg1.N) (h1 : t.val % 4 = 3) (p : Vec F S1024x1 .f32 × Vec F S1024x1 .f32 × Vec F S1024x1024 .f32) (y : S1024x1024.Idx) : ∃ pc ∈ (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.2.1 S1024x1024.size (by sl_kernel_rfl) y
theorem coverO_C (c : Dev nD) (t : Fin cfg1.N) (h1 : t.val % 4 = 3) (p : Vec F S1024x1 .f32 × Vec F S1024x1 .f32 × Vec F S1024x1024 .f32) (y : S1x1024x1024.Idx) : ∃ pc ∈ (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).1, y ∈ pc.1.set :=
  View.cover_of_tiledL (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).1 S1x1024x1024.size (by sl_kernel_rfl) y

/-! ## Point by point -/

/-- The running buffers after the body at position n: tile 0 afresh, the others from position n - 1. -/
def scrAt (c : Dev nD) : (n : ℕ) → n < cfg1.N → Vec F S1024x1 .f32 × Vec F S1024x1 .f32 × Vec F S1024x1024 .f32
  | 0, hn => stepA V c ⟨0, hn⟩ (Nat.zero_mod 4)
  | n + 1, hn =>
    if h0 : (n + 1) % 4 = 0 then stepA V c ⟨n + 1, hn⟩ h0
    else if h1 : (n + 1) % 4 = 3 then stepC V c ⟨n + 1, hn⟩ h1 (scrAt c n (Nat.lt_of_succ_lt hn))
    else stepB V c ⟨n + 1, hn⟩ h0 h1 (scrAt c n (Nat.lt_of_succ_lt hn))

/-- The output block after the body at position n: the division at tile 3, a placeholder elsewhere. -/
def outAt (c : Dev nD) : (n : ℕ) → n < cfg1.N → Vec F S1x1024x1024 .f32
  | 0, _ => outIdle
  | n + 1, hn => if h1 : (n + 1) % 4 = 3 then outC V c ⟨n + 1, hn⟩ h1 (scrAt V c n (Nat.lt_of_succ_lt hn)) else outIdle

theorem scrAt_A (c : Dev nD) (t : Fin cfg1.N) (h0 : t.val % 4 = 0) : scrAt V c t.val t.isLt = stepA V c t h0 := by
  obtain ⟨n, hn⟩ := t
  cases n with
  | zero => rfl
  | succ n => exact dif_pos h0
theorem scrAt_B (c : Dev nD) (t : Fin cfg1.N) (h0 : ¬t.val % 4 = 0) (h1 : ¬t.val % 4 = 3) :
    scrAt V c t.val t.isLt = stepB V c t h0 h1 (scrAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem scrAt_C (c : Dev nD) (t : Fin cfg1.N) (h1 : t.val % 4 = 3) :
    scrAt V c t.val t.isLt = stepC V c t h1 (scrAt V c (t.val - 1) (Nat.lt_of_le_of_lt (Nat.sub_le _ _) t.isLt)) := by
  obtain ⟨n, hn⟩ := t
  cases n with
  | zero => exact absurd (show (0 : ℕ) % 4 = 3 from h1) (by decide)
  | succ n =>
    have h1' : (n + 1) % 4 = 3 := h1
    have h0' : ¬(n + 1) % 4 = 0 := by omega
    exact (dif_neg h0').trans ((dif_pos h1').trans rfl)
theorem outAt_C (c : Dev nD) (t : Fin cfg1.N) (h1 : t.val % 4 = 3) :
    outAt V c t.val t.isLt = outC V c t h1 (scrAt V c (t.val - 1) (Nat.lt_of_le_of_lt (Nat.sub_le _ _) t.isLt)) := by
  obtain ⟨n, hn⟩ := t
  cases n with
  | zero => exact absurd (show (0 : ℕ) % 4 = 3 from h1) (by decide)
  | succ n =>
    have h1' : (n + 1) % 4 = 3 := h1
    exact (dif_pos h1').trans rfl

/-! ## The invariant -/

/-- The scoped buffers of the other region, which this region never touches. -/
abbrev otherRest (c : Dev nD) : sProp 𝕄 :=
  iprop((∃ d, owns (c : Thread nD τ) (Memref.whole cc0_stg0_0) fullShare d) ∗ (∃ d, owns (c : Thread nD τ) (Memref.whole cc0_stg0_1) fullShare d) ∗ (∃ d, owns (c : Thread nD τ) (Memref.whole cc0_stg1_0) fullShare d) ∗ (∃ d, owns (c : Thread nD τ) (Memref.whole cc0_stg2_0) fullShare d) ∗ (∃ d, owns (c : Thread nD τ) (Memref.whole cc0_stg2_1) fullShare d))

/-- Before position n: at the region's entry the running buffers hold anything; afterwards what position n - 1 left. -/
def PhiS (c : Dev nD) : (n : ℕ) → n ≤ cfg1.N → sProp 𝕄
  | 0, _ => Pipeline.ΦA spec1 c
  | n + 1, hn => iprop(iprop(otherRest c ∗ owns (c : Thread nD τ) scM fullShare (scrAt V c n hn).1 ∗ owns (c : Thread nD τ) scL fullShare (scrAt V c n hn).2.1 ∗ owns (c : Thread nD τ) scA fullShare (scrAt V c n hn).2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(otherRest c ∗ owns (c : Thread nD τ) scM fullShare (scrAt V c n hn).1 ∗ owns (c : Thread nD τ) scL fullShare (scrAt V c n hn).2.1 ∗ owns (c : Thread nD τ) scA fullShare (scrAt V c n hn).2.2) ∗ (∃ r, prngReg c r)) := rfl
theorem PhiS_pos (c : Dev nD) (n : ℕ) (h : n ≤ cfg1.N) (hz : n ≠ 0) :
    PhiS V c n h = iprop(iprop(otherRest c ∗ owns (c : Thread nD τ) scM fullShare (scrAt V c (n - 1) (by omega)).1 ∗ owns (c : Thread nD τ) scL fullShare (scrAt V c (n - 1) (by omega)).2.1 ∗ owns (c : Thread nD τ) scA fullShare (scrAt V c (n - 1) (by omega)).2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point. The inputs' buffers hold their blocks; the tile number says which case the point is in;
    the invariant hands the body the running buffers (at anything at the very first point, else at what the point
    before left) and takes them back at this point's contents, each covered by the case's stores. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have hc1 : ¬cond1_1 (grid1.coords t) := fun h => by have := (hcond1_1 t).mp h; omega
    rw [Dat.leavesExact_idle (dat1 V c) 3 t (idleAt1_3 t hc1) (noFlush1_3 t hc1)]
    rw [scrAt_A V c t h0]
    unfold stepA; (try dsimp only)
    by_cases hz : t.val = 0
    · rw [PhiS_castSucc V c t, PhiS_zero V c _ _ hz, PhiA1_eq]
      iintro ⟨⟨⟨R0, R1, R2, R3, R4, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [R0 R1 R2 R3 R4 HS0 HS1 HS2 Hg]
      · isplitr [Hg]
        · isplitl [R0 R1 R2 R3 R4]
          · isplitl [R0]; · iexact R0
            isplitl [R1]; · iexact R1
            isplitl [R2]; · iexact R2
            isplitl [R3]; · iexact R3
            iexact R4
          isplitl [HS0]
          · unfold owns; iexists _; isplitr
            swap; · iexact HS0
            ipureintro; exact View.read_writes_of_cover _ _ _ _ _ (coverM_A V c t h0)
          isplitl [HS1]
          · unfold owns; iexists _; isplitr
            swap; · iexact HS1
            ipureintro; exact View.read_writes_of_cover _ _ _ _ _ (coverL_A V c t h0)
          unfold owns; iexists _; isplitr
          swap; · iexact HS2
          ipureintro; exact View.read_writes_of_cover _ _ _ _ _ (coverA_A V c t h0)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨R0, R1, R2, R3, R4⟩, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [R0 R1 R2 R3 R4 HS0 HS1 HS2 Hg]
      · isplitr [Hg]
        · isplitl [R0 R1 R2 R3 R4]
          · isplitl [R0]; · iexact R0
            isplitl [R1]; · iexact R1
            isplitl [R2]; · iexact R2
            isplitl [R3]; · iexact R3
            iexact R4
          isplitl [HS0]
          · unfold owns; iexists _; isplitr
            swap; · iexact HS0
            ipureintro; exact View.read_writes_of_cover _ _ _ _ _ (coverM_A V c t h0)
          isplitl [HS1]
          · unfold owns; iexists _; isplitr
            swap; · iexact HS1
            ipureintro; exact View.read_writes_of_cover _ _ _ _ _ (coverL_A V c t h0)
          unfold owns; iexists _; isplitr
          swap; · iexact HS2
          ipureintro; exact View.read_writes_of_cover _ _ _ _ _ (coverA_A V c t h0)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [scrAt_C V c t h1, outAt_C V c t h1]
      unfold stepC outC; (try dsimp only)
      rw [PhiS_castSucc V c t, PhiS_pos V c _ _ hz]
      generalize scrAt V c (t.val - 1) (Nat.lt_of_le_of_lt (Nat.sub_le _ _) t.isLt) = p
      iintro ⟨⟨⟨⟨R0, R1, R2, R3, R4⟩, HS0, HS1, HS2⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [R0 R1 R2 R3 R4 HS0 HS1 HS2 Hg]
      · isplitr [Hg]
        · isplitl [R0 R1 R2 R3 R4]
          · isplitl [R0]; · iexact R0
            isplitl [R1]; · iexact R1
            isplitl [R2]; · iexact R2
            isplitl [R3]; · iexact R3
            iexact R4
          isplitl [HS0]
          · unfold owns; iexists _; isplitr
            swap; · iexact HS0
            ipureintro; exact View.read_writes_of_cover _ _ _ _ _ (coverM_C V c t h1 p)
          isplitl [HS1]
          · unfold owns; iexists _; isplitr
            swap; · iexact HS1
            ipureintro; exact View.read_writes_of_cover _ _ _ _ _ (coverL_C V c t h1 p)
          unfold owns; iexists _; isplitr
          swap; · iexact HS2
          ipureintro; exact View.read_writes_of_cover _ _ _ _ _ (coverA_C V c t h1 p)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverO_C V c t h1 p)
    · have hc1 : ¬cond1_1 (grid1.coords t) := fun h => h1 ((hcond1_1 t).mp h)
      rw [Dat.leavesExact_idle (dat1 V c) 3 t (idleAt1_3 t hc1) (noFlush1_3 t hc1)]
      rw [scrAt_B V c t h0 h1]
      unfold stepB; (try dsimp only)
      rw [PhiS_castSucc V c t, PhiS_pos V c _ _ hz]
      generalize scrAt V c (t.val - 1) (Nat.lt_of_le_of_lt (Nat.sub_le _ _) t.isLt) = p
      iintro ⟨⟨⟨⟨R0, R1, R2, R3, R4⟩, HS0, HS1, HS2⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [R0 R1 R2 R3 R4 HS0 HS1 HS2 Hg]
      · isplitr [Hg]
        · isplitl [R0 R1 R2 R3 R4]
          · isplitl [R0]; · iexact R0
            isplitl [R1]; · iexact R1
            isplitl [R2]; · iexact R2
            isplitl [R3]; · iexact R3
            iexact R4
          isplitl [HS0]
          · unfold owns; iexists _; isplitr
            swap; · iexact HS0
            ipureintro; exact View.read_writes_of_cover _ _ _ _ _ (coverM_B V c t h0 h1 p)
          isplitl [HS1]
          · unfold owns; iexists _; isplitr
            swap; · iexact HS1
            ipureintro; exact View.read_writes_of_cover _ _ _ _ _ (coverL_B V c t h0 h1 p)
          unfold owns; iexists _; isplitr
          swap; · iexact HS2
          ipureintro; exact View.read_writes_of_cover _ _ _ _ _ (coverA_B V c t h0 h1 p)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the resting one back: the running buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨⟨R0, R1, R2, R3, R4⟩, HS0, HS1, HS2⟩, Hg⟩
  isplitr [Hg]
  · isplitl [R0]; · iexact R0
    isplitl [R1]; · iexact R1
    isplitl [R2]; · iexact R2
    isplitl [R3]; · iexact R3
    isplitl [R4]; · iexact R4
    isplitl [HS0]; · iexists _; iexact HS0
    isplitl [HS1]; · iexists _; iexact HS1
    iexists _; iexact HS2
  iexact Hg

end Region1

end Cert.Kernel.Hand

end
-- ==== Proof.BitsKernelRun.lean ====
/-
  The kernel program's run: @main is the two regions in order. Between them the unscoped buffers hold, at launch,
  the launch memory; after region 0, the same with the projected queries written; after region 1, the same with
  the result written. Every weakly fair execution terminates, and the final memory holds every unscoped buffer at
  the last of these contents: the arguments as launched, the result array at what region 1's write-backs leave.
-/
import proofs.«145177_j79886391705810_2_alg».proof.Proof.BitsQProjRegion
import proofs.«145177_j79886391705810_2_alg».proof.Proof.BitsAttnRegion

set_option maxRecDepth 16384

noncomputable section

namespace Cert.Kernel.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.Kernel Cert.Kernel.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After region 1. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### No region writes an argument: each is an input window of one region and untouched by the other -/

/-- H: the key/value window of region 1. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := W1_of_ne m ρ c main_arg0 (by decide)
    _ = m ((c : Thread nD τ).loc main_arg0) := rfl
/-- G: the first window of region 0. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- Wq: the second window of region 0. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- Wk: the third window of region 1. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 2).trans (((dat1 (V1 m ρ) c).arrAt_in 2 rfl _).trans (A_eq1 (V1 m ρ) c 2))
    _ = W0 m ρ c (Proc.devRef .tc main_arg3) := W1_of_ne m ρ c main_arg3 (by decide)
    _ = m ((c : Thread nD τ).loc main_arg3) := rfl
/-- The result array ends at what region 1's write-backs leave. -/
theorem W2_main_v1 (c : Dev nD) : W2 m ρ c (Proc.devRef .tc main_v1) = (dat1 (V1 m ρ) c).arrAt 3 cfg1.N :=
  W2_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the random-number register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
/-- Region 0 as a segment: entered with every unscoped buffer at the contents before it, left with them at the
    contents after it; its arrays are split out of the unscoped buffers at entry and put back at exit; the random-number
    register rides through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers at entry and put back at exit; the random-number
    register rides through the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the contents after region 1. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The run with the result array named: it ends at what region 1's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.Kernel.Hand

end
-- ==== Proof.QProjRegion.lean ====
/-
  Region 0 of the kernel program: the query projection. One grid point per batch entry b; the body reads the whole
  1×1024×768 block of G and the whole 256×768 matrix Wq and stores, over the whole 1×1024×256 output block, one
  value computed from those two blocks alone. Stated at a parameter V, the buffer contents when the region is
  entered, and at any float instance.
-/
import proofs.«145177_j79886391705810_2_alg».proof.Proof.Gen.KernelIdeal.Launch
import proofs.«145177_j79886391705810_2_alg».proof.Proof.Gen.KernelIdeal.Skeleton
import proofs.«145177_j79886391705810_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region0

variable (V : (c : Dev nD) → (b : Ref sig .tc) → Buf (Elt F) ((c : Thread nD τ).loc b))

/-- Window w's block at grid point t, read off its array as the region finds it. -/
def iblk0 (c : Dev nD) (w : Fin cfg0.W) (t : Fin cfg0.N) : ((cfg0.win w).xblock (cfg0.grid.coords t)).Idx → Elt F (cfg0.win w).elt :=
  ((cfg0.win w).blk t).view.read (Elt F) (V c (Pipeline.arrRef spec0 w))

/-- An input window's staging buffer holds its block at every point, whether the point fetches it or not. -/
theorem before0_0_of {c : Dev nD} (dat : Dat τ (Elt F) Unit ℕ (UR sig nD τ) ℕ cfg0 c) (hA : dat.A 0 = V c (Pipeline.arrRef spec0 0))
    (hafter : ∀ t, dat.after 0 t = iblk0 V c 0 t) (t : Fin cfg0.N) (d) : dat.before 0 t d = iblk0 V c 0 t :=
  (dat.before_in_eq_fetched 0 rfl (fun _ => rfl) (fun _ _ _ => rfl) (fun t => by rw [hafter]; unfold Dat.blockOf iblk0; rw [hA]; try rfl) t d).trans
    (by unfold Dat.fetched Dat.blockOf iblk0; rw [hA]; try rfl)
theorem before0_1_of {c : Dev nD} (dat : Dat τ (Elt F) Unit ℕ (UR sig nD τ) ℕ cfg0 c) (hA : dat.A 1 = V c (Pipeline.arrRef spec0 1))
    (hafter : ∀ t, dat.after 1 t = iblk0 V c 1 t) (t : Fin cfg0.N) (d) : dat.before 1 t d = iblk0 V c 1 t :=
  (dat.before_in_eq_fetched 1 rfl (fun _ => rfl) (fun _ _ _ => rfl) (fun t => by rw [hafter]; unfold Dat.blockOf iblk0; rw [hA]; try rfl) t d).trans
    (by unfold Dat.fetched Dat.blockOf iblk0; rw [hA]; try rfl)

/-- The three whole-buffer rectangles the body reads and writes through. -/
abbrev r0_g : Rect S1x1024x768 := Rect.unit (s := S1x1024x768) ![0, 0, 0] S1x1024x768.size inb_S1x1024x768_S1x1024x768_0_0_0
abbrev r0_w : Rect S256x768 := Rect.unit (s := S256x768) ![0, 0] S256x768.size inb_S256x768_S256x768_0_0
abbrev r0_q : Rect S1x1024x256 := Rect.unit (s := S1x1024x256) ![0, 0, 0] S1x1024x256.size inb_S1x1024x256_S1x1024x256_0_0_0

/-- What the body leaves in the output block: its one store, over the whole block, of the projection of the two input blocks. -/
def out0_2 (x0 : Vec F S1x1024x768 .f32) (x1 : Vec F S256x768 .f32) : Vec F S1x1024x256 .bf16 :=
  View.canon [⟨r0_q, k0_pay1 (View.ld x0 r0_g) (View.ld x1 r0_w)⟩]

/-- The one store covers the block. -/
theorem cover0_2 (p0 : Vec F S1x1024x256 .bf16) (y : S1x1024x256.Idx) :
    ∃ pc ∈ ([⟨r0_q, p0⟩] : List (View.Piece (Elt F) S1x1024x256 .bf16)), y ∈ pc.1.set :=
  View.cover_of_tiled [⟨r0_q, p0⟩] S1x1024x256.size (by rfl) y

set_option maxHeartbeats 1000000 in
/-- The body on whole staging buffers: the two inputs are left as read, the output block holds out0_2 of them. -/
theorem sound_kernel0 (c : Dev nD) (E : Set ℕ) (i : grid0.Coords) (arg1 : Memref sig .tc .vmem S1x1024x768 .f32) (harg1 : arg1.IsWhole)
    (arg2 : Memref sig .tc .vmem S256x768 .f32) (harg2 : arg2.IsWhole) (arg3 : Memref sig .tc .vmem S1x1024x256 .bf16) (harg3 : arg3.IsWhole)
    (x0 : Vec F S1x1024x768 .f32) (x1 : Vec F S256x768 .f32) (K : PUnit → sProp 𝕄) :
    iprop(owns (c : Thread nD τ) arg1 fullShare x0 ∗ owns (c : Thread nD τ) arg2 fullShare x1 ∗ (∃ d, owns (c : Thread nD τ) arg3 fullShare d)
        ∗ (iprop(owns (c : Thread nD τ) arg1 fullShare x0 ∗ owns (c : Thread nD τ) arg2 fullShare x1 ∗ owns (c : Thread nD τ) arg3 fullShare (out0_2 x0 x1)) -∗ K ⟨⟩))
      ⊢ wp frame (wpE (defs₀ (F := F)) Variants.none c none) E (cc0_kernel i arg1 harg1 arg2 harg2 arg3 harg3) K := by
  simp only [cc0_kernel_eq_skeleton]; unfold cc0_kernel_skel
  unfold owns
  iintro ⟨⟨%f0, %hf0, H0⟩, ⟨%f1, %hf1, H1⟩, ⟨%d2, %f2, -, H2⟩, Hk⟩
  subst hf0; subst hf1
  sl_exec
  sl_step
  iapply Hk
  isplitl [H0]
  · iexists f0; isplitr; · ipureintro; rfl
    iexact H0
  isplitl [H1]
  · iexists f1; isplitr; · ipureintro; rfl
    iexact H1
  iexists _; isplitr
  swap; · iexact H2
  ipureintro
  exact View.read_writes_eq_canon _ _ _ (cover0_2 _)

/-- The proof data of region 0 on core c: the arrays as the region finds them; after the body the inputs' buffers
    at their blocks, the output's at out0_2 of them; the invariant the scoped rest and the random-number register. -/
def dat0 (c : Dev nD) : Dat τ (Elt F) Unit ℕ (UR sig nD τ) ℕ cfg0 c where
  A w := V c (Pipeline.arrRef spec0 w)
  after w t := match w with
    | ⟨0, _⟩ => iblk0 V c 0 t
    | ⟨1, _⟩ => iblk0 V c 1 t
    | ⟨2, _⟩ => out0_2 (iblk0 V c 0 t) (iblk0 V c 1 t)
  Φ _ := Pipeline.ΦA spec0 c
  q _ := fullShare
  owed _ := 0

theorem A_eq0 (c : Dev nD) (w : Fin cfg0.W) : (dat0 V c).A w = V c (Pipeline.arrRef spec0 w) := by
  dsimp only [dat0]
theorem after0_0 (c : Dev nD) (t : Fin cfg0.N) : (dat0 V c).after 0 t = iblk0 V c 0 t := by dsimp only [dat0]
theorem after0_1 (c : Dev nD) (t : Fin cfg0.N) : (dat0 V c).after 1 t = iblk0 V c 1 t := by dsimp only [dat0]
theorem after0_2 (c : Dev nD) (t : Fin cfg0.N) : (dat0 V c).after 2 t = out0_2 (iblk0 V c 0 t) (iblk0 V c 1 t) := by dsimp only [dat0]
theorem before0_0 (c : Dev nD) (t : Fin cfg0.N) (d) : (dat0 V c).before 0 t d = iblk0 V c 0 t :=
  before0_0_of V (dat0 V c) (A_eq0 V c 0) (after0_0 V c) t d
theorem before0_1 (c : Dev nD) (t : Fin cfg0.N) (d) : (dat0 V c).before 1 t d = iblk0 V c 1 t :=
  before0_1_of V (dat0 V c) (A_eq0 V c 1) (after0_1 V c) t d

def bodyPre0 (c : Dev nD) (t : Fin cfg0.N) : sProp 𝕄 :=
  iprop((dat0 V c).Φ t.castSucc ∗ (dat0 V c).owesAt () t.castSucc
    ∗ (∃ d, owns (c : Thread nD τ) (st0_0 t) fullShare ((dat0 V c).before 0 t d))
    ∗ (∃ d, owns (c : Thread nD τ) (st0_1 t) fullShare ((dat0 V c).before 1 t d))
    ∗ (∃ d, owns (c : Thread nD τ) (st0_2 t) fullShare ((dat0 V c).before 2 t d)))

def bodyPost0 (c : Dev nD) (t : Fin cfg0.N) : sProp 𝕄 :=
  iprop((dat0 V c).Φ t.succ ∗ (dat0 V c).owesAt () t.succ
    ∗ owns (c : Thread nD τ) (st0_0 t) fullShare ((dat0 V c).after 0 t)
    ∗ owns (c : Thread nD τ) (st0_1 t) fullShare ((dat0 V c).after 1 t)
    ∗ owns (c : Thread nD τ) (st0_2 t) fullShare ((dat0 V c).after 2 t))

theorem sound_body0 (c : Dev nD) (t : Fin cfg0.N) :
    bodyPre0 V c t ⊢ wp frame (wpE (defs₀ (F := F)) Variants.none c none) Set.univ (bodyAt0 t) (fun _ => bodyPost0 V c t) := by
  unfold bodyPre0 bodyPost0 bodyAt0
  simp only [before0_0, before0_1]
  rw [show (dat0 V c).Φ t.succ = (dat0 V c).Φ t.castSucc from rfl,
    show (dat0 V c).owesAt () t.succ = (dat0 V c).owesAt () t.castSucc from rfl,
    after0_0, after0_1, after0_2]
  iintro ⟨HΦ, Ho, ⟨%d0, H0⟩, ⟨%d1, H1⟩, ⟨%d2, H2⟩⟩
  iapply (sound_kernel0 c Set.univ _ _ _ _ _ _ _ (iblk0 V c 0 t) (iblk0 V c 1 t) _)
  isplitl [H0]; · iexact H0
  isplitl [H1]; · iexact H1
  isplitl [H2]; · iexists _; iexact H2
  iintro ⟨H0, H1, H2⟩
  isplitl [HΦ]; · iexact HΦ
  isplitl [Ho]; · iexact Ho
  isplitl [H0]; · iexact H0
  isplitl [H1]; · iexact H1
  iexact H2

theorem body_obligation0 (c : Dev nD) : BodyObligation (dat0 (F := F) V c) (defs₀ (F := F)) Variants.none () Set.univ := fun t => by
  rw [bigSep_W0, bigSep_W0]
  exact sound_body0 V c t

end Region0

end Cert.KernelIdeal.Hand

end
-- ==== Proof.AttnShared.lean ====
/-
  Region 1 of the kernel program, the streaming attention: what its three control cases share. The grid is
  8 × 4: point t is batch entry t / 4 and key tile t % 4. The body resets its three running buffers (row maxima,
  row denominators, the 1024×1024 accumulator) at tile 0, updates them at every tile, and divides the
  accumulator by the denominators into the output block at tile 3 only; at the other tiles the output block is
  idle and is not written back.
-/
import proofs.«145177_j79886391705810_2_alg».proof.Proof.Gen.KernelIdeal.Launch
import proofs.«145177_j79886391705810_2_alg».proof.Proof.Gen.KernelIdeal.Skeleton
import proofs.«145177_j79886391705810_2_alg».proof.Proof.Gen.KernelIdeal.Points
import Idealize.ShloMosaic.Lib.Pipeline.FrameBody
import Idealize.ShloMosaic.Lib.Pipeline.RegionsLoop
import Idealize.ShloMosaic.Lib.Pipeline.FrameSuffix
import Idealize.ShloMosaic.Lib.Ring
import Idealize.ShloMosaic.Lib.Tactic

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Shared

variable (V : (c : Dev nD) → (b : Ref sig .tc) → Buf (Elt F) ((c : Thread nD τ).loc b))

/-- Window w's block at grid point t, read off its array as the region finds it. -/
def iblk1 (c : Dev nD) (w : Fin cfg1.W) (t : Fin cfg1.N) : ((cfg1.win w).xblock (cfg1.grid.coords t)).Idx → Elt F (cfg1.win w).elt :=
  ((cfg1.win w).blk t).view.read (Elt F) (V c (Pipeline.arrRef spec1 w))

/-- An input window's staging buffer holds its block at every point, whether the point fetches it or not. -/
theorem before1_0_of {c : Dev nD} (dat : Dat τ (Elt F) Unit ℕ (UR sig nD τ) ℕ cfg1 c) (hA : dat.A 0 = V c (Pipeline.arrRef spec1 0))
    (hafter : ∀ t, dat.after 0 t = iblk1 V c 0 t) (t : Fin cfg1.N) (d) : dat.before 0 t d = iblk1 V c 0 t :=
  (dat.before_in_eq_fetched 0 rfl (fun _ => rfl) (fun _ _ _ => rfl) (fun t => by rw [hafter]; unfold Dat.blockOf iblk1; rw [hA]; try rfl) t d).trans
    (by unfold Dat.fetched Dat.blockOf iblk1; rw [hA]; try rfl)
theorem before1_1_of {c : Dev nD} (dat : Dat τ (Elt F) Unit ℕ (UR sig nD τ) ℕ cfg1 c) (hA : dat.A 1 = V c (Pipeline.arrRef spec1 1))
    (hafter : ∀ t, dat.after 1 t = iblk1 V c 1 t) (t : Fin cfg1.N) (d) : dat.before 1 t d = iblk1 V c 1 t :=
  (dat.before_in_eq_fetched 1 rfl (fun _ => rfl) (fun _ _ _ => rfl) (fun t => by rw [hafter]; unfold Dat.blockOf iblk1; rw [hA]; try rfl) t d).trans
    (by unfold Dat.fetched Dat.blockOf iblk1; rw [hA]; try rfl)
theorem before1_2_of {c : Dev nD} (dat : Dat τ (Elt F) Unit ℕ (UR sig nD τ) ℕ cfg1 c) (hA : dat.A 2 = V c (Pipeline.arrRef spec1 2))
    (hafter : ∀ t, dat.after 2 t = iblk1 V c 2 t) (t : Fin cfg1.N) (d) : dat.before 2 t d = iblk1 V c 2 t :=
  (dat.before_in_eq_fetched 2 rfl (fun _ => rfl) (fun _ _ _ => rfl) (fun t => by rw [hafter]; unfold Dat.blockOf iblk1; rw [hA]; try rfl) t d).trans
    (by unfold Dat.fetched Dat.blockOf iblk1; rw [hA]; try rfl)

end Shared

/-! ## The body's two branch conditions, decided over the grid -/

/-- "This is key tile 0": the reset of the running buffers. -/
abbrev cond1_0 (i : grid1.Coords) : Prop := (Scalar.cmpi .ne (Scalar.extui (Scalar.cmpi .eq (BitVec.ofNat 32 (i 1).val) 0#32)) 0#32) = 1#1
theorem hcond1_0 : ∀ t : Fin cfg1.N, cond1_0 (grid1.coords t) ↔ t.val % 4 = 0 :=
  (by decide +kernel : ∀ t : Fin grid1.N, cond1_0 (grid1.coords t) ↔ t.val % 4 = 0)
/-- "This is key tile 3": the division into the output block. -/
abbrev cond1_1 (i : grid1.Coords) : Prop := k1_cond2 i = 1#1
theorem hcond1_1 : ∀ t : Fin cfg1.N, cond1_1 (grid1.coords t) ↔ t.val % 4 = 3 :=
  (by decide +kernel : ∀ t : Fin grid1.N, cond1_1 (grid1.coords t) ↔ t.val % 4 = 3)

/-! ## Where the windows are idle -/

theorem liveAt1_0 : ∀ t : Fin cfg1.N, cfg1.idle 0 (grid1.coords t) = false := by decide +kernel
theorem liveAt1_1 : ∀ t : Fin cfg1.N, cfg1.idle 1 (grid1.coords t) = false := by decide +kernel
theorem liveAt1_2 : ∀ t : Fin cfg1.N, cfg1.idle 2 (grid1.coords t) = false := by decide +kernel
/-- Away from tile 3 the output block is idle and is not written back. -/
theorem idleAt1_3 : ∀ t : Fin cfg1.N, ¬cond1_1 (grid1.coords t) → cfg1.idle 3 (grid1.coords t) = true := by decide +kernel
theorem noFlush1_3 : ∀ t : Fin cfg1.N, ¬cond1_1 (grid1.coords t) → (cfg1.win 3).flush t = false := by decide +kernel
/-- At tile 3 it is live. -/
theorem liveAt1_3 : ∀ t : Fin cfg1.N, cond1_1 (grid1.coords t) → cfg1.idle 3 (grid1.coords t) = false := by decide +kernel

/-! ## The memrefs the body is called with -/

abbrev ms1_0 (t : Fin cfg1.N) : Memref sig .tc .vmem S1x1024x256 .bf16 := win1_0.stage (cfg1.slots t 0)
abbrev hs1_0 (t : Fin cfg1.N) : (ms1_0 t).IsWhole := hstage1_0 ((cfg1.slots t 0).cast nbuf1_0)
abbrev ms1_1 (t : Fin cfg1.N) : Memref sig .tc .vmem S1x1024x1024 .f32 := win1_1.stage (cfg1.slots t 1)
abbrev hs1_1 (t : Fin cfg1.N) : (ms1_1 t).IsWhole := hstage1_1 ((cfg1.slots t 1).cast nbuf1_1)
abbrev ms1_2 (t : Fin cfg1.N) : Memref sig .tc .vmem S256x1024 .f32 := win1_2.stage (cfg1.slots t 2)
abbrev hs1_2 (t : Fin cfg1.N) : (ms1_2 t).IsWhole := hstage1_2 ((cfg1.slots t 2).cast nbuf1_2)
abbrev ms1_3 (t : Fin cfg1.N) : Memref sig .tc .vmem S1x1024x1024 .f32 := win1_3.stage (cfg1.slots t 3)
abbrev hs1_3 (t : Fin cfg1.N) : (ms1_3 t).IsWhole := hstage1_3 ((cfg1.slots t 3).cast nbuf1_3)
/-- The three running buffers: row maxima, row denominators, accumulator. -/
abbrev scM : Memref sig .tc .vmem S1024x1 .f32 := Memref.whole cc1_scratch0
abbrev scL : Memref sig .tc .vmem S1024x1 .f32 := Memref.whole cc1_scratch1
abbrev scA : Memref sig .tc .vmem S1024x1024 .f32 := Memref.whole cc1_scratch2
abbrev VM : View sig .tc .vmem S1024x1 .f32 := scM.view
abbrev VL : View sig .tc .vmem S1024x1 .f32 := scL.view
abbrev VA : View sig .tc .vmem S1024x1024 .f32 := scA.view
/-- One staging buffer of the output window, through which its contents are stated. -/
abbrev VO : View sig .tc .vmem S1x1024x1024 .f32 := (Memref.whole cc1_stg3_0 : Memref sig .tc .vmem S1x1024x1024 .f32).view

/-- The region's resting invariant with the three running buffers owned at some contents. -/
theorem PhiA1_eq (c : Dev nD) :
    (Pipeline.ΦA spec1 c : sProp 𝕄)
      = iprop(iprop((∃ d, owns (c : Thread nD τ) (Memref.whole cc0_stg0_0) fullShare d) ∗ (∃ d, owns (c : Thread nD τ) (Memref.whole cc0_stg0_1) fullShare d) ∗ (∃ d, owns (c : Thread nD τ) (Memref.whole cc0_stg1_0) fullShare d) ∗ (∃ d, owns (c : Thread nD τ) (Memref.whole cc0_stg2_0) fullShare d) ∗ (∃ d, owns (c : Thread nD τ) (Memref.whole cc0_stg2_1) fullShare d) ∗ (∃ d, owns (c : Thread nD τ) scM fullShare d) ∗ (∃ d, owns (c : Thread nD τ) scL fullShare d) ∗ (∃ d, owns (c : Thread nD τ) scA fullShare d)) ∗ (∃ r, prngReg c r)) := by
  unfold Pipeline.ΦA; rw [scopedRest1_eq]; simp only [scM, scL, scA, owns_whole]; try rfl

end Cert.KernelIdeal.Hand

end
-- ==== Proof.AttnRunA.lean ====
/-
  Region 1 at key tile 0 of a batch entry: the running buffers are reset (maxima to -inf, denominators and accumulator to 0) and then updated with the tile; the output block is idle.
-/
import proofs.«145177_j79886391705810_2_alg».proof.Proof.AttnShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 8000000 in
/-- The body in this case, on whole buffers: the three input blocks at their contents, the output block idle (handed back untouched),
    the three running buffers at anything. It runs to the end, the inputs as they were, and each buffer it
    stored into holding its stores, as pieces the run finds. -/
noncomputable def kernelRun1_A (c : Dev nD) (i : grid1.Coords) (arg2 : Memref sig .tc .vmem S1x1024x256 .bf16) (harg2 : arg2.IsWhole) (arg3 : Memref sig .tc .vmem S1x1024x1024 .f32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : cond1_0 i) (hc1 : ¬cond1_1 i)
    (x0 : Vec F S1x1024x256 .bf16) (x1 : Vec F S1x1024x1024 .f32) (x2 : Vec F S256x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ (∃ d, owns (c : Thread nD τ) arg6 fullShare d) ∗ (∃ d, owns (c : Thread nD τ) arg7 fullShare d) ∗ (∃ d, owns (c : Thread nD τ) arg8 fullShare d)
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%ds0, %fs0, -, HS0⟩, ⟨%ds1, %fs1, -, HS1⟩, ⟨%ds2, %fs2, -, HS2⟩, Hk⟩
    obtain rfl := harg2.eq_unread hf0; obtain rfl := harg3.eq_unread hf1; obtain rfl := harg4.eq_unread hf2; obtain rfl := harg5.eq_unread hf3
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.AttnRunB.lean ====
/-
  Region 1 at key tiles 1 and 2: the running buffers, as the tile before left them, are updated with the tile; the output block is idle.
-/
import proofs.«145177_j79886391705810_2_alg».proof.Proof.AttnShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 8000000 in
/-- The body in this case, on whole buffers: the three input blocks at their contents, the output block idle (handed back untouched),
    the three running buffers at what the tile before left. It runs to the end, the inputs as they were, and each buffer it
    stored into holding its stores, as pieces the run finds. -/
noncomputable def kernelRun1_B (c : Dev nD) (i : grid1.Coords) (arg2 : Memref sig .tc .vmem S1x1024x256 .bf16) (harg2 : arg2.IsWhole) (arg3 : Memref sig .tc .vmem S1x1024x1024 .f32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : ¬cond1_1 i)
    (x0 : Vec F S1x1024x256 .bf16) (x1 : Vec F S1x1024x1024 .f32) (x2 : Vec F S256x1024 .f32) (xs0 : Vec F S1024x1 .f32) (xs1 : Vec F S1024x1 .f32) (xs2 : Vec F S1024x1024 .f32) :
    Σ' (LS0 : List (View.Piece (Elt F) S1024x1 .f32)) (LS1 : List (View.Piece (Elt F) S1024x1 .f32)), { LS2 : List (View.Piece (Elt F) S1024x1024 .f32) //
      ∀ (xi3 : Vec F S1x1024x1024 .f32) (E : Set ℕ) (K : PUnit → sProp 𝕄),
        iprop(owns (c : Thread nD τ) arg2 fullShare x0 ∗ owns (c : Thread nD τ) arg3 fullShare x1 ∗ owns (c : Thread nD τ) arg4 fullShare x2 ∗ owns (c : Thread nD τ) arg5 fullShare xi3
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ owns (c : Thread nD τ) arg5 fullShare xi3
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, fun xi3 E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%f3, %hf3, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg5.eq_unread hf3; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]
    · iexists _; isplitr; · ipureintro; exact harg5.read_unread _
      iexact H3
    isplitl [HS0]; · iexists _; iexact HS0
    isplitl [HS1]; · iexists _; iexact HS1
    iexists _; iexact HS2

end Cert.KernelIdeal.Hand

end
-- ==== Proof.AttnRunC.lean ====
/-
  Region 1 at key tile 3, the last of a batch entry: the running buffers are updated with the tile and the accumulator divided by the denominators (plus the guard constant) is stored over the whole output block.
-/
import proofs.«145177_j79886391705810_2_alg».proof.Proof.AttnShared

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

set_option maxHeartbeats 8000000 in
/-- The body in this case, on whole buffers: the three input blocks at their contents, the output block at anything,
    the three running buffers at what the tile before left. It runs to the end, the inputs as they were, and each buffer it
    stored into holding its stores, as pieces the run finds. -/
noncomputable def kernelRun1_C (c : Dev nD) (i : grid1.Coords) (arg2 : Memref sig .tc .vmem S1x1024x256 .bf16) (harg2 : arg2.IsWhole) (arg3 : Memref sig .tc .vmem S1x1024x1024 .f32) (harg3 : arg3.IsWhole) (arg4 : Memref sig .tc .vmem S256x1024 .f32) (harg4 : arg4.IsWhole) (arg5 : Memref sig .tc .vmem S1x1024x1024 .f32) (harg5 : arg5.IsWhole) (arg6 : Memref sig .tc .vmem S1024x1 .f32) (harg6 : arg6.IsWhole) (arg7 : Memref sig .tc .vmem S1024x1 .f32) (harg7 : arg7.IsWhole) (arg8 : Memref sig .tc .vmem S1024x1024 .f32) (harg8 : arg8.IsWhole) (hc0 : ¬cond1_0 i) (hc1 : cond1_1 i)
    (x0 : Vec F S1x1024x256 .bf16) (x1 : Vec F S1x1024x1024 .f32) (x2 : Vec F S256x1024 .f32) (xs0 : Vec F S1024x1 .f32) (xs1 : Vec F S1024x1 .f32) (xs2 : Vec F S1024x1024 .f32) :
    Σ' (L3 : List (View.Piece (Elt F) S1x1024x1024 .f32)) (LS0 : List (View.Piece (Elt F) S1024x1 .f32)) (LS1 : List (View.Piece (Elt F) S1024x1 .f32)), { LS2 : List (View.Piece (Elt F) S1024x1024 .f32) //
      ∀ (E : Set ℕ) (K : PUnit → sProp 𝕄),
        iprop(owns (c : Thread nD τ) arg2 fullShare x0 ∗ owns (c : Thread nD τ) arg3 fullShare x1 ∗ owns (c : Thread nD τ) arg4 fullShare x2 ∗ (∃ d, owns (c : Thread nD τ) arg5 fullShare d)
            ∗ owns (c : Thread nD τ) arg6 fullShare xs0 ∗ owns (c : Thread nD τ) arg7 fullShare xs1 ∗ owns (c : Thread nD τ) arg8 fullShare xs2
            ∗ (iprop(owns (c : Thread nD τ) arg2 fullShare x0 ∗ owns (c : Thread nD τ) arg3 fullShare x1 ∗ owns (c : Thread nD τ) arg4 fullShare x2 ∗ (∃ f, arg5.view.loc (c : Thread nD τ) ↦[arg5.view.set]{fullShare} arg5.view.writes (Elt F) f L3)
                ∗ (∃ f, arg6.view.loc (c : Thread nD τ) ↦[arg6.view.set]{fullShare} arg6.view.writes (Elt F) f LS0)
                ∗ (∃ f, arg7.view.loc (c : Thread nD τ) ↦[arg7.view.set]{fullShare} arg7.view.writes (Elt F) f LS1)
                ∗ (∃ f, arg8.view.loc (c : Thread nD τ) ↦[arg8.view.set]{fullShare} arg8.view.writes (Elt F) f LS2)) -∗ K ⟨⟩))
          ⊢ wp frame (wpE (defs₀ (F := F)) Variants.none c none) E (cc1_kernel i arg2 harg2 arg3 harg3 arg4 harg4 arg5 harg5 arg6 harg6 arg7 harg7 arg8 harg8) K } := by
  refine ⟨?_, ?_, ?_, ?_, fun E K => ?run⟩
  case run =>
    simp only [cc1_kernel_eq_skeleton]; unfold cc1_kernel_skel
    simp only [k1_part1_eq_skeleton]
    unfold owns
    iintro ⟨⟨%f0, %hf0, H0⟩, ⟨%f1, %hf1, H1⟩, ⟨%f2, %hf2, H2⟩, ⟨%d3, %f3, -, H3⟩, ⟨%fs0, %hfs0, HS0⟩, ⟨%fs1, %hfs1, HS1⟩, ⟨%fs2, %hfs2, HS2⟩, Hk⟩
    obtain rfl := harg2.eq_unread hf0; obtain rfl := harg3.eq_unread hf1; obtain rfl := harg4.eq_unread hf2; obtain rfl := harg6.eq_unread hfs0; obtain rfl := harg7.eq_unread hfs1; obtain rfl := harg8.eq_unread hfs2
    sl_exec (disch := first | exact hc0 | exact hc1)
    sl_step
    iapply Hk
    isplitl [H0]
    · iexists _; isplitr; · ipureintro; exact harg2.read_unread _
      iexact H0
    isplitl [H1]
    · iexists _; isplitr; · ipureintro; exact harg3.read_unread _
      iexact H1
    isplitl [H2]
    · iexists _; isplitr; · ipureintro; exact harg4.read_unread _
      iexact H2
    isplitl [H3]; · iexists _; iexact H3
    isplitl [HS0]; · iexists _; iexact HS0
    isplitl [HS1]; · iexists _; iexact HS1
    iexists _; iexact HS2

end Cert.KernelIdeal.Hand

end
-- ==== Proof.AttnRegion.lean ====
/-
  Region 1 assembled: what the output block and the three running buffers hold after each grid point, by
  recursion on the point (tile 0 starts afresh; tiles 1, 2, 3 continue from what the tile before left), the
  region's invariant carrying the running buffers at those contents from one point to the next, the proof data,
  and the body's obligation at every point.
-/
import proofs.«145177_j79886391705810_2_alg».proof.Proof.AttnRunA
import proofs.«145177_j79886391705810_2_alg».proof.Proof.AttnRunB
import proofs.«145177_j79886391705810_2_alg».proof.Proof.AttnRunC

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Region1

variable (V : (c : Dev nD) → (b : Ref sig .tc) → Buf (Elt F) ((c : Thread nD τ).loc b))

/-! ## What each case leaves, read back from the pieces its run found -/

/-- After tile 0: (row maxima, row denominators, accumulator). -/
def stepA (c : Dev nD) (t : Fin cfg1.N) (h0 : t.val % 4 = 0) : Vec F S1024x1 .f32 × Vec F S1024x1 .f32 × Vec F S1024x1024 .f32 :=
  (VM.read (Elt F) (VM.writes (Elt F) VM.junk (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).1),
   VL.read (Elt F) (VL.writes (Elt F) VL.junk (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.1),
   VA.read (Elt F) (VA.writes (Elt F) VA.junk (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.1))
/-- After tile 1 or 2, from what the tile before left (p). -/
def stepB (c : Dev nD) (t : Fin cfg1.N) (h0 : ¬t.val % 4 = 0) (h1 : ¬t.val % 4 = 3) (p : Vec F S1024x1 .f32 × Vec F S1024x1 .f32 × Vec F S1024x1024 .f32) : Vec F S1024x1 .f32 × Vec F S1024x1 .f32 × Vec F S1024x1024 .f32 :=
  (VM.read (Elt F) (VM.writes (Elt F) VM.junk (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).1),
   VL.read (Elt F) (VL.writes (Elt F) VL.junk (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.1),
   VA.read (Elt F) (VA.writes (Elt F) VA.junk (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.2.1))
/-- After tile 3, from what tile 2 left (p): the running buffers, -/
def stepC (c : Dev nD) (t : Fin cfg1.N) (h1 : t.val % 4 = 3) (p : Vec F S1024x1 .f32 × Vec F S1024x1 .f32 × Vec F S1024x1024 .f32) : Vec F S1024x1 .f32 × Vec F S1024x1 .f32 × Vec F S1024x1024 .f32 :=
  (VM.read (Elt F) (VM.writes (Elt F) VM.junk (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.1),
   VL.read (Elt F) (VL.writes (Elt F) VL.junk (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.1),
   VA.read (Elt F) (VA.writes (Elt F) VA.junk (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.2.1))
/-- and the output block. -/
def outC (c : Dev nD) (t : Fin cfg1.N) (h1 : t.val % 4 = 3) (p : Vec F S1024x1 .f32 × Vec F S1024x1 .f32 × Vec F S1024x1024 .f32) : Vec F S1x1024x1024 .f32 :=
  VO.read (Elt F) (VO.writes (Elt F) VO.junk (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).1)
/-- At the other tiles nothing is stored into the output block; nothing reads this placeholder. -/
def outIdle : Vec F S1x1024x1024 .f32 := VO.read (Elt F) VO.junk

/-! ## Each buffer a case stores into is covered by its stores -/

theorem coverM_A (c : Dev nD) (t : Fin cfg1.N) (h0 : t.val % 4 = 0) (y : S1024x1.Idx) : ∃ pc ∈ (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).1, y ∈ pc.1.set :=
  View.cover_of_tiledL (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).1 S1024x1.size (by sl_kernel_rfl) y
theorem coverL_A (c : Dev nD) (t : Fin cfg1.N) (h0 : t.val % 4 = 0) (y : S1024x1.Idx) : ∃ pc ∈ (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.1, y ∈ pc.1.set :=
  View.cover_of_tiledL (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.1 S1024x1.size (by sl_kernel_rfl) y
theorem coverA_A (c : Dev nD) (t : Fin cfg1.N) (h0 : t.val % 4 = 0) (y : S1024x1024.Idx) : ∃ pc ∈ (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.1, y ∈ pc.1.set :=
  View.cover_of_tiledL (kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.1 S1024x1024.size (by sl_kernel_rfl) y
theorem coverM_B (c : Dev nD) (t : Fin cfg1.N) (h0 : ¬t.val % 4 = 0) (h1 : ¬t.val % 4 = 3) (p : Vec F S1024x1 .f32 × Vec F S1024x1 .f32 × Vec F S1024x1024 .f32) (y : S1024x1.Idx) : ∃ pc ∈ (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).1, y ∈ pc.1.set :=
  View.cover_of_tiledL (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).1 S1024x1.size (by sl_kernel_rfl) y
theorem coverL_B (c : Dev nD) (t : Fin cfg1.N) (h0 : ¬t.val % 4 = 0) (h1 : ¬t.val % 4 = 3) (p : Vec F S1024x1 .f32 × Vec F S1024x1 .f32 × Vec F S1024x1024 .f32) (y : S1024x1.Idx) : ∃ pc ∈ (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.1, y ∈ pc.1.set :=
  View.cover_of_tiledL (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.1 S1024x1.size (by sl_kernel_rfl) y
theorem coverA_B (c : Dev nD) (t : Fin cfg1.N) (h0 : ¬t.val % 4 = 0) (h1 : ¬t.val % 4 = 3) (p : Vec F S1024x1 .f32 × Vec F S1024x1 .f32 × Vec F S1024x1024 .f32) (y : S1024x1024.Idx) : ∃ pc ∈ (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.2.1, y ∈ pc.1.set :=
  View.cover_of_tiledL (kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.2.1 S1024x1024.size (by sl_kernel_rfl) y
theorem coverM_C (c : Dev nD) (t : Fin cfg1.N) (h1 : t.val % 4 = 3) (p : Vec F S1024x1 .f32 × Vec F S1024x1 .f32 × Vec F S1024x1024 .f32) (y : S1024x1.Idx) : ∃ pc ∈ (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.1, y ∈ pc.1.set :=
  View.cover_of_tiledL (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.1 S1024x1.size (by sl_kernel_rfl) y
theorem coverL_C (c : Dev nD) (t : Fin cfg1.N) (h1 : t.val % 4 = 3) (p : Vec F S1024x1 .f32 × Vec F S1024x1 .f32 × Vec F S1024x1024 .f32) (y : S1024x1.Idx) : ∃ pc ∈ (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.1 S1024x1.size (by sl_kernel_rfl) y
theorem coverA_C (c : Dev nD) (t : Fin cfg1.N) (h1 : t.val % 4 = 3) (p : Vec F S1024x1 .f32 × Vec F S1024x1 .f32 × Vec F S1024x1024 .f32) (y : S1024x1024.Idx) : ∃ pc ∈ (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.2.1, y ∈ pc.1.set :=
  View.cover_of_tiledL (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.2.1 S1024x1024.size (by sl_kernel_rfl) y
theorem coverO_C (c : Dev nD) (t : Fin cfg1.N) (h1 : t.val % 4 = 3) (p : Vec F S1024x1 .f32 × Vec F S1024x1 .f32 × Vec F S1024x1024 .f32) (y : S1x1024x1024.Idx) : ∃ pc ∈ (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).1, y ∈ pc.1.set :=
  View.cover_of_tiledL (kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).1 S1x1024x1024.size (by sl_kernel_rfl) y

/-! ## Point by point -/

/-- The running buffers after the body at position n: tile 0 afresh, the others from position n - 1. -/
def scrAt (c : Dev nD) : (n : ℕ) → n < cfg1.N → Vec F S1024x1 .f32 × Vec F S1024x1 .f32 × Vec F S1024x1024 .f32
  | 0, hn => stepA V c ⟨0, hn⟩ (Nat.zero_mod 4)
  | n + 1, hn =>
    if h0 : (n + 1) % 4 = 0 then stepA V c ⟨n + 1, hn⟩ h0
    else if h1 : (n + 1) % 4 = 3 then stepC V c ⟨n + 1, hn⟩ h1 (scrAt c n (Nat.lt_of_succ_lt hn))
    else stepB V c ⟨n + 1, hn⟩ h0 h1 (scrAt c n (Nat.lt_of_succ_lt hn))

/-- The output block after the body at position n: the division at tile 3, a placeholder elsewhere. -/
def outAt (c : Dev nD) : (n : ℕ) → n < cfg1.N → Vec F S1x1024x1024 .f32
  | 0, _ => outIdle
  | n + 1, hn => if h1 : (n + 1) % 4 = 3 then outC V c ⟨n + 1, hn⟩ h1 (scrAt V c n (Nat.lt_of_succ_lt hn)) else outIdle

theorem scrAt_A (c : Dev nD) (t : Fin cfg1.N) (h0 : t.val % 4 = 0) : scrAt V c t.val t.isLt = stepA V c t h0 := by
  obtain ⟨n, hn⟩ := t
  cases n with
  | zero => rfl
  | succ n => exact dif_pos h0
theorem scrAt_B (c : Dev nD) (t : Fin cfg1.N) (h0 : ¬t.val % 4 = 0) (h1 : ¬t.val % 4 = 3) :
    scrAt V c t.val t.isLt = stepB V c t h0 h1 (scrAt V c (t.val - 1) (Nat.lt_of_le_of_lt (Nat.sub_le _ _) t.isLt)) := by
  obtain ⟨n, hn⟩ := t
  cases n with
  | zero => exact absurd (Nat.zero_mod _) h0
  | succ n => exact (dif_neg h0).trans ((dif_neg h1).trans rfl)
theorem scrAt_C (c : Dev nD) (t : Fin cfg1.N) (h1 : t.val % 4 = 3) :
    scrAt V c t.val t.isLt = stepC V c t h1 (scrAt V c (t.val - 1) (Nat.lt_of_le_of_lt (Nat.sub_le _ _) t.isLt)) := by
  obtain ⟨n, hn⟩ := t
  cases n with
  | zero => exact absurd (show (0 : ℕ) % 4 = 3 from h1) (by decide)
  | succ n =>
    have h1' : (n + 1) % 4 = 3 := h1
    have h0' : ¬(n + 1) % 4 = 0 := by omega
    exact (dif_neg h0').trans ((dif_pos h1').trans rfl)
theorem outAt_C (c : Dev nD) (t : Fin cfg1.N) (h1 : t.val % 4 = 3) :
    outAt V c t.val t.isLt = outC V c t h1 (scrAt V c (t.val - 1) (Nat.lt_of_le_of_lt (Nat.sub_le _ _) t.isLt)) := by
  obtain ⟨n, hn⟩ := t
  cases n with
  | zero => exact absurd (show (0 : ℕ) % 4 = 3 from h1) (by decide)
  | succ n =>
    have h1' : (n + 1) % 4 = 3 := h1
    exact (dif_pos h1').trans rfl

/-! ## The invariant -/

/-- The scoped buffers of the other region, which this region never touches. -/
abbrev otherRest (c : Dev nD) : sProp 𝕄 :=
  iprop((∃ d, owns (c : Thread nD τ) (Memref.whole cc0_stg0_0) fullShare d) ∗ (∃ d, owns (c : Thread nD τ) (Memref.whole cc0_stg0_1) fullShare d) ∗ (∃ d, owns (c : Thread nD τ) (Memref.whole cc0_stg1_0) fullShare d) ∗ (∃ d, owns (c : Thread nD τ) (Memref.whole cc0_stg2_0) fullShare d) ∗ (∃ d, owns (c : Thread nD τ) (Memref.whole cc0_stg2_1) fullShare d))

/-- Before position n: at the region's entry the running buffers hold anything; afterwards what position n - 1 left. -/
def PhiS (c : Dev nD) : (n : ℕ) → n ≤ cfg1.N → sProp 𝕄
  | 0, _ => Pipeline.ΦA spec1 c
  | n + 1, hn => iprop(iprop(otherRest c ∗ owns (c : Thread nD τ) scM fullShare (scrAt V c n hn).1 ∗ owns (c : Thread nD τ) scL fullShare (scrAt V c n hn).2.1 ∗ owns (c : Thread nD τ) scA fullShare (scrAt V c n hn).2.2) ∗ (∃ r, prngReg c r))

theorem PhiS_zero (c : Dev nD) (n : ℕ) (h : n ≤ cfg1.N) (hz : n = 0) : PhiS V c n h = Pipeline.ΦA spec1 c := by
  subst hz; rfl
theorem PhiS_succ (c : Dev nD) (n : ℕ) (hn : n < cfg1.N) :
    PhiS V c (n + 1) hn = iprop(iprop(otherRest c ∗ owns (c : Thread nD τ) scM fullShare (scrAt V c n hn).1 ∗ owns (c : Thread nD τ) scL fullShare (scrAt V c n hn).2.1 ∗ owns (c : Thread nD τ) scA fullShare (scrAt V c n hn).2.2) ∗ (∃ r, prngReg c r)) := rfl
theorem PhiS_pos (c : Dev nD) (n : ℕ) (h : n ≤ cfg1.N) (hz : n ≠ 0) :
    PhiS V c n h = iprop(iprop(otherRest c ∗ owns (c : Thread nD τ) scM fullShare (scrAt V c (n - 1) (by omega)).1 ∗ owns (c : Thread nD τ) scL fullShare (scrAt V c (n - 1) (by omega)).2.1 ∗ owns (c : Thread nD τ) scA fullShare (scrAt V c (n - 1) (by omega)).2.2) ∗ (∃ r, prngReg c r)) := by
  cases n with
  | zero => exact absurd rfl hz
  | succ n => rfl

/-! ## The proof data -/

def dat1 (c : Dev nD) : Dat τ (Elt F) Unit ℕ (UR sig nD τ) ℕ cfg1 c where
  A w := V c (Pipeline.arrRef spec1 w)
  after w t := match w with
    | ⟨0, _⟩ => iblk1 V c 0 t
    | ⟨1, _⟩ => iblk1 V c 1 t
    | ⟨2, _⟩ => iblk1 V c 2 t
    | ⟨3, _⟩ => outAt V c t.val t.isLt
  Φ t := PhiS V c t.val (Nat.le_of_lt_succ t.isLt)
  q _ := fullShare
  owed _ := 0

theorem A_eq1 (c : Dev nD) (w : Fin cfg1.W) : (dat1 V c).A w = V c (Pipeline.arrRef spec1 w) := by
  dsimp only [dat1]
theorem PhiS_castSucc (c : Dev nD) (t : Fin cfg1.N) :
    (dat1 V c).Φ t.castSucc = PhiS V c t.val (Nat.le_of_lt t.isLt) := by
  dsimp only [dat1]; simp only [Fin.coe_castSucc]
theorem after1_0 (c : Dev nD) (t : Fin cfg1.N) : (dat1 V c).after 0 t = iblk1 V c 0 t := by dsimp only [dat1]
theorem after1_1 (c : Dev nD) (t : Fin cfg1.N) : (dat1 V c).after 1 t = iblk1 V c 1 t := by dsimp only [dat1]
theorem after1_2 (c : Dev nD) (t : Fin cfg1.N) : (dat1 V c).after 2 t = iblk1 V c 2 t := by dsimp only [dat1]
theorem after1_3 (c : Dev nD) (t : Fin cfg1.N) : (dat1 V c).after 3 t = outAt V c t.val t.isLt := by dsimp only [dat1]
theorem before1_0 (c : Dev nD) (t : Fin cfg1.N) (d) : (dat1 V c).before 0 t d = iblk1 V c 0 t :=
  before1_0_of V (dat1 V c) (A_eq1 V c 0) (after1_0 V c) t d
theorem before1_1 (c : Dev nD) (t : Fin cfg1.N) (d) : (dat1 V c).before 1 t d = iblk1 V c 1 t :=
  before1_1_of V (dat1 V c) (A_eq1 V c 1) (after1_1 V c) t d
theorem before1_2 (c : Dev nD) (t : Fin cfg1.N) (d) : (dat1 V c).before 2 t d = iblk1 V c 2 t :=
  before1_2_of V (dat1 V c) (A_eq1 V c 2) (after1_2 V c) t d

/-! ## The body obligation -/

def bodyPre1 (c : Dev nD) (t : Fin cfg1.N) : sProp 𝕄 :=
  iprop((dat1 V c).Φ t.castSucc ∗ (dat1 V c).owesAt () t.castSucc
    ∗ (∃ d, owns (c : Thread nD τ) (ms1_0 t) fullShare ((dat1 V c).before 0 t d))
    ∗ (∃ d, owns (c : Thread nD τ) (ms1_1 t) fullShare ((dat1 V c).before 1 t d))
    ∗ (∃ d, owns (c : Thread nD τ) (ms1_2 t) fullShare ((dat1 V c).before 2 t d))
    ∗ (∃ d, owns (c : Thread nD τ) (ms1_3 t) fullShare ((dat1 V c).before 3 t d)))

def bodyPost1 (c : Dev nD) (t : Fin cfg1.N) : sProp 𝕄 :=
  iprop((dat1 V c).Φ t.succ ∗ (dat1 V c).owesAt () t.succ
    ∗ (dat1 V c).leavesExact 0 t ∗ (dat1 V c).leavesExact 1 t ∗ (dat1 V c).leavesExact 2 t ∗ (dat1 V c).leavesExact 3 t)

set_option maxHeartbeats 8000000 in
/-- The body at any point. The inputs' buffers hold their blocks; the tile number says which case the point is in;
    the invariant hands the body the running buffers (at anything at the very first point, else at what the point
    before left) and takes them back at this point's contents, each covered by the case's stores. -/
theorem sound_body1 (c : Dev nD) (t : Fin cfg1.N) :
    bodyPre1 V c t ⊢ wp frame (wpE (defs₀ (F := F)) Variants.none c none) Set.univ (bodyAt1 t) (fun _ => bodyPost1 V c t) := by
  unfold bodyPre1 bodyPost1 bodyAt1
  simp only [before1_0, before1_1, before1_2]
  rw [show (dat1 V c).owesAt () t.succ = (dat1 V c).owesAt () t.castSucc from rfl]
  rw [show (dat1 V c).Φ t.succ = PhiS V c (t.val + 1) t.isLt from rfl, PhiS_succ]
  have hN : t.val < 32 := lt_of_lt_of_eq t.isLt (show cfg1.N = 32 from N_1)
  rw [show (dat1 V c).leavesExact 0 t = owns (c : Thread nD τ) (ms1_0 t) fullShare ((dat1 V c).after 0 t) from by
    unfold Dat.leavesExact; rw [liveAt1_0 t], after1_0]
  rw [show (dat1 V c).leavesExact 1 t = owns (c : Thread nD τ) (ms1_1 t) fullShare ((dat1 V c).after 1 t) from by
    unfold Dat.leavesExact; rw [liveAt1_1 t], after1_1]
  rw [show (dat1 V c).leavesExact 2 t = owns (c : Thread nD τ) (ms1_2 t) fullShare ((dat1 V c).after 2 t) from by
    unfold Dat.leavesExact; rw [liveAt1_2 t], after1_2]
  by_cases h0 : t.val % 4 = 0
  · have hc1 : ¬cond1_1 (grid1.coords t) := fun h => by have := (hcond1_1 t).mp h; omega
    rw [Dat.leavesExact_idle (dat1 V c) 3 t (idleAt1_3 t hc1) (noFlush1_3 t hc1)]
    rw [scrAt_A V c t h0]
    unfold stepA; (try dsimp only)
    by_cases hz : t.val = 0
    · rw [PhiS_castSucc V c t, PhiS_zero V c _ _ hz, PhiA1_eq]
      iintro ⟨⟨⟨R0, R1, R2, R3, R4, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [R0 R1 R2 R3 R4 HS0 HS1 HS2 Hg]
      · isplitr [Hg]
        · isplitl [R0 R1 R2 R3 R4]
          · isplitl [R0]; · iexact R0
            isplitl [R1]; · iexact R1
            isplitl [R2]; · iexact R2
            isplitl [R3]; · iexact R3
            iexact R4
          isplitl [HS0]
          · unfold owns; iexists _; isplitr
            swap; · iexact HS0
            ipureintro; exact View.read_writes_of_cover _ _ _ _ _ (coverM_A V c t h0)
          isplitl [HS1]
          · unfold owns; iexists _; isplitr
            swap; · iexact HS1
            ipureintro; exact View.read_writes_of_cover _ _ _ _ _ (coverL_A V c t h0)
          unfold owns; iexists _; isplitr
          swap; · iexact HS2
          ipureintro; exact View.read_writes_of_cover _ _ _ _ _ (coverA_A V c t h0)
        iexact Hg
      isplitl [Ho]; · iexact Ho
      isplitl [H0]; · iexact H0
      isplitl [H1]; · iexact H1
      isplitl [H2]; · iexact H2
      iexists _; iexact H3
    · rw [PhiS_castSucc V c t, PhiS_pos V c _ _ hz]
      iintro ⟨⟨⟨⟨R0, R1, R2, R3, R4⟩, HS0, HS1, HS2⟩, Hg⟩, Ho, ⟨%d0, H0⟩, ⟨%d1, H1⟩, ⟨%d2, H2⟩, ⟨%d3, H3⟩⟩
      iapply ((kernelRun1_A c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) ((hcond1_0 t).mpr h0) (fun h => by have := (hcond1_1 t).mp h; omega) (iblk1 V c 0 t) (iblk1 V c 1 t) (iblk1 V c 2 t)).2.2.2 _ Set.univ _)
      isplitl [H0]; · iexact H0
      isplitl [H1]; · iexact H1
      isplitl [H2]; · iexact H2
      isplitl [H3]; · iexact H3
      isplitl [HS0]; · iexists _; iexact HS0
      isplitl [HS1]; · iexists _; iexact HS1
      isplitl [HS2]; · iexists _; iexact HS2
      iintro ⟨H0, H1, H2, H3, ⟨%e0, HS0⟩, ⟨%e1, HS1⟩, ⟨%e2, HS2⟩⟩
      isplitl [R0 R1 R2 R3 R4 HS0 HS1 HS2 Hg]
      · isplitr [Hg]
        · isplitl [R0 R1 R2 R3 R4]
          · isplitl [R0]; · iexact R0
            isplitl [R1]; · iexact R1
            isplitl [R2]; · iexact R2
            isplitl [R3]; · iexact R3
            iexact R4
          isplitl [HS0]
          · unfold owns; iexists _; isplitr
            swap; · iexact HS0
            ipureintro; exact View.read_writes_of_cover _ _ _ _ _ (coverM_A V c t h0)
          isplitl [HS1]
          · unfold owns; iexists _; isplitr
            swap; · iexact HS1
            ipureintro; exact View.read_writes_of_cover _ _ _ _ _ (coverL_A V c t h0)
          unfold owns; iexists _; isplitr
          swap; · iexact HS2
          ipureintro; exact View.read_writes_of_cover _ _ _ _ _ (coverA_A V c t h0)
        iexact Hg
      isplitl [Ho]; · iexact Ho
      isplitl [H0]; · iexact H0
      isplitl [H1]; · iexact H1
      isplitl [H2]; · iexact H2
      iexists _; iexact H3
  · have hz : t.val ≠ 0 := fun h => h0 (by rw [h])
    by_cases h1 : t.val % 4 = 3
    · rw [show (dat1 V c).leavesExact 3 t = owns (c : Thread nD τ) (ms1_3 t) fullShare ((dat1 V c).after 3 t) from by
        unfold Dat.leavesExact; rw [liveAt1_3 t ((hcond1_1 t).mpr h1)], after1_3]
      rw [scrAt_C V c t h1, outAt_C V c t h1]
      unfold stepC outC; (try dsimp only)
      rw [PhiS_castSucc V c t, PhiS_pos V c _ _ hz]
      generalize scrAt V c (t.val - 1) (Nat.lt_of_le_of_lt (Nat.sub_le _ _) t.isLt) = p
      iintro ⟨⟨⟨⟨R0, R1, R2, R3, R4⟩, HS0, HS1, HS2⟩, Hg⟩, Ho, ⟨%d0, H0⟩, ⟨%d1, H1⟩, ⟨%d2, H2⟩, ⟨%d3, H3⟩⟩
      iapply ((kernelRun1_C c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => by have := (hcond1_0 t).mp h; omega) ((hcond1_1 t).mpr h1) (iblk1 V c 0 t) (iblk1 V c 1 t) (iblk1 V c 2 t) p.1 p.2.1 p.2.2).2.2.2.2 Set.univ _)
      isplitl [H0]; · iexact H0
      isplitl [H1]; · iexact H1
      isplitl [H2]; · iexact H2
      isplitl [H3]; · iexists _; iexact H3
      isplitl [HS0]; · iexact HS0
      isplitl [HS1]; · iexact HS1
      isplitl [HS2]; · iexact HS2
      iintro ⟨H0, H1, H2, ⟨%e3, H3⟩, ⟨%e0, HS0⟩, ⟨%e1, HS1⟩, ⟨%e2, HS2⟩⟩
      isplitl [R0 R1 R2 R3 R4 HS0 HS1 HS2 Hg]
      · isplitr [Hg]
        · isplitl [R0 R1 R2 R3 R4]
          · isplitl [R0]; · iexact R0
            isplitl [R1]; · iexact R1
            isplitl [R2]; · iexact R2
            isplitl [R3]; · iexact R3
            iexact R4
          isplitl [HS0]
          · unfold owns; iexists _; isplitr
            swap; · iexact HS0
            ipureintro; exact View.read_writes_of_cover _ _ _ _ _ (coverM_C V c t h1 p)
          isplitl [HS1]
          · unfold owns; iexists _; isplitr
            swap; · iexact HS1
            ipureintro; exact View.read_writes_of_cover _ _ _ _ _ (coverL_C V c t h1 p)
          unfold owns; iexists _; isplitr
          swap; · iexact HS2
          ipureintro; exact View.read_writes_of_cover _ _ _ _ _ (coverA_C V c t h1 p)
        iexact Hg
      isplitl [Ho]; · iexact Ho
      isplitl [H0]; · iexact H0
      isplitl [H1]; · iexact H1
      isplitl [H2]; · iexact H2
      unfold owns; iexists _; isplitr
      swap; · iexact H3
      ipureintro; exact View.read_writes_of_cover _ _ _ _ _ (coverO_C V c t h1 p)
    · have hc1 : ¬cond1_1 (grid1.coords t) := fun h => h1 ((hcond1_1 t).mp h)
      rw [Dat.leavesExact_idle (dat1 V c) 3 t (idleAt1_3 t hc1) (noFlush1_3 t hc1)]
      rw [scrAt_B V c t h0 h1]
      unfold stepB; (try dsimp only)
      rw [PhiS_castSucc V c t, PhiS_pos V c _ _ hz]
      generalize scrAt V c (t.val - 1) (Nat.lt_of_le_of_lt (Nat.sub_le _ _) t.isLt) = p
      iintro ⟨⟨⟨⟨R0, R1, R2, R3, R4⟩, HS0, HS1, HS2⟩, Hg⟩, Ho, ⟨%d0, H0⟩, ⟨%d1, H1⟩, ⟨%d2, H2⟩, ⟨%d3, H3⟩⟩
      iapply ((kernelRun1_B c (grid1.coords t) (ms1_0 t) (hs1_0 t) (ms1_1 t) (hs1_1 t) (ms1_2 t) (hs1_2 t) (ms1_3 t) (hs1_3 t) scM (Memref.isWhole_whole _) scL (Memref.isWhole_whole _) scA (Memref.isWhole_whole _) (fun h => h0 ((hcond1_0 t).mp h)) (fun h => h1 ((hcond1_1 t).mp h)) (iblk1 V c 0 t) (iblk1 V c 1 t) (iblk1 V c 2 t) p.1 p.2.1 p.2.2).2.2.2 _ Set.univ _)
      isplitl [H0]; · iexact H0
      isplitl [H1]; · iexact H1
      isplitl [H2]; · iexact H2
      isplitl [H3]; · iexact H3
      isplitl [HS0]; · iexact HS0
      isplitl [HS1]; · iexact HS1
      isplitl [HS2]; · iexact HS2
      iintro ⟨H0, H1, H2, H3, ⟨%e0, HS0⟩, ⟨%e1, HS1⟩, ⟨%e2, HS2⟩⟩
      isplitl [R0 R1 R2 R3 R4 HS0 HS1 HS2 Hg]
      · isplitr [Hg]
        · isplitl [R0 R1 R2 R3 R4]
          · isplitl [R0]; · iexact R0
            isplitl [R1]; · iexact R1
            isplitl [R2]; · iexact R2
            isplitl [R3]; · iexact R3
            iexact R4
          isplitl [HS0]
          · unfold owns; iexists _; isplitr
            swap; · iexact HS0
            ipureintro; exact View.read_writes_of_cover _ _ _ _ _ (coverM_B V c t h0 h1 p)
          isplitl [HS1]
          · unfold owns; iexists _; isplitr
            swap; · iexact HS1
            ipureintro; exact View.read_writes_of_cover _ _ _ _ _ (coverL_B V c t h0 h1 p)
          unfold owns; iexists _; isplitr
          swap; · iexact HS2
          ipureintro; exact View.read_writes_of_cover _ _ _ _ _ (coverA_B V c t h0 h1 p)
        iexact Hg
      isplitl [Ho]; · iexact Ho
      isplitl [H0]; · iexact H0
      isplitl [H1]; · iexact H1
      isplitl [H2]; · iexact H2
      iexists _; iexact H3

theorem body_obligation1 (c : Dev nD) : BodyObligation (dat1 (F := F) V c) (defs₀ (F := F)) Variants.none () Set.univ := fun t => by
  rw [bigSep_W1, bigSep_W1]
  exact sound_body1 V c t

/-- What the region is entered with is the invariant before the first point. -/
theorem hin1 (c : Dev nD) : Pipeline.ΦA spec1 c ⊢ (dat1 V c).Φ 0 := by
  rw [show (dat1 V c).Φ 0 = PhiS V c 0 (Nat.zero_le _) from rfl, PhiS_zero V c 0 _ rfl]
  try exact Idealize.SL.BI.Entails.refl _

/-- After the last point the invariant gives the resting one back: the running buffers' contents are forgotten. -/
theorem hout1 (c : Dev nD) : (dat1 V c).Φ (Fin.last cfg1.N) ⊢ Pipeline.ΦA spec1 c := by
  have ht : (Fin.last cfg1.N).val ≠ 0 := by rw [Fin.val_last]; have : cfg1.N = 32 := N_1; omega
  rw [show (dat1 V c).Φ (Fin.last cfg1.N) = PhiS V c (Fin.last cfg1.N).val (Nat.le_of_lt_succ (Fin.last cfg1.N).isLt) from rfl, PhiS_pos V c _ _ ht, PhiA1_eq]
  iintro ⟨⟨⟨R0, R1, R2, R3, R4⟩, HS0, HS1, HS2⟩, Hg⟩
  isplitr [Hg]
  · isplitl [R0]; · iexact R0
    isplitl [R1]; · iexact R1
    isplitl [R2]; · iexact R2
    isplitl [R3]; · iexact R3
    isplitl [R4]; · iexact R4
    isplitl [HS0]; · iexists _; iexact HS0
    isplitl [HS1]; · iexists _; iexact HS1
    iexists _; iexact HS2
  iexact Hg

end Region1

end Cert.KernelIdeal.Hand

end
-- ==== Proof.KernelRun.lean ====
/-
  The kernel program's run: @main is the two regions in order. Between them the unscoped buffers hold, at launch,
  the launch memory; after region 0, the same with the projected queries written; after region 1, the same with
  the result written. Every weakly fair execution terminates, and the final memory holds every unscoped buffer at
  the last of these contents: the arguments as launched, the result array at what region 1's write-backs leave.
-/
import proofs.«145177_j79886391705810_2_alg».proof.Proof.QProjRegion
import proofs.«145177_j79886391705810_2_alg».proof.Proof.AttnRegion

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

variable (m : (ℓ : Loc nD τ sig) → Buf (Elt F) ℓ) (ρ : Dev nD → PrngReg)

/-! ## The buffer contents at the three boundaries -/

/-- At launch. -/
abbrev W0 : Dev nD → Valuation τ sig (Elt F) := fun c b => (s₀ m ρ).mem ((c : Dev nD), b)
abbrev V0 : (c : Dev nD) → (b : Ref sig .tc) → Buf (Elt F) ((c : Thread nD τ).loc b) := fun c b => W0 m ρ c b
/-- After region 0: its arrays at what the pipeline leaves, every other buffer as before. -/
def W1 (c : Dev nD) : Valuation τ sig (Elt F) :=
  Pipeline.withArrays spec0 c (W0 m ρ c) fun w => (dat0 (V0 m ρ) c).arrAt w cfg0.N
theorem W1_arr (c : Dev nD) (w : Fin cfg0.W) :
    W1 m ρ c (Proc.devRef .tc (Pipeline.arrRef spec0 w)) = (dat0 (V0 m ρ) c).arrAt w cfg0.N := by
  unfold W1; exact Pipeline.withArrays_arr spec0 launch0.win.arr_inj c _ _ w
theorem W1_of_ne (c : Dev nD) (b : Ref sig .tc) (hb : ∀ w, Pipeline.arrRef spec0 w ≠ b) :
    W1 m ρ c (Proc.devRef .tc b) = W0 m ρ c (Proc.devRef .tc b) := by
  unfold W1; exact Pipeline.withArrays_of_ne spec0 c _ _ b hb
abbrev V1 : (c : Dev nD) → (b : Ref sig .tc) → Buf (Elt F) ((c : Thread nD τ).loc b) := fun c b => W1 m ρ c b
theorem hF0 (c : Dev nD) (w : Fin cfg0.W) : (dat0 (V0 m ρ) c).arrAt w cfg0.N = V1 m ρ c (Pipeline.arrRef spec0 w) :=
  (W1_arr m ρ c w).symm
theorem hrest0 (c : Dev nD) : ∀ b, b ∉ Finset.univ.image (Pipeline.arrRef spec0) → V1 m ρ c b = V0 m ρ c b :=
  fun b hb => W1_of_ne m ρ c b fun w e => hb (Finset.mem_image.mpr ⟨w, Finset.mem_univ _, e⟩)
/-- After region 1. -/
def W2 (c : Dev nD) : Valuation τ sig (Elt F) :=
  Pipeline.withArrays spec1 c (W1 m ρ c) fun w => (dat1 (V1 m ρ) c).arrAt w cfg1.N
theorem W2_arr (c : Dev nD) (w : Fin cfg1.W) :
    W2 m ρ c (Proc.devRef .tc (Pipeline.arrRef spec1 w)) = (dat1 (V1 m ρ) c).arrAt w cfg1.N := by
  unfold W2; exact Pipeline.withArrays_arr spec1 launch1.win.arr_inj c _ _ w
theorem W2_of_ne (c : Dev nD) (b : Ref sig .tc) (hb : ∀ w, Pipeline.arrRef spec1 w ≠ b) :
    W2 m ρ c (Proc.devRef .tc b) = W1 m ρ c (Proc.devRef .tc b) := by
  unfold W2; exact Pipeline.withArrays_of_ne spec1 c _ _ b hb
abbrev V2 : (c : Dev nD) → (b : Ref sig .tc) → Buf (Elt F) ((c : Thread nD τ).loc b) := fun c b => W2 m ρ c b
theorem hF1 (c : Dev nD) (w : Fin cfg1.W) : (dat1 (V1 m ρ) c).arrAt w cfg1.N = V2 m ρ c (Pipeline.arrRef spec1 w) :=
  (W2_arr m ρ c w).symm
theorem hrest1 (c : Dev nD) : ∀ b, b ∉ Finset.univ.image (Pipeline.arrRef spec1) → V2 m ρ c b = V1 m ρ c b :=
  fun b hb => W2_of_ne m ρ c b fun w e => hb (Finset.mem_image.mpr ⟨w, Finset.mem_univ _, e⟩)

/-! ### No region writes an argument: each is an input window of one region and untouched by the other -/

/-- H: the key/value window of region 1. -/
theorem W2_main_arg0 (c : Dev nD) : W2 m ρ c (Proc.devRef .tc main_arg0) = m ((c : Thread nD τ).loc main_arg0) :=
  calc W2 m ρ c (Proc.devRef .tc main_arg0)
    _ = W1 m ρ c (Proc.devRef .tc main_arg0) := (W2_arr m ρ c 1).trans (((dat1 (V1 m ρ) c).arrAt_in 1 rfl _).trans (A_eq1 (V1 m ρ) c 1))
    _ = W0 m ρ c (Proc.devRef .tc main_arg0) := W1_of_ne m ρ c main_arg0 (by decide)
    _ = m ((c : Thread nD τ).loc main_arg0) := rfl
/-- G: the first window of region 0. -/
theorem W2_main_arg1 (c : Dev nD) : W2 m ρ c (Proc.devRef .tc main_arg1) = m ((c : Thread nD τ).loc main_arg1) :=
  calc W2 m ρ c (Proc.devRef .tc main_arg1)
    _ = W1 m ρ c (Proc.devRef .tc main_arg1) := W2_of_ne m ρ c main_arg1 (by decide)
    _ = W0 m ρ c (Proc.devRef .tc main_arg1) := (W1_arr m ρ c 0).trans (((dat0 (V0 m ρ) c).arrAt_in 0 rfl _).trans (A_eq0 (V0 m ρ) c 0))
    _ = m ((c : Thread nD τ).loc main_arg1) := rfl
/-- Wq: the second window of region 0. -/
theorem W2_main_arg2 (c : Dev nD) : W2 m ρ c (Proc.devRef .tc main_arg2) = m ((c : Thread nD τ).loc main_arg2) :=
  calc W2 m ρ c (Proc.devRef .tc main_arg2)
    _ = W1 m ρ c (Proc.devRef .tc main_arg2) := W2_of_ne m ρ c main_arg2 (by decide)
    _ = W0 m ρ c (Proc.devRef .tc main_arg2) := (W1_arr m ρ c 1).trans (((dat0 (V0 m ρ) c).arrAt_in 1 rfl _).trans (A_eq0 (V0 m ρ) c 1))
    _ = m ((c : Thread nD τ).loc main_arg2) := rfl
/-- Wk: the third window of region 1. -/
theorem W2_main_arg3 (c : Dev nD) : W2 m ρ c (Proc.devRef .tc main_arg3) = m ((c : Thread nD τ).loc main_arg3) :=
  calc W2 m ρ c (Proc.devRef .tc main_arg3)
    _ = W1 m ρ c (Proc.devRef .tc main_arg3) := (W2_arr m ρ c 2).trans (((dat1 (V1 m ρ) c).arrAt_in 2 rfl _).trans (A_eq1 (V1 m ρ) c 2))
    _ = W0 m ρ c (Proc.devRef .tc main_arg3) := W1_of_ne m ρ c main_arg3 (by decide)
    _ = m ((c : Thread nD τ).loc main_arg3) := rfl
/-- The result array ends at what region 1's write-backs leave. -/
theorem W2_main_v1 (c : Dev nD) : W2 m ρ c (Proc.devRef .tc main_v1) = (dat1 (V1 m ρ) c).arrAt 3 cfg1.N :=
  W2_arr m ρ c 3

/-! ## The proof data family and the thread state -/

abbrev adm : (p : Fin 2) → (pcfgs (F := F) p).Adm := fun p => (cfgs p).toPCfg_adm
def pdats : (p : Fin 2) → (c : Dev nD) → Dat τ (Elt F) Unit ℕ (UR sig nD τ) ℕ (Pipeline.pin (pcfgs (F := F)) adm p) c
  | ⟨0, _⟩ => fun c => dat0 (V0 m ρ) c
  | ⟨1, _⟩ => fun c => dat1 (V1 m ρ) c
abbrev 𝒱₀ : Variants := Variants.none
abbrev L : GSem nD τ sig → Finset Unit := fun _ => ∅
abbrev lv : GSem nD τ sig → Unit → ℕ := fun _ _ => 0
/-- What rides beside the buffers: the random-number register at some state, and nothing owed. -/
abbrev R (c : Dev nD) : sProp 𝕄 := iprop((∃ r, prngReg c r) ∗ ∃ W, owes (c : Thread nD τ) (0 : CellTallies nD τ sig Unit) W)
theorem mem_uc (b : Ref sig .tc) (h : ¬ (Proc.devRef .tc b : DevRef τ sig).isScoped) : Proc.devRef .tc b ∈ Pipeline.ucRefs τ sig :=
  Finset.mem_filter.mpr ⟨StableHlo.devRef_mem_tcRefs b, h⟩
abbrev Tₙ (c : Dev nD) : sProp 𝕄 := iprop(StableHlo.held (c : Thread nD τ) (Pipeline.ucRefs τ sig) (W2 m ρ c) ∗ ∃ r, prngReg c r)

set_option backward.isDefEq.respectTransparency.types false in
/-- Region 0 as a segment: entered with every unscoped buffer at the contents before it, left with them at the
    contents after it; its arrays are split out of the unscoped buffers at entry and put back at exit; the random-number
    register rides through the invariant; nothing is owed; the kernel has no semaphore of its own. -/
def reg0 : Pipeline.RegionSeg (pcfgs (F := F)) adm (pdats m ρ) () defs₀ 𝒱₀ L lv 0 where
  win := launch0.win.to₀
  block_pos := launch0.block_pos
  stage_whole := launch0.stage_whole
  K := PEmpty
  osem k := k.elim
  ho := Pipeline.OwnSemFacts.none _
  hbody c := (body_obligation0 (V0 m ρ) c).loose
  hwaits := Pipeline.hwaits_of_owed_zero _ _ _ _ L lv 0 fun _ _ => rfl
  pre c := iprop(StableHlo.held (c : Thread nD τ) (Pipeline.ucRefs τ sig) (W0 m ρ c) ∗ R c)
  post c := iprop(StableHlo.held (c : Thread nD τ) (Pipeline.ucRefs τ sig) (W1 m ρ c) ∗ R c)
  X c := iprop(∃ r, prngReg c r)
  Y c := iprop(∃ r, prngReg c r)
  Z c := Pipeline.unscopedRest (Ix := Unit) (Name := ℕ) (U := UR sig nD τ) (Lvl := ℕ) spec0 c (V0 m ρ c)
  hentry c := by
    rw [Pipeline.ownSems0_none]
    have hsplit := Pipeline.arrays_of_unscopedBufs (p := 0) (pcfgs (F := F)) adm (pdats m ρ) launch0.win launch0.arr_whole c
      ((pdats m ρ 0 c).share_full fun _ => rfl) (V0 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 0 c).Φ 0 = Pipeline.ΦA spec0 c from rfl]; unfold Pipeline.ΦA
    iintro ⟨Hp, -, Hr⟩
    isplitl [Hr]; · iexact Hr
    iexact Hp
  hout c := by
    rw [Pipeline.ownSems0_none]
    rw [show (pdats m ρ 0 c).Φ (Fin.last _) = Pipeline.ΦA spec0 c from rfl]; unfold Pipeline.ΦA
    iintro ⟨Hr, Hp⟩
    isplitl [Hp]; · iexact Hp
    isplitr; · iempintro
    iexact Hr
  hexit c := by
    have hjoin := Pipeline.unscopedBufs_of_arrays (p := 0) (pcfgs (F := F)) adm (Ix := Unit) (Name := ℕ) (U := UR sig nD τ) (Lvl := ℕ)
      launch0.win launch0.arr_whole c (pdats m ρ) ((pdats m ρ 0 c).share_full fun _ => rfl)
      (V0 m ρ c) (V1 m ρ c) ((pdats m ρ 0 c).arrAt · cfg0.N) (hF0 m ρ c) (hrest0 m ρ c)
    rw [Pipeline.unscopedBufs_held] at hjoin
    iintro ⟨Ha, HO, HY, Hrest⟩
    imodintro
    isplitl [Ha Hrest]
    · iapply hjoin; isplitl [Ha] <;> iassumption
    isplitl [HY]; · iexact HY
    unfold Pipeline.Dat.owesAt Pipeline.owesWithin
    icases HO with ⟨%W, -, HO⟩; iexists W; iexact HO

set_option backward.isDefEq.respectTransparency.types false in
/-- Region 1 as a segment: entered with every unscoped buffer at the contents before it, left with them at the
    contents after it; its arrays are split out of the unscoped buffers at entry and put back at exit; the random-number
    register rides through the invariant; nothing is owed; the kernel has no semaphore of its own. -/
def reg1 : Pipeline.RegionSeg (pcfgs (F := F)) adm (pdats m ρ) () defs₀ 𝒱₀ L lv 1 where
  win := launch1.win.to₀
  block_pos := launch1.block_pos
  stage_whole := launch1.stage_whole
  K := PEmpty
  osem k := k.elim
  ho := Pipeline.OwnSemFacts.none _
  hbody c := (body_obligation1 (V1 m ρ) c).loose
  hwaits := Pipeline.hwaits_of_owed_zero _ _ _ _ L lv 1 fun _ _ => rfl
  pre c := iprop(StableHlo.held (c : Thread nD τ) (Pipeline.ucRefs τ sig) (W1 m ρ c) ∗ R c)
  post c := iprop(Tₙ m ρ c ∗ ∃ W, owes (c : Thread nD τ) (0 : CellTallies nD τ sig Unit) W)
  X c := iprop(∃ r, prngReg c r)
  Y c := iprop(∃ r, prngReg c r)
  Z c := Pipeline.unscopedRest (Ix := Unit) (Name := ℕ) (U := UR sig nD τ) (Lvl := ℕ) spec1 c (V1 m ρ c)
  hentry c := by
    rw [Pipeline.ownSems0_none]
    have hsplit := Pipeline.arrays_of_unscopedBufs (p := 1) (pcfgs (F := F)) adm (pdats m ρ) launch1.win launch1.arr_whole c
      ((pdats m ρ 1 c).share_full fun _ => rfl) (V1 m ρ c) fun _ => rfl
    rw [Pipeline.unscopedBufs_held] at hsplit
    iintro ⟨⟨Hub, Hp, HO⟩, -, -⟩
    ihave H := hsplit $$ Hub
    icases H with ⟨Ha, Hrest⟩
    imodintro
    isplitl [Ha]; · iexact Ha
    isplitr; · unfold Pipeline.prefHeld; rw [show (Finset.univ : Finset (Fin 0)) = ∅ from rfl, BI.bigSep_empty]; iempintro
    isplitl [HO]
    · unfold Pipeline.Dat.owesAt Pipeline.owesWithin
      icases HO with ⟨%W, HO⟩; iexists W; isplitr; · ipureintro; exact fun _ _ => Or.inl trivial
      iexact HO
    isplitl [Hp]; · iexact Hp
    iexact Hrest
  hin c := by
    rw [show (pdats m ρ 1 c).Φ 0 = Pipeline.ΦA spec1 c from rfl]; unfold Pipeline.ΦA
    iintro ⟨Hp, -, Hr⟩
    isplitl [Hr]; · iexact Hr
    iexact Hp
  hout c := by
    rw [Pipeline.ownSems0_none]
    refine (show (pdats m ρ 1 c).Φ (Fin.last _) ⊢ Pipeline.ΦA spec1 c from hout1 (V1 m ρ) c).trans ?_
    unfold Pipeline.ΦA
    iintro ⟨Hr, Hp⟩
    isplitl [Hp]; · iexact Hp
    isplitr; · iempintro
    iexact Hr
  hexit c := by
    have hjoin := Pipeline.unscopedBufs_of_arrays (p := 1) (pcfgs (F := F)) adm (Ix := Unit) (Name := ℕ) (U := UR sig nD τ) (Lvl := ℕ)
      launch1.win launch1.arr_whole c (pdats m ρ) ((pdats m ρ 1 c).share_full fun _ => rfl)
      (V1 m ρ c) (V2 m ρ c) ((pdats m ρ 1 c).arrAt · cfg1.N) (hF1 m ρ c) (hrest1 m ρ c)
    rw [Pipeline.unscopedBufs_held] at hjoin
    iintro ⟨Ha, HO, HY, Hrest⟩
    imodintro
    isplitl [Ha Hrest HY]
    · isplitl [Ha Hrest]
      · iapply hjoin; isplitl [Ha] <;> iassumption
      iexact HY
    unfold Pipeline.Dat.owesAt Pipeline.owesWithin
    icases HO with ⟨%W, -, HO⟩; iexists W; iexact HO

abbrev segs : List (Pipeline.Seg (pcfgs (F := F)) adm (pdats m ρ) () defs₀ 𝒱₀ L lv) :=
  [ .region (reg0 m ρ), .region (reg1 m ρ) ]
theorem main_run (c : Dev nD) : main (F := F) c = Pipeline.Seg.run (segs m ρ) := (main_chain c).trans (by chain_rfl)

set_option backward.isDefEq.respectTransparency.types false in
/-- THE RUN: from any memory with zero counters every weakly fair execution of @main terminates, nothing faulting,
    and the final memory holds every unscoped buffer at the contents after region 1. -/
theorem run_all : θ_run defs (onTc (τ := τ) (main (F := F))) ⟨m, fun _ => 0, ρ⟩ (fun r => ∀ c : Dev nD,
      ∀ b ∈ Pipeline.ucRefs τ sig, r.2.mem (((c : Thread nD τ)).1, b) = W2 m ρ c b) :=
  Pipeline.θ_run_regions_kit (pcfgs (F := F)) adm (pdats m ρ) () cellOf_inj emb₁ defs₀ 𝒱₀ L lv m ρ main (segs m ρ)
    (fun c Q => by rw [main_run m ρ c])
    (by simp only [segs, Pipeline.Seg.pipes_host, Pipeline.Seg.pipes_region, Pipeline.Seg.pipes_nil]; decide)
    (O₀ := 0) (hL := fun _ _ => rfl) (G := fun _ => iprop(emp))
    (u₀ := initOf (Pipeline.cells cfgs cellOf_inj) (Pipeline.launchToks cfgs cellOf_inj))
    (hu₀ := by
      iintro Hu; imodintro
      isplitl [Hu]
      · iapply (show (ownU (initOf (Pipeline.cells cfgs cellOf_inj) (Pipeline.launchToks cfgs cellOf_inj)) : sProp 𝕄)
            ⊢ BI.own (emb₁ (initOf (Pipeline.cells cfgs cellOf_inj) (Pipeline.launchToks cfgs cellOf_inj))) from .rfl)
        iexact Hu
      iapply (show (BI.emp : sProp 𝕄) ⊢ bigSep Finset.univ (fun _ : Dev nD => (BI.emp : sProp 𝕄)) from by rw [BI.bigSep_emp_const])
      iempintro)
    (T₀ := fun c => iprop(StableHlo.held (c : Thread nD τ) (Pipeline.ucRefs τ sig) (W0 m ρ c) ∗ R c)) (Tₙ := Tₙ m ρ)
    (hch := ⟨fun _ => .rfl, fun _ => .rfl, fun _ => .rfl⟩)
    (hinit := by
      refine Pipeline.initEach L lv fun c => ?_
      rw [show unscopedBufs c (fun b => m ((c : Thread nD τ).loc b)) = StableHlo.held (c : Thread nD τ) (Pipeline.ucRefs τ sig) (W0 m ρ c)
        from Pipeline.unscopedBufs_held c (W0 m ρ c)]
      iintro ⟨⟨Hh, -, HO, -, Hp, -⟩, -⟩
      imodintro
      isplitl [Hh]; · iexact Hh
      isplitl [Hp]; · iexists _; iexact Hp
      iexists ∅; iexact HO)
    (QY := fun c s => ∀ b ∈ Pipeline.ucRefs τ sig, s.mem (((c : Thread nD τ)).1, b) = W2 m ρ c b)
    (hfin := fun c s' => by
      iintro ⟨⟨Hh, -⟩, HSI⟩
      unfold StableHlo.held
      imodintro
      iapply (pointsTo_read_all (Pipeline.ucRefs τ sig) (fun b => (((c : Thread nD τ)).1, b)) (W2 m ρ c) s')
      isplitl [Hh] <;> iassumption)
    (hQ := fun s h => h)

/-- The frame: every argument array ends as launched. -/
theorem frame : θ_run defs (onTc (τ := τ) (main (F := F))) ⟨m, fun _ => 0, ρ⟩ (fun r => ∀ c : Dev nD,
      r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

/-- The run with the result array named: it ends at what region 1's write-backs leave, the arguments as launched. -/
theorem run_value : θ_run defs (onTc (τ := τ) (main (F := F))) ⟨m, fun _ => 0, ρ⟩ (fun r => ∀ c : Dev nD,
      r.2.mem ((c.tc : Thread nD τ).loc main_v1) = (dat1 (V1 m ρ) c).arrAt 3 cfg1.N
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)) :=
  (θ_run defs _ _).mono (fun _ h c =>
    ⟨(h c _ (mem_uc main_v1 (by decide))).trans (W2_main_v1 m ρ c),
     (h c _ (mem_uc main_arg0 (by decide))).trans (W2_main_arg0 m ρ c),
     (h c _ (mem_uc main_arg1 (by decide))).trans (W2_main_arg1 m ρ c),
     (h c _ (mem_uc main_arg2 (by decide))).trans (W2_main_arg2 m ρ c),
     (h c _ (mem_uc main_arg3 (by decide))).trans (W2_main_arg3 m ρ c)⟩) (run_all m ρ)

end Cert.KernelIdeal.Hand

end
-- ==== Proof.LibTransposedDot.lean ====
/-
  A matrix product whose right operand is contracted on its LAST axis, M×K by N×K (the left operand times the transpose
  of the right), at the ideal values, read at an index as the sum over the contracted coordinate of the products of the
  operands' entries: (x · wᵀ)(r, c) = Σ_k x(r, k) · w(c, k) — for the vector unit's matmul into the zero accumulator and
  for the host's dot_general alike. The contraction has one axis, of extent K: its index is that one coordinate; the left
  operand's index at (r, c) and k is (r, k), the right operand's is (c, k).
-/
import Idealize.ShloMosaic.PureOps.Ideal.Laws
import Idealize.ShloMosaic.Lib.ValueIdx

noncomputable section

open scoped BigOperators

namespace Idealize.ShloMosaic.TransposedDot

open Idealize.ShloMosaic Idealize.ShloMosaic.ValueIdx

variable {M K N : Nat}

/-- The one-axis contraction index of the product is its coordinate. -/
def contrE (M K N : Nat) : (DotDims.transposedRhs M K N).contr.Idx ≃ Fin K :=
  contrEquiv1 (DotDims.transposedRhs M K N) K rfl rfl

theorem contrE_symm_val (k : Fin K) :
    ((contrE M K N).symm k ⟨0, by have h : (DotDims.transposedRhs M K N).contr.rank = 1 := rfl; omega⟩ : ℕ) = k.val :=
  contrEquiv1_symm_val (DotDims.transposedRhs M K N) K rfl rfl k

/-- The left operand is read at (row of the result, contracted coordinate). -/
theorem lhsIdx_eq (r : Fin M) (c : Fin N) (k : Fin K) :
    (DotDims.transposedRhs M K N).lhsIdx (ix2 r c) ((contrE M K N).symm k) = ix2 r k := by
  funext a
  apply Fin.ext
  match a with
  | ⟨0, _⟩ => rfl
  | ⟨1, _⟩ => exact ((DotDims.transposedRhs M K N).lhsIdx_val_of_single (cl := 1) rfl (ix2 r c) _).trans (contrE_symm_val k)

/-- The right operand is read at (column of the result, contracted coordinate). -/
theorem rhsIdx_eq (r : Fin M) (c : Fin N) (k : Fin K) :
    (DotDims.transposedRhs M K N).rhsIdx (ix2 r c) ((contrE M K N).symm k) = ix2 c k := by
  funext a
  apply Fin.ext
  match a with
  | ⟨0, _⟩ => rfl
  | ⟨1, _⟩ => exact ((DotDims.transposedRhs M K N).rhsIdx_val_of_single (cr := 1) rfl (ix2 r c) _).trans (contrE_symm_val k)

/-- The sum over the contraction index, re-indexed by the contracted coordinate. -/
theorem sum_contr (f : (⟨2, ![M, K]⟩ : Shape).Idx → EReal) (g : (⟨2, ![N, K]⟩ : Shape).Idx → EReal) (r : Fin M) (c : Fin N) :
    (∑ k : (DotDims.transposedRhs M K N).contr.Idx,
        f ((DotDims.transposedRhs M K N).lhsIdx (ix2 r c) k) * g ((DotDims.transposedRhs M K N).rhsIdx (ix2 r c) k))
      = ∑ k : Fin K, f (ix2 r k) * g (ix2 c k) := by
  rw [← Equiv.sum_comp (contrE M K N).symm]
  exact Finset.sum_congr rfl fun k _ => by rw [lhsIdx_eq, rhsIdx_eq]

/-- The vector unit's matmul into the zero accumulator, at (r, c). -/
theorem matmul_zero_apply {φ₁ φ₂ : FTy} (prec : Option ContractPrecision)
    (x : FVec Ideal ⟨2, ![M, K]⟩ φ₁) (w : FVec Ideal ⟨2, ![N, K]⟩ φ₂) (r : Fin M) (c : Fin N) :
    FloatOps.matmul (DotDims.transposedRhs M K N) prec x w (constant (⟨2, ![M, N]⟩ : Shape) .f32 0x00000000#32) (ix2 r c)
      = ∑ k : Fin K, x (ix2 r k) * w (ix2 c k) :=
  (Ideal.matmul_constant_zero_apply (DotDims.transposedRhs M K N) prec x w (ix2 r c)).trans (sum_contr x w r c)

/-- The host's dot_general, at (r, c). -/
theorem dotGeneral_apply {φ₁ φ₂ : FTy} (prec : Option ContractPrecision) (sched : HostSchedule)
    (x : FVec Ideal ⟨2, ![M, K]⟩ φ₁) (w : FVec Ideal ⟨2, ![N, K]⟩ φ₂) (r : Fin M) (c : Fin N) :
    FloatOps.dotGeneral (DotDims.transposedRhs M K N) prec sched x w (ix2 r c) = ∑ k : Fin K, x (ix2 r k) * w (ix2 c k) :=
  (Ideal.dotGeneral_apply (DotDims.transposedRhs M K N) prec sched x w (ix2 r c)).trans (sum_contr x w r c)

end Idealize.ShloMosaic.TransposedDot

end
-- ==== Proof.QProjValue.lean ====
/-
  Region 0's result as one function of the argument arrays, at the exact extended-real reading: the
  projected queries, Q(b, t, p) = (sum over k of G(b, t, k) * Wq(p, k)) * c, with c the scale constant the kernel
  multiplies by. Grid point b writes back block b; the eight blocks tile the array.
-/
import proofs.«145177_j79886391705810_2_alg».proof.Proof.QProjRegion
import proofs.«145177_j79886391705810_2_alg».proof.Proof.LibTransposedDot
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen

section QValue

variable (V : (c : Dev nD) → (b : Ref sig .tc) → Buf (Elt Ideal) ((c : Thread nD τ).loc b))

theorem hz3' : (![0, 0, 0] : Fin 3 → Nat) = fun _ => 0 := funext fun a => by fin_cases a <;> rfl
theorem hz2' : (![0, 0] : Fin 2 → Nat) = fun _ => 0 := funext fun a => by fin_cases a <;> rfl

/-- The projected, pre-scaled queries. -/
def Qfun (G : FVec Ideal S8x1024x768 .f32) (Wq : FVec Ideal S256x768 .f32) : FVec Ideal S8x1024x256 .bf16 :=
  fun i => (∑ k : Fin 768, G (ix3 (i 0) (i 1) k) * Wq (ix2 (i 2) k)) * Ideal.ofBits .f32 0x3D800000#32

/-- The kernel's product record is the library's "right operand contracted on its last axis". -/
theorem dot0_eq : dot_S1024x768_S256x768_S1024x256_1_1_0_0_n_n = DotDims.transposedRhs 1024 768 256 := rfl

/-- The body's stored value at (0, r, p): row r of the G block against row p of Wq, times the scale. -/
theorem pay1_apply (x0 : Vec Ideal S1x1024x768 .f32) (x1 : Vec Ideal S256x768 .f32) (u : Fin 1) (r : Fin 1024) (p : Fin 256) :
    k0_pay1 x0 x1 (ix3 u r p) = (∑ k : Fin 768, x0 (ix3 (0 : Fin 1) r k) * x1 (ix2 p k)) * Ideal.ofBits .f32 0x3D800000#32 := by
  unfold k0_pay1
  refine (shapeCast_ab_1ab_apply _ _ u r p).trans ?_
  simp only [truncf_apply, mulf_apply, broadcast_apply]
  refine congrArg₂ (· * ·) ?_ rfl
  rw [dot0_eq]
  refine (TransposedDot.matmul_zero_apply none _ _ r p).trans ?_
  refine Finset.sum_congr rfl fun k _ => ?_
  simp only [truncf_apply]
  exact congrArg (· * x1 (ix2 p k)) (shapeCast_1ab_ab_apply x0 _ r k)

/-- The printed index maps of region 0, decided over the grid: point t reads batch entry t of G, all of Wq, and
    writes batch entry t of the result. -/
theorem idx0 : ∀ t : Fin cfg0.N,
    win0_0.index t (0 : Fin 3) = t.val ∧ win0_0.index t (1 : Fin 3) = 0 ∧ win0_0.index t (2 : Fin 3) = 0
    ∧ win0_1.index t (0 : Fin 2) = 0 ∧ win0_1.index t (1 : Fin 2) = 0
    ∧ win0_2.index t (0 : Fin 3) = t.val ∧ win0_2.index t (1 : Fin 3) = 0 ∧ win0_2.index t (2 : Fin 3) = 0 :=
  (by decide +kernel : ∀ t : Fin grid0.N, _)

theorem blkG (c : Dev nD) (t : Fin cfg0.N) (b : Fin 8) (hb : b.val = t.val) (u : Fin 1) (r : Fin 1024) (k : Fin 768) :
    iblk0 V c 0 t (ix3 u r k) = V c main_arg1 (ix3 b r k) := by
  unfold iblk0
  show V c main_arg1 (((cfg0.win 0).blk t).view.emb (ix3 u r k)) = V c main_arg1 (ix3 b r k)
  refine congrArg (V c main_arg1) ?_
  obtain ⟨e0, e1, e2, -⟩ := idx0 t
  funext a; apply Fin.ext
  match a with
  | ⟨0, _⟩ => show win0_0.index t (0 : Fin 3) * 1 + 1 * u.val = b.val; have := u.isLt; omega
  | ⟨1, _⟩ => show win0_0.index t (1 : Fin 3) * 1024 + 1 * r.val = r.val; omega
  | ⟨2, _⟩ => show win0_0.index t (2 : Fin 3) * 768 + 1 * k.val = k.val; omega

theorem blkWq (c : Dev nD) (t : Fin cfg0.N) (p : Fin 256) (k : Fin 768) :
    iblk0 V c 1 t (ix2 p k) = V c main_arg2 (ix2 p k) := by
  unfold iblk0
  show V c main_arg2 (((cfg0.win 1).blk t).view.emb (ix2 p k)) = V c main_arg2 (ix2 p k)
  refine congrArg (V c main_arg2) ?_
  obtain ⟨-, -, -, e0, e1, -⟩ := idx0 t
  funext a; apply Fin.ext
  match a with
  | ⟨0, _⟩ => show win0_1.index t (0 : Fin 2) * 256 + 1 * p.val = p.val; omega
  | ⟨1, _⟩ => show win0_1.index t (1 : Fin 2) * 768 + 1 * k.val = k.val; omega

theorem embQ (t : Fin cfg0.N) (b : Fin 8) (hb : b.val = t.val) (u : Fin 1) (r : Fin 1024) (p : Fin 256) :
    ((cfg0.win 2).blk t).view.emb (ix3 u r p) = ix3 b r p := by
  obtain ⟨-, -, -, -, -, e0, e1, e2⟩ := idx0 t
  funext a; apply Fin.ext
  match a with
  | ⟨0, _⟩ => show win0_2.index t (0 : Fin 3) * 1 + 1 * u.val = b.val; have := u.isLt; omega
  | ⟨1, _⟩ => show win0_2.index t (1 : Fin 3) * 1024 + 1 * r.val = r.val; omega
  | ⟨2, _⟩ => show win0_2.index t (2 : Fin 3) * 256 + 1 * p.val = p.val; omega

/-- What point t writes back is block t of the projected queries. -/
theorem flushedQ_eq (c : Dev nD) (t : Fin cfg0.N) :
    (dat0 V c).flushed 2 t = ((cfg0.win 2).blk t).view.read (Elt Ideal) (Qfun (V c main_arg1) (V c main_arg2)) := by
  show (cfg0.win 2).cut (grid0.coords t) ((dat0 V c).after 2 t) = _
  rw [after0_2]
  unfold out0_2
  rw [View.canon_unit_zero hz3']
  simp only [View.ld_unit_zero (S := S1x1024x768) hz3', View.ld_unit_zero (S := S256x768) hz2']
  have hN : cfg0.N = 8 := N_0
  have hN' : grid0.N = 8 := N_0
  funext j
  obtain ⟨u, r, p, rfl⟩ : ∃ (u : Fin 1) (r : Fin 1024) (p : Fin 256), j = ix3 u r p := ⟨j 0, j 1, j 2, eq_ix3 j⟩
  show k0_pay1 (iblk0 V c 0 t) (iblk0 V c 1 t) (ix3 u r p) = Qfun (V c main_arg1) (V c main_arg2) (((cfg0.win 2).blk t).view.emb (ix3 u r p))
  rw [embQ t ⟨t.val, by omega⟩ rfl u r p]
  refine (pay1_apply _ _ u r p).trans ?_
  unfold Qfun
  refine congrArg (· * Ideal.ofBits .f32 0x3D800000#32) ?_
  exact Finset.sum_congr rfl fun k _ => congrArg₂ (· * ·) (blkG V c t ⟨t.val, by omega⟩ rfl 0 r k) (blkWq V c t p k)

theorem mem_blkQ (t : Fin cfg0.N) (i : S8x1024x256.Idx) :
    i ∈ ((cfg0.win 2).blk t).view.set ↔ ∀ a : Fin 3, win0_2.index t a * S1x1024x256.size a ≤ (i a).val ∧ (i a).val < win0_2.index t a * S1x1024x256.size a + S1x1024x256.size a := by
  show i ∈ ((View.whole main_v0).slice (win0_2.rect t)).set ↔ _
  rw [View.set_slice_whole, Rect.mem_set_unit]
  exact Iff.rfl

theorem coverQ (i : S8x1024x256.Idx) :
    ∃ t : Fin cfg0.N, (cfg0.win 2).flush t = true ∧ i ∈ ((cfg0.win 2).blk t).view.set := by
  have hi0 : (i 0).val < 8 := (i 0).isLt
  have hi1 : (i 1).val < 1024 := (i 1).isLt
  have hi2 : (i 2).val < 256 := (i 2).isLt
  have hN : cfg0.N = 8 := N_0
  have hN' : grid0.N = 8 := N_0
  refine ⟨⟨(i 0).val, by omega⟩, flush0_2 _, ?_⟩
  rw [mem_blkQ]
  obtain ⟨-, -, -, -, -, e0, e1, e2⟩ := idx0 ⟨(i 0).val, by omega⟩
  have e0' : win0_2.index ⟨(i 0).val, by omega⟩ (0 : Fin 3) = (i 0).val := e0
  intro a
  match a with
  | ⟨0, _⟩ => show win0_2.index _ (0 : Fin 3) * 1 ≤ (i 0).val ∧ (i 0).val < win0_2.index _ (0 : Fin 3) * 1 + 1; omega
  | ⟨1, _⟩ => show win0_2.index _ (1 : Fin 3) * 1024 ≤ (i 1).val ∧ (i 1).val < win0_2.index _ (1 : Fin 3) * 1024 + 1024; omega
  | ⟨2, _⟩ => show win0_2.index _ (2 : Fin 3) * 256 ≤ (i 2).val ∧ (i 2).val < win0_2.index _ (2 : Fin 3) * 256 + 256; omega

/-- The result array of region 0 after its run: the projected, pre-scaled queries of the arrays it found. -/
theorem finalQ (c : Dev nD) : (dat0 V c).arrAt 2 cfg0.N = Qfun (V c main_arg1) (V c main_arg2) :=
  (dat0 V c).arrAt_eq_of_cover 2 (Qfun (V c main_arg1) (V c main_arg2)) (fun t _ => flushedQ_eq V c t) coverQ

end QValue

end Cert.KernelIdeal.Hand

end
-- ==== Proof.AttnPieces.lean ====
/-
  What each control case of region 1 leaves in the running buffers and in the output block, as the body's own
  arithmetic: one update of (row maxima, row denominators, accumulator) by the tile's blocks, from the reset state
  at tile 0 and from the state the tile before left otherwise; at tile 3 the output block is the accumulator
  divided by the denominators plus the guard constant.
-/
import proofs.«145177_j79886391705810_2_alg».proof.Proof.AttnRegion
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen

variable {F : FTy → Type} [FloatOps F]

local notation "𝕄" => MT nD τ sig Unit (Elt F) ℕ (UR sig nD τ) ℕ

section Pieces

variable (V : (c : Dev nD) → (b : Ref sig .tc) → Buf (Elt F) ((c : Thread nD τ).loc b))

theorem hz2 : (![0, 0] : Fin 2 → Nat) = fun _ => 0 := funext fun a => by fin_cases a <;> rfl
theorem hz3 : (![0, 0, 0] : Fin 3 → Nat) = fun _ => 0 := funext fun a => by fin_cases a <;> rfl

/-- A running buffer handed to the body at contents X reads back X. -/
theorem readM (h : scM.IsWhole) (X : Vec F S1024x1 .f32) : View.read (Elt F) (View.whole cc1_scratch0) (h.unread X) = X := h.read_unread X
theorem readL (h : scL.IsWhole) (X : Vec F S1024x1 .f32) : View.read (Elt F) (View.whole cc1_scratch1) (h.unread X) = X := h.read_unread X
theorem readA (h : scA.IsWhole) (X : Vec F S1024x1024 .f32) : View.read (Elt F) (View.whole cc1_scratch2) (h.unread X) = X := h.read_unread X

abbrev Scr (F : FTy → Type) : Type := Vec F S1024x1 .f32 × Vec F S1024x1 .f32 × Vec F S1024x1024 .f32

/-- One tile's update of the running state p = (maxima, denominators, accumulator) by the query block q, the
    key/value tile h and the key projection w. -/
def upd (q : Vec F S1x1024x256 .bf16) (h : Vec F S1x1024x1024 .f32) (w : Vec F S256x1024 .f32) (p : Scr F) : Scr F :=
  (k1_pay2 (k1_pay9 q h w p.1), k1_pay12 q h w p.1 p.1 p.2.1, k1_pay1 (k1_pay10 q h w p.1 p.1) (k1_pay13 q h w p.1) p.2.2)

/-- The reset state: maxima at -inf, denominators and accumulator at 0. -/
def init : Scr F := (k1_pay4, k1_pay5, k1_pay6)

/-- Tile 0: the update of the reset state. -/
theorem stepA_eq (c : Dev nD) (t : Fin cfg1.N) (h0 : t.val % 4 = 0) :
    stepA V c t h0 = upd (iblk1 V c 0 t) (iblk1 V c 1 t) (iblk1 V c 2 t) init := by
  refine Prod.ext ?_ (Prod.ext ?_ ?_)
  · unfold stepA upd init; dsimp only
    rw [View.read_writes_eq_canon _ _ _ (coverM_A V c t h0)]
    unfold kernelRun1_A; dsimp only; sl_unfold_words
    rw [View.canon_cons_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]
  · unfold stepA upd init; dsimp only
    rw [View.read_writes_eq_canon _ _ _ (coverL_A V c t h0)]
    unfold kernelRun1_A; dsimp only; sl_unfold_words
    rw [View.canon_cons_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]
  · unfold stepA upd init; dsimp only
    rw [View.read_writes_eq_canon _ _ _ (coverA_A V c t h0)]
    unfold kernelRun1_A; dsimp only; sl_unfold_words
    rw [View.canon_cons_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]

/-- Tiles 1 and 2: the update of what the tile before left. -/
theorem stepB_eq (c : Dev nD) (t : Fin cfg1.N) (h0 : ¬t.val % 4 = 0) (h1 : ¬t.val % 4 = 3) (p : Scr F) :
    stepB V c t h0 h1 p = upd (iblk1 V c 0 t) (iblk1 V c 1 t) (iblk1 V c 2 t) p := by
  refine Prod.ext ?_ (Prod.ext ?_ ?_)
  · unfold stepB upd; dsimp only
    rw [View.read_writes_eq_canon _ _ _ (coverM_B V c t h0 h1 p)]
    unfold kernelRun1_B; dsimp only; sl_unfold_words
    rw [View.canon_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]
  · unfold stepB upd; dsimp only
    rw [View.read_writes_eq_canon _ _ _ (coverL_B V c t h0 h1 p)]
    unfold kernelRun1_B; dsimp only; sl_unfold_words
    rw [View.canon_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]
  · unfold stepB upd; dsimp only
    rw [View.read_writes_eq_canon _ _ _ (coverA_B V c t h0 h1 p)]
    unfold kernelRun1_B; dsimp only; sl_unfold_words
    rw [View.canon_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]

/-- Tile 3: the same update, -/
theorem stepC_eq (c : Dev nD) (t : Fin cfg1.N) (h1 : t.val % 4 = 3) (p : Scr F) :
    stepC V c t h1 p = upd (iblk1 V c 0 t) (iblk1 V c 1 t) (iblk1 V c 2 t) p := by
  refine Prod.ext ?_ (Prod.ext ?_ ?_)
  · unfold stepC upd; dsimp only
    rw [View.read_writes_eq_canon _ _ _ (coverM_C V c t h1 p)]
    unfold kernelRun1_C; dsimp only; sl_unfold_words
    rw [View.canon_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]
  · unfold stepC upd; dsimp only
    rw [View.read_writes_eq_canon _ _ _ (coverL_C V c t h1 p)]
    unfold kernelRun1_C; dsimp only; sl_unfold_words
    rw [View.canon_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]
  · unfold stepC upd; dsimp only
    rw [View.read_writes_eq_canon _ _ _ (coverA_C V c t h1 p)]
    unfold kernelRun1_C; dsimp only; sl_unfold_words
    rw [View.canon_unit_zero hz2]
    simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]

/-- and the output block: the updated accumulator over the updated denominators plus the guard constant. -/
theorem outC_eq (c : Dev nD) (t : Fin cfg1.N) (h1 : t.val % 4 = 3) (p : Scr F) :
    outC V c t h1 p = k1_pay3 (upd (iblk1 V c 0 t) (iblk1 V c 1 t) (iblk1 V c 2 t) p).2.2 (upd (iblk1 V c 0 t) (iblk1 V c 1 t) (iblk1 V c 2 t) p).2.1 := by
  unfold outC upd; dsimp only
  rw [View.read_writes_eq_canon _ _ _ (coverO_C V c t h1 p)]
  unfold kernelRun1_C; dsimp only; sl_unfold_words
  rw [View.canon_unit_zero hz3]
  simp only [View.readAt_eq_ld, Memref.IsWhole.read_unread, readM, readL, readA, View.ld_unit_zero (S := S1024x1) hz2, View.ld_unit_zero (S := S1024x1024) hz2, View.ld_unit_zero (S := S1x1024x256) hz3, View.ld_unit_zero (S := S1x1024x1024) hz3, View.ld_unit_zero (S := S256x1024) hz2, View.readCov_unit_zero (S := S1024x1) _ hz2, View.readCov_unit_zero (S := S1024x1024) _ hz2]

end Pieces

end Cert.KernelIdeal.Hand

end
-- ==== Proof.LibPlainDot.lean ====
/-
  A plain matrix product, M×K by K×N, at the ideal values, read at an index as the sum over the contracted coordinate of
  the products of the operands' entries — for the vector unit's `tpu.matmul` into the zero accumulator and for the host's
  `dot_general` alike. The contraction has one axis, of extent K: its index is that one coordinate (`contrE`), the left
  operand's index at (r, c) and k is (r, k), the right operand's is (k, c).
-/
import Idealize.ShloMosaic.PureOps.Ideal.Laws
import Idealize.ShloMosaic.Lib.ValueIdx

noncomputable section

open scoped BigOperators

namespace Idealize.ShloMosaic.PlainDot

open Idealize.ShloMosaic Idealize.ShloMosaic.ValueIdx

variable {M K N : Nat}

/-- The one-axis contraction index of a plain product is its coordinate. -/
def contrE (M K N : Nat) : (DotDims.plain M K N).contr.Idx ≃ Fin K :=
  contrEquiv1 (DotDims.plain M K N) K rfl rfl

theorem contrE_symm_val (k : Fin K) :
    ((contrE M K N).symm k ⟨0, by have h : (DotDims.plain M K N).contr.rank = 1 := rfl; omega⟩ : ℕ) = k.val :=
  contrEquiv1_symm_val (DotDims.plain M K N) K rfl rfl k

/-- The left operand is read at (row of the result, contracted coordinate). -/
theorem lhsIdx_eq (r : Fin M) (c : Fin N) (k : Fin K) :
    (DotDims.plain M K N).lhsIdx (ix2 r c) ((contrE M K N).symm k) = ix2 r k := by
  funext a
  apply Fin.ext
  match a with
  | ⟨0, _⟩ => rfl
  | ⟨1, _⟩ => exact ((DotDims.plain M K N).lhsIdx_val_of_single (cl := 1) rfl (ix2 r c) _).trans (contrE_symm_val k)

/-- The right operand is read at (contracted coordinate, column of the result). -/
theorem rhsIdx_eq (r : Fin M) (c : Fin N) (k : Fin K) :
    (DotDims.plain M K N).rhsIdx (ix2 r c) ((contrE M K N).symm k) = ix2 k c := by
  funext a
  apply Fin.ext
  match a with
  | ⟨0, _⟩ => exact ((DotDims.plain M K N).rhsIdx_val_of_single (cr := 0) rfl (ix2 r c) _).trans (contrE_symm_val k)
  | ⟨1, _⟩ => rfl

/-- The sum over the contraction index of a plain product, re-indexed by the contracted coordinate. -/
theorem sum_contr (f : (⟨2, ![M, K]⟩ : Shape).Idx → EReal) (g : (⟨2, ![K, N]⟩ : Shape).Idx → EReal) (r : Fin M) (c : Fin N) :
    (∑ k : (DotDims.plain M K N).contr.Idx, f ((DotDims.plain M K N).lhsIdx (ix2 r c) k) * g ((DotDims.plain M K N).rhsIdx (ix2 r c) k))
      = ∑ k : Fin K, f (ix2 r k) * g (ix2 k c) := by
  rw [← Equiv.sum_comp (contrE M K N).symm]
  exact Finset.sum_congr rfl fun k _ => by rw [lhsIdx_eq, rhsIdx_eq]

/-- `tpu.matmul` into the zero accumulator, at (r, c). -/
theorem matmul_zero_apply {φ₁ φ₂ : FTy} (prec : Option ContractPrecision)
    (x : FVec Ideal ⟨2, ![M, K]⟩ φ₁) (w : FVec Ideal ⟨2, ![K, N]⟩ φ₂) (r : Fin M) (c : Fin N) :
    FloatOps.matmul (DotDims.plain M K N) prec x w (constant (⟨2, ![M, N]⟩ : Shape) .f32 0x00000000#32) (ix2 r c)
      = ∑ k : Fin K, x (ix2 r k) * w (ix2 k c) :=
  (Ideal.matmul_constant_zero_apply (DotDims.plain M K N) prec x w (ix2 r c)).trans (sum_contr x w r c)

/-- The host's `dot_general`, at (r, c). -/
theorem dotGeneral_apply {φ₁ φ₂ : FTy} (prec : Option ContractPrecision) (sched : HostSchedule)
    (x : FVec Ideal ⟨2, ![M, K]⟩ φ₁) (w : FVec Ideal ⟨2, ![K, N]⟩ φ₂) (r : Fin M) (c : Fin N) :
    FloatOps.dotGeneral (DotDims.plain M K N) prec sched x w (ix2 r c) = ∑ k : Fin K, x (ix2 r k) * w (ix2 k c) :=
  (Ideal.dotGeneral_apply (DotDims.plain M K N) prec sched x w (ix2 r c)).trans (sum_contr x w r c)

end Idealize.ShloMosaic.PlainDot

end
-- ==== Proof.LibAxisFold.lean ====
/-
  A reduction over one axis of a two-axis array on the extended reals, read at a row or a column.

  For an a×b array X:
    * the index over row p with coordinate k inserted on the second axis is (p, k); over column c with coordinate r
      inserted on the first axis it is (r, c);
    * the vector unit's sum over the second axis, at row p, is Σ_k X(p, k); over the first axis, at column c, Σ_r X(r, c);
    * its maximum over the second axis from the accumulator pattern acc, at row p, is the fold of max over k of X(p, k)
      from the value of acc.
-/
import Idealize.ShloMosaic.PureOps.Ideal.Laws
import Idealize.ShloMosaic.Lib.ValueIdx

noncomputable section

namespace Idealize.ShloMosaic.AxisFold

open Idealize.ShloMosaic Idealize.ShloMosaic.ValueIdx

/-- Row p with k inserted on the second axis is (p, k). -/
theorem lift_second {a b : ℕ} (h : Shape.Reduces ⟨2, ![a, b]⟩ [1] ⟨1, ![a]⟩) (p : Fin a) (k : Fin b) :
    h.lift (ix1 p) k = ix2 p k := by
  funext ax
  apply Fin.ext
  match ax with
  | ⟨0, _⟩ => rfl
  | ⟨1, _⟩ => rfl

/-- Column c with r inserted on the first axis is (r, c). -/
theorem lift_first {a b : ℕ} (h : Shape.Reduces ⟨2, ![a, b]⟩ [0] ⟨1, ![b]⟩) (c : Fin b) (r : Fin a) :
    h.lift (ix1 c) r = ix2 r c := by
  funext ax
  apply Fin.ext
  match ax with
  | ⟨0, _⟩ => rfl
  | ⟨1, _⟩ => rfl

/-- The vector unit's sum over the second axis, at row p. -/
theorem sum_second_apply {a b : ℕ} (X : FVec Ideal ⟨2, ![a, b]⟩ .f32) (h : Shape.Reduces ⟨2, ![a, b]⟩ [1] ⟨1, ![a]⟩)
    (hφ : FKind.Formats .f32) (hacc : (0x00000000#32 : BitVec 32) = FKind.add.neutral .f32 hφ) (p : Fin a) :
    multiReduction .add [1] ⟨1, ![a]⟩ X 0x00000000#32 h hφ hacc (ix1 p) = ∑ k : Fin b, X (ix2 p k) := by
  refine (Ideal.multiReduction_add_single X 0x00000000#32 h hφ hacc (ix1 p)).trans ?_
  exact Finset.sum_congr rfl fun k _ => congrArg X (lift_second h p k)

/-- The vector unit's sum over the first axis, at column c. -/
theorem sum_first_apply {a b : ℕ} (X : FVec Ideal ⟨2, ![a, b]⟩ .f32) (h : Shape.Reduces ⟨2, ![a, b]⟩ [0] ⟨1, ![b]⟩)
    (hφ : FKind.Formats .f32) (hacc : (0x00000000#32 : BitVec 32) = FKind.add.neutral .f32 hφ) (c : Fin b) :
    multiReduction .add [0] ⟨1, ![b]⟩ X 0x00000000#32 h hφ hacc (ix1 c) = ∑ r : Fin a, X (ix2 r c) := by
  refine (Ideal.multiReduction_add_single X 0x00000000#32 h hφ hacc (ix1 c)).trans ?_
  exact Finset.sum_congr rfl fun r _ => congrArg X (lift_first h c r)

/-- The vector unit's maximum over the second axis from the pattern acc, at row p. -/
theorem max_second_apply {a b : ℕ} (X : FVec Ideal ⟨2, ![a, b]⟩ .f32) (acc : BitVec 32) (h : Shape.Reduces ⟨2, ![a, b]⟩ [1] ⟨1, ![a]⟩)
    (hφ : FKind.Formats .f32) (hacc : acc = FKind.maximumf.neutral .f32 hφ) (p : Fin a) :
    multiReduction .maximumf [1] ⟨1, ![a]⟩ X acc h hφ hacc (ix1 p)
      = (Finset.univ : Finset (Fin b)).fold max (Ideal.ofBits .f32 acc) (fun k => X (ix2 p k)) := by
  refine (Ideal.multiReduction_maximumf_single X acc h hφ hacc (ix1 p)).trans ?_
  have e : (X ∘ h.lift (ix1 p)) = fun k : Fin b => X (ix2 p k) :=
    funext fun k => congrArg X (lift_second h p k)
  rw [e]
  rfl

end Idealize.ShloMosaic.AxisFold

end
-- ==== Proof.LibKeepdims.lean ====
/-
  A column kept as a unit axis: the two layout operations a row-wise reduction with its axis kept goes through.

  * A length-a vector cast to an a×1 array reads, at (i, u), the vector at i (the unit coordinate u is 0).
  * An a×1 array broadcast to a×b reads, at (p, c), the column's entry at (p, 0), whatever the column c.
-/
import Idealize.ShloMosaic.Lib.Pipeline.Value
import Idealize.ShloMosaic.Lib.ValueIdx
import Idealize.ShloMosaic.Lib.ValueLayout

noncomputable section

namespace Idealize.ShloMosaic.Keepdims

open Idealize.ShloMosaic Idealize.ShloMosaic.ValueIdx

variable {α : Type}

/-- A vector of length a cast to a×1 reads, at (i, u), the vector at i. -/
theorem shapeCast_a_a1_apply {a : ℕ} (x : (⟨1, ![a]⟩ : Shape).Idx → α) (h : (⟨1, ![a]⟩ : Shape).ShapeCasts ⟨2, ![a, 1]⟩)
    (i : Fin a) (u : Fin 1) : shapeCast ⟨2, ![a, 1]⟩ x h (ix2 i u) = x (ix1 i) :=
  shapeCast_apply x h _ _ (by
    have hu : u.val = 0 := by omega
    rw [Shape.rowMajor_val_two, Shape.rowMajor_val_one]
    show i.val = i.val * 1 + u.val
    rw [hu, Nat.mul_one, Nat.add_zero])

/-- An a×1 column broadcast to a×b reads, at (p, c), the column at (p, 0). -/
theorem broadcastTo_a1_ab_apply {a b : ℕ} (v : (⟨2, ![a, 1]⟩ : Shape).Idx → α) (h : (⟨2, ![a, 1]⟩ : Shape).Broadcasts ⟨2, ![a, b]⟩)
    (p : Fin a) (c : Fin b) : broadcastTo ⟨2, ![a, b]⟩ v h (ix2 p c) = v (ix2 p (0 : Fin 1)) := by
  refine broadcastTo_apply v h (ix2 p c) (ix2 p (0 : Fin 1)) fun ax => ?_
  match ax with
  | ⟨0, _⟩ =>
    show p.val = if a = 1 then 0 else p.val
    split
    · have := p.isLt; omega
    · rfl
  | ⟨1, _⟩ => rfl

end Idealize.ShloMosaic.Keepdims

end
-- ==== Proof.AttnRead.lean ====
/-
  One tile's update read index by index at the exact extended-real reading. For a query block q, a key/value
  tile h and the key projection w, the score of query row r against key k is
      score r k = sum over p of q(r, p) * (sum over d of h(k, d) * w(p, d)).
  The update of (maxima m, denominators l, accumulator a) is, row by row,
      m'(r) = max (m r) (max over k of score r k),      alpha = exp (m r - m' r),
      l'(r) = alpha * l r + sum over k of exp (score r k - m' r),
      a'(r, d) = alpha * a(r, d) + sum over k of exp (score r k - m' r) * h(k, d),
  and the output at tile 3 is a'(r, d) / (l' r + guard).
-/
import proofs.«145177_j79886391705810_2_alg».proof.Proof.Gen.KernelIdeal.Skeleton
import proofs.«145177_j79886391705810_2_alg».proof.Proof.LibTransposedDot
import proofs.«145177_j79886391705810_2_alg».proof.Proof.LibPlainDot
import proofs.«145177_j79886391705810_2_alg».proof.Proof.LibAxisFold
import proofs.«145177_j79886391705810_2_alg».proof.Proof.LibKeepdims
import Idealize.ShloMosaic.Lib.ValueIdx
import Idealize.ShloMosaic.Lib.ValueLayout
import Idealize.ShloMosaic.Lib.Pipeline.Value
import Idealize.ShloMosaic.PureOps.Ideal.Laws

set_option maxRecDepth 16384

noncomputable section

namespace Cert.KernelIdeal.Hand

open Idealize.ShloMosaic Idealize.ShloMosaic.ValueIdx
open Cert.KernelIdeal Cert.KernelIdeal.Gen

section Read

variable (q : Vec Ideal S1x1024x256 .bf16) (h : Vec Ideal S1x1024x1024 .f32) (w : Vec Ideal S256x1024 .f32)

/-- The key projection of the tile: K(k, p) = sum over d of h(k, d) * w(p, d). -/
def kproj (k : Fin 1024) (p : Fin 256) : EReal := ∑ d : Fin 1024, h (ix3 (0 : Fin 1) k d) * w (ix2 p d)
/-- The score of query row r against key k of the tile. -/
def score (r : Fin 1024) (k : Fin 1024) : EReal := ∑ p : Fin 256, q (ix3 (0 : Fin 1) r p) * kproj h w k p

theorem dotHW_eq : dot_S1024x1024_S256x1024_S1024x256_1_1_0_0_n_n = DotDims.transposedRhs 1024 1024 256 := rfl
theorem dotQK_eq : dot_S1024x256_S1024x256_S1024x1024_1_1_0_0_n_n = DotDims.transposedRhs 1024 256 1024 := rfl
theorem dotPV_eq : dot_S1024x1024_S1024x1024_S1024x1024_1_0_0_1_n_n = DotDims.plain 1024 1024 1024 := rfl

theorem pay7_apply (k d : Fin 1024) : k1_pay7 h (ix2 k d) = h (ix3 (0 : Fin 1) k d) := by
  unfold k1_pay7
  simp only [truncf_apply]
  exact shapeCast_1ab_ab_apply h _ k d

theorem pay8_apply (r k : Fin 1024) : k1_pay8 q h w (ix2 r k) = score q h w r k := by
  unfold k1_pay8 score kproj
  rw [dotQK_eq, dotHW_eq]
  refine (TransposedDot.matmul_zero_apply none _ _ r k).trans ?_
  refine Finset.sum_congr rfl fun p _ => ?_
  refine congrArg₂ (· * ·) (shapeCast_1ab_ab_apply q _ r p) ?_
  simp only [truncf_apply]
  refine (TransposedDot.matmul_zero_apply none _ _ k p).trans ?_
  refine Finset.sum_congr rfl fun d _ => ?_
  simp only [truncf_apply]
  exact congrArg (· * w (ix2 p d)) (pay7_apply h k d)

/-- The exponential at an index. -/
theorem exp_apply' {s : Shape} {φ : FTy} (a : FVec Ideal s φ) (i : s.Idx) : exp a i = Ideal.exp (a i) := rfl

/-- The largest score of row r over the tile, from -inf. -/
def rowMax (r : Fin 1024) : EReal :=
  (Finset.univ : Finset (Fin 1024)).fold max (Ideal.ofBits .f32 0xFF800000#32) (fun k => score q h w r k)

variable (m0 : Vec Ideal S1024x1 .f32)

theorem pay9_apply (r : Fin 1024) (u : Fin 1) : k1_pay9 q h w m0 (ix2 r u) = max (m0 (ix2 r u)) (rowMax q h w r) := by
  unfold k1_pay9 rowMax
  refine (maximumf_apply _ _ _).trans ?_
  refine congrArg (max (m0 (ix2 r u))) ?_
  refine (Keepdims.shapeCast_a_a1_apply _ _ r u).trans ?_
  refine (AxisFold.max_second_apply _ _ _ _ _ r).trans ?_
  exact congrArg (fun f : Fin 1024 → EReal => (Finset.univ : Finset (Fin 1024)).fold max (Ideal.ofBits .f32 0xFF800000#32) f)
    (funext fun k => pay8_apply q h w r k)

variable (m1 : Vec Ideal S1024x1 .f32)

theorem pay10_apply (r : Fin 1024) (u : Fin 1) :
    k1_pay10 q h w m0 m1 (ix2 r u) = Ideal.exp (m1 (ix2 r u) - max (m0 (ix2 r u)) (rowMax q h w r)) := by
  unfold k1_pay10
  refine (exp_apply' _ _).trans (congrArg Ideal.exp ?_)
  refine (subf_apply _ _ _).trans ?_
  exact congrArg (fun x => m1 (ix2 r u) - x) (pay9_apply q h w m0 r u)

theorem pay11_apply (r k : Fin 1024) :
    k1_pay11 q h w m0 (ix2 r k) = Ideal.exp (score q h w r k - max (m0 (ix2 r (0 : Fin 1))) (rowMax q h w r)) := by
  unfold k1_pay11
  refine (exp_apply' _ _).trans (congrArg Ideal.exp ?_)
  refine (subf_apply _ _ _).trans ?_
  refine congrArg₂ (· - ·) (pay8_apply q h w r k) ?_
  refine (Keepdims.broadcastTo_a1_ab_apply _ _ r k).trans ?_
  exact pay9_apply q h w m0 r 0

variable (l0 : Vec Ideal S1024x1 .f32)

theorem pay12_apply (r : Fin 1024) (u : Fin 1) :
    k1_pay12 q h w m0 m1 l0 (ix2 r u)
      = Ideal.exp (m1 (ix2 r u) - max (m0 (ix2 r u)) (rowMax q h w r)) * l0 (ix2 r u)
        + ∑ k : Fin 1024, Ideal.exp (score q h w r k - max (m0 (ix2 r (0 : Fin 1))) (rowMax q h w r)) := by
  unfold k1_pay12
  refine (congrFun (shapeCast_self _ _) _).trans ?_
  refine (addf_apply _ _ _).trans ?_
  refine congrArg₂ (· + ·) ?_ ?_
  · refine (mulf_apply _ _ _).trans ?_
    exact congrArg (· * l0 (ix2 r u)) (pay10_apply q h w m0 m1 r u)
  · refine (Keepdims.shapeCast_a_a1_apply _ _ r u).trans ?_
    refine (AxisFold.sum_second_apply _ _ _ _ r).trans ?_
    exact Finset.sum_congr rfl fun k _ => pay11_apply q h w m0 r k

theorem pay13_apply (r d : Fin 1024) :
    k1_pay13 q h w m0 (ix2 r d)
      = ∑ k : Fin 1024, Ideal.exp (score q h w r k - max (m0 (ix2 r (0 : Fin 1))) (rowMax q h w r)) * h (ix3 (0 : Fin 1) k d) := by
  unfold k1_pay13
  rw [dotPV_eq]
  refine (PlainDot.matmul_zero_apply none _ _ r d).trans ?_
  refine Finset.sum_congr rfl fun k _ => ?_
  refine congrArg₂ (· * ·) ?_ (pay7_apply h k d)
  exact (truncf_apply (ψ := .bf16) (k1_pay11 q h w m0) bitsLt_bf16_f32 (ix2 r k)).trans (pay11_apply q h w m0 r k)

theorem pay1_apply' (al : FVec Ideal S1024x1 .f32) (pv : FVec Ideal S1024x1024 .f32) (a0 : Vec Ideal S1024x1024 .f32) (r d : Fin 1024) :
    k1_pay1 al pv a0 (ix2 r d) = al (ix2 r (0 : Fin 1)) * a0 (ix2 r d) + pv (ix2 r d) := by
  unfold k1_pay1
  refine (congrFun (shapeCast_self _ _) _).trans ?_
  refine (addf_apply _ _ _).trans ?_
  refine congrArg (· + pv (ix2 r d)) ?_
  refine (mulf_apply _ _ _).trans ?_
  exact congrArg (· * a0 (ix2 r d)) (Keepdims.broadcastTo_a1_ab_apply al _ r d)

theorem pay2_eq (x : FVec Ideal S1024x1 .f32) : k1_pay2 x = x := by
  unfold k1_pay2; exact shapeCast_self _ _

theorem pay3_apply (a : Vec Ideal S1024x1024 .f32) (l : Vec Ideal S1024x1 .f32) (u : Fin 1) (r d : Fin 1024) :
    k1_pay3 a l (ix3 u r d) = Ideal.div (a (ix2 r d)) (l (ix2 r (0 : Fin 1)) + Ideal.ofBits .f32 0x322BCC77#32) := by
  unfold k1_pay3
  refine (shapeCast_ab_1ab_apply _ _ u r d).trans ?_
  refine (divf_apply _ _ _).trans ?_
  refine congrArg (Ideal.div (a (ix2 r d))) ?_
  refine (Keepdims.broadcastTo_a1_ab_apply _ _ r d).trans ?_
  exact addf_apply _ _ _

theorem pay4_apply (i : S1024x1.Idx) : k1_pay4 (F := Ideal) i = Ideal.ofBits .f32 0xFF800000#32 := by
  unfold k1_pay4; exact congrFun (shapeCast_self _ _) i
theorem pay5_apply (i : S1024x1.Idx) : k1_pay5 (F := Ideal) i = Ideal.ofBits .f32 0x00000000#32 := by
  unfold k1_pay5; exact congrFun (shapeCast_self _ _) i
theorem pay6_apply (i : S1024x1024.Idx) : k1_pay6 (F := Ideal) i = Ideal.ofBits .f32 0x00000000#32 := by
  unfold k1_pay6; exact congrFun (shapeCast_self _ _) i

end Read

end Cert.KernelIdeal.Hand

end
-- ==== Proof.AttnBlocks.lean ====
/-
  Region 1's windows by coordinates. Grid point t is batch entry t / 4 and key tile t % 4: the query window's
  block is rows (t / 4, ·, ·) of the projected queries; the key/value window's block is rows
  (t / 4, 1024 * (t % 4) + ·, ·) of H; the projection window is all of Wk; the output block is rows (t / 4, ·, ·)
  of the result, written back at tile 3, and the eight output blocks tile the result array.
-/
import proofs.«145177_j79886391705810_2_alg».proof.Proof.AttnRegion
import Idealize.ShloMosaic.Lib.ValueIdx
import Idealize.ShloMosaic.Lib.Pipeline.Value

set_option maxRecDepth 16384

noncomputable section

namespace Cert.KernelIdeal.Hand

open Idealize.ShloMosaic Idealize.ShloMosaic.TcCoe Idealize.ShloMosaic.Tactic
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Pipeline (Dat Cfg Window BodyObligation cellOf)

open Cert.KernelIdeal Cert.KernelIdeal.Gen Idealize.ShloMosaic.ValueIdx

variable {F : FTy → Type} [FloatOps F]

local notation "𝕄" => MT nD τ sig Unit (Elt F) ℕ (UR sig nD τ) ℕ

section Blocks

variable (V : (c : Dev nD) → (b : Ref sig .tc) → Buf (Elt F) ((c : Thread nD τ).loc b))

/-- The printed index maps, decided over the grid. -/
theorem idx1 : ∀ t : Fin cfg1.N,
    win1_0.index t (0 : Fin 3) = t.val / 4 ∧ win1_0.index t (1 : Fin 3) = 0 ∧ win1_0.index t (2 : Fin 3) = 0
    ∧ win1_1.index t (0 : Fin 3) = t.val / 4 ∧ win1_1.index t (1 : Fin 3) = t.val % 4 ∧ win1_1.index t (2 : Fin 3) = 0
    ∧ win1_2.index t (0 : Fin 2) = 0 ∧ win1_2.index t (1 : Fin 2) = 0
    ∧ win1_3.index t (0 : Fin 3) = t.val / 4 ∧ win1_3.index t (1 : Fin 3) = 0 ∧ win1_3.index t (2 : Fin 3) = 0 :=
  (by decide +kernel : ∀ t : Fin grid1.N, _)

/-- The query block at point t is batch entry t / 4 of the projected queries. -/
theorem blkQ (c : Dev nD) (t : Fin cfg1.N) (b : Fin 8) (hb : b.val = t.val / 4) (u : Fin 1) (r : Fin 1024) (p : Fin 256) :
    iblk1 V c 0 t (ix3 u r p) = V c main_v0 (ix3 b r p) := by
  unfold iblk1
  show V c main_v0 (((cfg1.win 0).blk t).view.emb (ix3 u r p)) = V c main_v0 (ix3 b r p)
  refine congrArg (V c main_v0) ?_
  obtain ⟨e0, e1, e2, -⟩ := idx1 t
  funext a; apply Fin.ext
  match a with
  | ⟨0, _⟩ => show win1_0.index t (0 : Fin 3) * 1 + 1 * u.val = b.val; have := u.isLt; omega
  | ⟨1, _⟩ => show win1_0.index t (1 : Fin 3) * 1024 + 1 * r.val = r.val; omega
  | ⟨2, _⟩ => show win1_0.index t (2 : Fin 3) * 256 + 1 * p.val = p.val; omega

/-- The key/value block at point t is rows 1024 * (t % 4) + k of batch entry t / 4 of H. -/
theorem blkH (c : Dev nD) (t : Fin cfg1.N) (b : Fin 8) (hb : b.val = t.val / 4) (l : Fin 4096) (u : Fin 1) (k : Fin 1024) (hl : l.val = 1024 * (t.val % 4) + k.val) (d : Fin 1024) :
    iblk1 V c 1 t (ix3 u k d) = V c main_arg0 (ix3 b l d) := by
  unfold iblk1
  show V c main_arg0 (((cfg1.win 1).blk t).view.emb (ix3 u k d)) = V c main_arg0 (ix3 b l d)
  refine congrArg (V c main_arg0) ?_
  obtain ⟨-, -, -, e0, e1, e2, -⟩ := idx1 t
  funext a; apply Fin.ext
  match a with
  | ⟨0, _⟩ => show win1_1.index t (0 : Fin 3) * 1 + 1 * u.val = b.val; have := u.isLt; omega
  | ⟨1, _⟩ => show win1_1.index t (1 : Fin 3) * 1024 + 1 * k.val = l.val; omega
  | ⟨2, _⟩ => show win1_1.index t (2 : Fin 3) * 1024 + 1 * d.val = d.val; omega

/-- The projection block is all of Wk at every point. -/
theorem blkW (c : Dev nD) (t : Fin cfg1.N) (p : Fin 256) (d : Fin 1024) :
    iblk1 V c 2 t (ix2 p d) = V c main_arg3 (ix2 p d) := by
  unfold iblk1
  show V c main_arg3 (((cfg1.win 2).blk t).view.emb (ix2 p d)) = V c main_arg3 (ix2 p d)
  refine congrArg (V c main_arg3) ?_
  obtain ⟨-, -, -, -, -, -, e0, e1, -⟩ := idx1 t
  funext a; apply Fin.ext
  match a with
  | ⟨0, _⟩ => show win1_2.index t (0 : Fin 2) * 256 + 1 * p.val = p.val; omega
  | ⟨1, _⟩ => show win1_2.index t (1 : Fin 2) * 1024 + 1 * d.val = d.val; omega

/-- The output block at point t sits at rows (t / 4, ·, ·) of the result. -/
theorem embO (t : Fin cfg1.N) (b : Fin 8) (hb : b.val = t.val / 4) (u : Fin 1) (r d : Fin 1024) :
    ((cfg1.win 3).blk t).view.emb (ix3 u r d) = ix3 b r d := by
  obtain ⟨-, -, -, -, -, -, -, -, e0, e1, e2⟩ := idx1 t
  funext a; apply Fin.ext
  match a with
  | ⟨0, _⟩ => show win1_3.index t (0 : Fin 3) * 1 + 1 * u.val = b.val; have := u.isLt; omega
  | ⟨1, _⟩ => show win1_3.index t (1 : Fin 3) * 1024 + 1 * r.val = r.val; omega
  | ⟨2, _⟩ => show win1_3.index t (2 : Fin 3) * 1024 + 1 * d.val = d.val; omega

/-- An index of the result is in point t's output block iff each coordinate is in the block's range. -/
theorem mem_blkO (t : Fin cfg1.N) (i : S8x1024x1024.Idx) :
    i ∈ ((cfg1.win 3).blk t).view.set ↔ ∀ a : Fin 3, win1_3.index t a * S1x1024x1024.size a ≤ (i a).val ∧ (i a).val < win1_3.index t a * S1x1024x1024.size a + S1x1024x1024.size a := by
  show i ∈ ((View.whole main_v1).slice (win1_3.rect t)).set ↔ _
  rw [View.set_slice_whole, Rect.mem_set_unit]
  exact Iff.rfl

/-- Every index of the result is in the block some tile-3 point writes back. -/
theorem coverO (i : S8x1024x1024.Idx) :
    ∃ t : Fin cfg1.N, (cfg1.win 3).flush t = true ∧ i ∈ ((cfg1.win 3).blk t).view.set := by
  have hi0 : (i 0).val < 8 := (i 0).isLt
  have hi1 : (i 1).val < 1024 := (i 1).isLt
  have hi2 : (i 2).val < 1024 := (i 2).isLt
  have hN : cfg1.N = 32 := N_1
  have hN' : grid1.N = 32 := N_1
  refine ⟨⟨4 * (i 0).val + 3, by omega⟩, (flush1_3 _).mpr (by show (4 * (i 0).val + 3) % 4 = 3; omega), ?_⟩
  rw [mem_blkO]
  obtain ⟨-, -, -, -, -, -, -, -, e0, e1, e2⟩ := idx1 ⟨4 * (i 0).val + 3, by omega⟩
  have e0' : win1_3.index ⟨4 * (i 0).val + 3, by omega⟩ (0 : Fin 3) = (4 * (i 0).val + 3) / 4 := e0
  intro a
  match a with
  | ⟨0, _⟩ => show win1_3.index _ (0 : Fin 3) * 1 ≤ (i 0).val ∧ (i 0).val < win1_3.index _ (0 : Fin 3) * 1 + 1; omega
  | ⟨1, _⟩ => show win1_3.index _ (1 : Fin 3) * 1024 ≤ (i 1).val ∧ (i 1).val < win1_3.index _ (1 : Fin 3) * 1024 + 1024; omega
  | ⟨2, _⟩ => show win1_3.index _ (2 : Fin 3) * 1024 ≤ (i 2).val ∧ (i 2).val < win1_3.index _ (2 : Fin 3) * 1024 + 1024; omega

end Blocks

end Cert.KernelIdeal.Hand

end
-- ==== Proof.LibSoftmaxTiles.lean ====
/-
  Softmax attention computed tile by tile, on the extended reals.

  One query row and one output coordinate are fixed. The keys arrive in tiles; a tile carries real
  scores and real values. A running state (m, l, a) is updated, for a tile with scores s, values v
  and ANY real offset μ, by

      α  = exp (m - μ),      p r = exp (s r - μ),
      l' = α * l + ∑ r, p r,      a' = α * a + ∑ r, p r * v r,      m' = μ,

  from l = 0, a = 0. After the tiles of a set T, the last one with offset μ,

      l = ∑ i ∈ T, ∑ r, exp (s i r - μ),      a = ∑ i ∈ T, ∑ r, exp (s i r - μ) * v i r,

  because exp (μ - μ') * exp (s - μ) = exp (s - μ'). The quotient a / l does not depend on μ: it is
  the softmax-weighted sum  ∑ k, (exp (S k - M) / ∑ k', exp (S k' - M)) * V k  for every real M.
  Every statement is an identity between extended-real expressions built from Ideal.exp, Ideal.div,
  +, * and finite sums, with all scores, values and offsets real.
-/
import Mathlib.Algebra.BigOperators.Fin
import Mathlib.Order.Interval.Finset.Fin
import Idealize.ShloMosaic.PureOps.Ideal
import Idealize.ShloMosaic.PureOps.Ideal.Laws

open scoped BigOperators
open Idealize.ShloMosaic

namespace Cert.Proof.SoftmaxTiles

/-! ## Coerced reals -/

/-- The coercion of a finite real sum is the sum of the coercions. -/
theorem coe_finset_sum {ι : Type*} (T : Finset ι) (f : ι → ℝ) :
    ((∑ i ∈ T, f i : ℝ) : EReal) = ∑ i ∈ T, (f i : EReal) := by
  induction T using Finset.cons_induction with
  | empty => simp
  | cons a T ha ih => rw [Finset.sum_cons, Finset.sum_cons, EReal.coe_add, ih]

/-- The maximum of two coerced reals is the coerced maximum. -/
theorem coe_max (a b : ℝ) : max (a : EReal) (b : EReal) = ((max a b : ℝ) : EReal) :=
  (EReal.coe_strictMono.monotone.map_max).symm

/-- The exponential of a difference of coerced reals. -/
theorem exp_coe_sub (x y : ℝ) :
    Ideal.exp ((x : EReal) - (y : EReal)) = ((Real.exp (x - y) : ℝ) : EReal) := by
  rw [← EReal.coe_sub, Ideal.exp_coe]

/-- The exponential of bottom minus anything is zero. -/
theorem exp_bot_sub (x : EReal) : Ideal.exp (⊥ - x) = 0 := by
  rw [EReal.bot_sub, Ideal.exp_bot]

/-- The quotient of coerced reals with a nonzero denominator is the coerced quotient. -/
theorem div_coe_coe (x : ℝ) {y : ℝ} (hy : y ≠ 0) :
    Ideal.div (x : EReal) (y : EReal) = ((x / y : ℝ) : EReal) := by
  rw [Ideal.div_coe hy, ← EReal.coe_mul, mul_one_div]

/-! ## The maximum of finitely many coerced reals -/

/-- From a real starting value, the fold of max over coerced reals is the coerced real fold. -/
theorem fold_max_coe {κ : Type*} (T : Finset κ) (b : ℝ) (f : κ → ℝ) :
    T.fold max (b : EReal) (fun r => (f r : EReal)) = ((T.fold max b f : ℝ) : EReal) := by
  induction T using Finset.cons_induction with
  | empty => simp
  | cons a T ha ih => rw [Finset.fold_cons, Finset.fold_cons, ih, coe_max]

/-- From bottom, the fold of max over a nonempty set of coerced reals is the coerced supremum. -/
theorem fold_max_bot_coe {κ : Type*} (T : Finset κ) (hT : T.Nonempty) (f : κ → ℝ) :
    T.fold max (⊥ : EReal) (fun r => (f r : EReal)) = ((T.sup' hT f : ℝ) : EReal) := by
  induction hT using Finset.Nonempty.cons_induction with
  | singleton a => rw [Finset.fold_singleton, Finset.sup'_singleton, max_bot_right]
  | cons a T ha hT ih => rw [Finset.fold_cons, ih, coe_max, Finset.sup'_cons hT]

/-- Over a nonempty finite type: the lane maximum from bottom is a coerced real. -/
theorem fold_max_bot_univ_coe {κ : Type*} [Fintype κ] [Nonempty κ] (f : κ → ℝ) :
    (Finset.univ : Finset κ).fold max (⊥ : EReal) (fun r => (f r : EReal))
      = ((Finset.univ.sup' Finset.univ_nonempty f : ℝ) : EReal) :=
  fold_max_bot_coe _ _ f

/-- The running maximum against bottom: max ⊥ of the lane maximum is the same coerced real. -/
theorem max_bot_fold_max_bot_univ_coe {κ : Type*} [Fintype κ] [Nonempty κ] (f : κ → ℝ) :
    max (⊥ : EReal) ((Finset.univ : Finset κ).fold max (⊥ : EReal) (fun r => (f r : EReal)))
      = ((Finset.univ.sup' Finset.univ_nonempty f : ℝ) : EReal) := by
  rw [fold_max_bot_univ_coe, max_bot_left]

/-- The running maximum against a real: max of a coerced real and the lane maximum. -/
theorem max_coe_fold_max_bot_univ_coe {κ : Type*} [Fintype κ] [Nonempty κ] (b : ℝ) (f : κ → ℝ) :
    max (b : EReal) ((Finset.univ : Finset κ).fold max (⊥ : EReal) (fun r => (f r : EReal)))
      = ((max b (Finset.univ.sup' Finset.univ_nonempty f) : ℝ) : EReal) := by
  rw [fold_max_bot_univ_coe, coe_max]

/-- The same lane maximum written as the fold of the float maximum operation at the extended reals
    (a reduction by maximum read as a fold over one axis has this form). -/
theorem fold_maximumf_bot_univ_coe {κ : Type*} [Fintype κ] [Nonempty κ] (φ : FTy) (f : κ → ℝ) :
    (Finset.univ : Finset κ).fold (FloatOps.maximumf (F := Ideal) (φ := φ)) (⊥ : EReal)
        (fun r => (f r : EReal))
      = ((Finset.univ.sup' Finset.univ_nonempty f : ℝ) : EReal) :=
  fold_max_bot_univ_coe f

/-- The f32 pattern of negative infinity denotes bottom. -/
theorem ofBits_f32_neg_inf : Ideal.ofBits .f32 0xFF800000#32 = ⊥ := by simp [Ideal.ofBits, Ideal.ieee]

/-- The f32 pattern of positive infinity denotes top. -/
theorem ofBits_f32_pos_inf : Ideal.ofBits .f32 0x7F800000#32 = ⊤ := by simp [Ideal.ofBits, Ideal.ieee]

/-- The supremum of a nonempty family of coerced reals is the coerced supremum. -/
theorem sup'_coe {κ : Type*} (T : Finset κ) (hT : T.Nonempty) (f : κ → ℝ) :
    T.sup' hT (fun r => (f r : EReal)) = ((T.sup' hT f : ℝ) : EReal) :=
  (Finset.comp_sup'_eq_sup'_comp hT (fun x : ℝ => (x : EReal)) fun x y => (coe_max x y).symm).symm

/-! ## The tile recurrence -/

section Tiles

variable {ι κ : Type*} [Fintype κ]

/-- One tile's update of the running state (m, l, a) to (m', l', a'), for a tile with real scores s,
    real values v and a real offset μ:  α = exp (m - μ),  p r = exp (s r - μ),
    l' = α * l + ∑ r, p r,  a' = α * a + ∑ r, p r * v r,  m' = μ. -/
structure TileStep (s v : κ → ℝ) (μ : ℝ) (m l a m' l' a' : EReal) : Prop where
  m_eq : m' = (μ : EReal)
  l_eq : l' = Ideal.exp (m - (μ : EReal)) * l + ∑ r, Ideal.exp ((s r : EReal) - (μ : EReal))
  a_eq : a' = Ideal.exp (m - (μ : EReal)) * a
            + ∑ r, Ideal.exp ((s r : EReal) - (μ : EReal)) * (v r : EReal)

/-- The state after the tiles of the set T, the last of them with offset μ: the closed form. -/
structure TileInv (s v : ι → κ → ℝ) (T : Finset ι) (μ : ℝ) (m l a : EReal) : Prop where
  m_eq : m = (μ : EReal)
  l_eq : l = ((∑ i ∈ T, ∑ r, Real.exp (s i r - μ) : ℝ) : EReal)
  a_eq : a = ((∑ i ∈ T, ∑ r, Real.exp (s i r - μ) * v i r : ℝ) : EReal)

/-- Changing the offset of a weighted sum of exponentials: the factor exp (μ - μ') moves every
    exp (s - μ) to exp (s - μ'). -/
theorem rescale_sum (s w : ι → κ → ℝ) (T : Finset ι) (μ μ' : ℝ) :
    Real.exp (μ - μ') * (∑ i ∈ T, ∑ r, Real.exp (s i r - μ) * w i r)
      = ∑ i ∈ T, ∑ r, Real.exp (s i r - μ') * w i r := by
  rw [Finset.mul_sum]
  refine Finset.sum_congr rfl fun i _ => ?_
  rw [Finset.mul_sum]
  refine Finset.sum_congr rfl fun r _ => ?_
  rw [← mul_assoc, ← Real.exp_add]
  congr 2
  ring

/-- The same without weights. -/
theorem rescale_sum_one (s : ι → κ → ℝ) (T : Finset ι) (μ μ' : ℝ) :
    Real.exp (μ - μ') * (∑ i ∈ T, ∑ r, Real.exp (s i r - μ))
      = ∑ i ∈ T, ∑ r, Real.exp (s i r - μ') := by
  simpa using rescale_sum s (fun _ _ => (1 : ℝ)) T μ μ'

/-- A tile's sum of exponentials is the coerced real sum. -/
theorem sum_exp_coe (s : κ → ℝ) (μ : ℝ) :
    (∑ r, Ideal.exp ((s r : EReal) - (μ : EReal))) = ((∑ r, Real.exp (s r - μ) : ℝ) : EReal) := by
  rw [coe_finset_sum]; exact Finset.sum_congr rfl fun r _ => exp_coe_sub _ _

/-- A tile's sum of exponentials times values is the coerced real sum. -/
theorem sum_exp_mul_coe (s v : κ → ℝ) (μ : ℝ) :
    (∑ r, Ideal.exp ((s r : EReal) - (μ : EReal)) * (v r : EReal))
      = ((∑ r, Real.exp (s r - μ) * v r : ℝ) : EReal) := by
  rw [coe_finset_sum]; exact Finset.sum_congr rfl fun r _ => by rw [exp_coe_sub, EReal.coe_mul]

/-- The first tile: from l = 0 and a = 0 (whatever m is), one step gives the closed form over
    that one tile. -/
theorem TileStep.first (s v : ι → κ → ℝ) (j : ι) (μ : ℝ) {m m' l' a' : EReal}
    (h : TileStep (s j) (v j) μ m 0 0 m' l' a') : TileInv s v {j} μ m' l' a' := by
  refine ⟨h.m_eq, ?_, ?_⟩
  · rw [h.l_eq, mul_zero, zero_add, Finset.sum_singleton, sum_exp_coe]
  · rw [h.a_eq, mul_zero, zero_add, Finset.sum_singleton, sum_exp_mul_coe]

/-- A further tile: from the closed form over T with offset μ, one step with a tile j outside T and
    offset μ' gives the closed form over T with j added, with offset μ'. -/
theorem TileStep.next [DecidableEq ι] (s v : ι → κ → ℝ) {T : Finset ι} {j : ι} (hj : j ∉ T)
    {μ μ' : ℝ} {m l a m' l' a' : EReal} (hT : TileInv s v T μ m l a)
    (h : TileStep (s j) (v j) μ' m l a m' l' a') : TileInv s v (insert j T) μ' m' l' a' := by
  refine ⟨h.m_eq, ?_, ?_⟩
  · rw [h.l_eq, hT.m_eq, hT.l_eq, exp_coe_sub, ← EReal.coe_mul, rescale_sum_one, sum_exp_coe,
      ← EReal.coe_add, Finset.sum_insert hj, add_comm]
  · rw [h.a_eq, hT.m_eq, hT.a_eq, exp_coe_sub, ← EReal.coe_mul, rescale_sum, sum_exp_mul_coe,
      ← EReal.coe_add, Finset.sum_insert hj, add_comm]

/-- The update as a function of the state (m, l, a). -/
noncomputable def tileStep (s v : κ → ℝ) (μ : ℝ) (st : EReal × EReal × EReal) : EReal × EReal × EReal :=
  ((μ : EReal),
   Ideal.exp (st.1 - (μ : EReal)) * st.2.1 + ∑ r, Ideal.exp ((s r : EReal) - (μ : EReal)),
   Ideal.exp (st.1 - (μ : EReal)) * st.2.2 + ∑ r, Ideal.exp ((s r : EReal) - (μ : EReal)) * (v r : EReal))

/-- The function is a step. -/
theorem tileStep_spec (s v : κ → ℝ) (μ : ℝ) (st : EReal × EReal × EReal) :
    TileStep s v μ st.1 st.2.1 st.2.2 (tileStep s v μ st).1 (tileStep s v μ st).2.1 (tileStep s v μ st).2.2 :=
  ⟨rfl, rfl, rfl⟩

/-- The state (m, l, a) reached after the first j of n tiles, each by a step; the start has l = 0 and
    a = 0 (in a kernel m starts at bottom; the law does not use its value). -/
inductive TileRun {n : ℕ} (s v : Fin n → κ → ℝ) (μ : Fin n → ℝ) : ℕ → EReal → EReal → EReal → Prop
  | zero (m : EReal) : TileRun s v μ 0 m 0 0
  | succ {j : ℕ} {m l a m' l' a' : EReal} (hj : j < n) :
      TileRun s v μ j m l a → TileStep (s ⟨j, hj⟩) (v ⟨j, hj⟩) (μ ⟨j, hj⟩) m l a m' l' a' →
      TileRun s v μ (j + 1) m' l' a'

/-- The tiles up to j, with tile j + 1 added, are the tiles up to j + 1. -/
theorem Iic_succ {n j : ℕ} (hj : j + 1 < n) :
    (Finset.Iic (⟨j + 1, hj⟩ : Fin n)) = insert ⟨j + 1, hj⟩ (Finset.Iic ⟨j, Nat.lt_of_succ_lt hj⟩) := by
  ext i
  simp only [Finset.mem_Iic, Finset.mem_insert, Fin.le_def, Fin.ext_iff]
  omega

/-- The closed form after j + 1 of n tiles: over the tiles i ≤ j, with tile j's offset. -/
theorem TileRun.closed {n : ℕ} {s v : Fin n → κ → ℝ} {μ : Fin n → ℝ} {j : ℕ} {m l a : EReal}
    (h : TileRun s v μ (j + 1) m l a) :
    ∃ hj : j < n, TileInv s v (Finset.Iic ⟨j, hj⟩) (μ ⟨j, hj⟩) m l a := by
  induction j generalizing m l a with
  | zero =>
    cases h with
    | succ hj h0 hs =>
      cases h0
      refine ⟨hj, ?_⟩
      have : Finset.Iic (⟨0, hj⟩ : Fin n) = {⟨0, hj⟩} := by
        ext i; simp only [Finset.mem_Iic, Finset.mem_singleton, Fin.le_def, Fin.ext_iff]; omega
      rw [this]
      exact TileStep.first s v _ _ hs
  | succ j ih =>
    cases h with
    | succ hj h0 hs =>
      obtain ⟨hj', hinv⟩ := ih h0
      refine ⟨hj, ?_⟩
      rw [Iic_succ hj]
      refine TileStep.next s v ?_ hinv hs
      simp only [Finset.mem_Iic, Fin.le_def]
      omega

/-- The closed form after all n ≥ 1 tiles: over every tile, with the last tile's offset. -/
theorem TileRun.closed_all {n : ℕ} {s v : Fin (n + 1) → κ → ℝ} {μ : Fin (n + 1) → ℝ} {m l a : EReal}
    (h : TileRun s v μ (n + 1) m l a) : TileInv s v Finset.univ (μ (Fin.last n)) m l a := by
  obtain ⟨hj, hinv⟩ := h.closed
  have : Finset.Iic (⟨n, hj⟩ : Fin (n + 1)) = Finset.univ := by
    ext i; simp only [Finset.mem_Iic, Finset.mem_univ, Fin.le_def, iff_true]; omega
  rw [this] at hinv
  exact hinv

/-- The state after the first j of n tiles as a function of j, from (⊥, 0, 0). -/
noncomputable def tileState {n : ℕ} (s v : Fin n → κ → ℝ) (μ : Fin n → ℝ) : ℕ → EReal × EReal × EReal
  | 0 => (⊥, 0, 0)
  | j + 1 => if hj : j < n then tileStep (s ⟨j, hj⟩) (v ⟨j, hj⟩) (μ ⟨j, hj⟩) (tileState s v μ j)
             else tileState s v μ j

/-- The iterated function is a run. -/
theorem tileState_run {n : ℕ} (s v : Fin n → κ → ℝ) (μ : Fin n → ℝ) (j : ℕ) (hj : j ≤ n) :
    TileRun s v μ j (tileState s v μ j).1 (tileState s v μ j).2.1 (tileState s v μ j).2.2 := by
  induction j with
  | zero => exact TileRun.zero _
  | succ j ih =>
    have hj' : j < n := hj
    rw [tileState, dif_pos hj']
    exact TileRun.succ hj' (ih hj'.le) (tileStep_spec _ _ _ _)

end Tiles

/-! ## The quotient -/

section Quotient

variable {K : Type*} [Fintype K]

/-- A weighted sum divided by the total weight is the sum of the normalised weights times the
    values, as extended reals: for real weights e with a nonzero total. -/
theorem div_weighted_sum (e v : K → ℝ) (hL : (∑ k, e k) ≠ 0) :
    Ideal.div ((∑ k, e k * v k : ℝ) : EReal) ((∑ k, e k : ℝ) : EReal)
      = ∑ k, Ideal.div (e k : EReal) ((∑ k, e k : ℝ) : EReal) * (v k : EReal) := by
  rw [div_coe_coe _ hL, Finset.sum_div, coe_finset_sum]
  refine Finset.sum_congr rfl fun k _ => ?_
  rw [div_coe_coe _ hL, ← EReal.coe_mul, mul_div_right_comm]

/-- Shift invariance of the softmax weights: exp (S k - M) over its total does not depend on M. -/
theorem softmax_shift (S : K → ℝ) (M M' : ℝ) (k : K) :
    Real.exp (S k - M) / ∑ k', Real.exp (S k' - M)
      = Real.exp (S k - M') / ∑ k', Real.exp (S k' - M') := by
  have h : ∀ k, Real.exp (S k - M) = Real.exp (M' - M) * Real.exp (S k - M') := fun k => by
    rw [← Real.exp_add]; congr 1; ring
  rw [h k, Finset.sum_congr rfl fun k' _ => h k', ← Finset.mul_sum,
    mul_div_mul_left _ _ (Real.exp_ne_zero _)]

/-- So the softmax-weighted sum of real values does not depend on the shift. -/
theorem softmax_sum_shift (S V : K → ℝ) (M M' : ℝ) :
    ∑ k, Real.exp (S k - M) / (∑ k', Real.exp (S k' - M)) * V k
      = ∑ k, Real.exp (S k - M') / (∑ k', Real.exp (S k' - M')) * V k :=
  Finset.sum_congr rfl fun k _ => by rw [softmax_shift S M M' k]

/-- The total of the exponentials over a nonempty key set is positive. -/
theorem sum_exp_pos [Nonempty K] (S : K → ℝ) (M : ℝ) : 0 < ∑ k, Real.exp (S k - M) :=
  Finset.sum_pos (fun _ _ => Real.exp_pos _) Finset.univ_nonempty

/-- The quotient of the two accumulated sums, taken with ANY offset μ, is the softmax-then-weighted
    sum with ANY shift M, written with the extended-real exponential and quotient. -/
theorem div_eq_softmax [Nonempty K] (S V : K → ℝ) (μ M : ℝ) :
    Ideal.div ((∑ k, Real.exp (S k - μ) * V k : ℝ) : EReal) ((∑ k, Real.exp (S k - μ) : ℝ) : EReal)
      = ∑ k, Ideal.div (Ideal.exp ((S k : EReal) - (M : EReal)))
            (∑ k', Ideal.exp ((S k' : EReal) - (M : EReal))) * (V k : EReal) := by
  rw [div_coe_coe _ (sum_exp_pos S μ).ne', Finset.sum_div, sum_exp_coe]
  have : ∀ k, Ideal.div (Ideal.exp ((S k : EReal) - (M : EReal))) ((∑ k', Real.exp (S k' - M) : ℝ) : EReal) * (V k : EReal)
      = ((Real.exp (S k - M) / (∑ k', Real.exp (S k' - M)) * V k : ℝ) : EReal) := fun k => by
    rw [exp_coe_sub, div_coe_coe _ (sum_exp_pos S M).ne', EReal.coe_mul]
  rw [Finset.sum_congr rfl fun k _ => this k, ← coe_finset_sum, ← softmax_sum_shift S V μ M]
  congr 1
  exact Finset.sum_congr rfl fun k _ => mul_div_right_comm _ _ _

end Quotient

/-! ## Tiles, then the quotient -/

section Final

variable {ι κ : Type*} [Fintype ι] [Fintype κ]

/-- After every tile, the quotient a / l of the running state is the softmax-then-weighted sum over
    all keys (tile, position), with any real shift M. -/
theorem TileInv.div_eq_softmax [Nonempty ι] [Nonempty κ] {s v : ι → κ → ℝ} {μ : ℝ} {m l a : EReal}
    (h : TileInv s v Finset.univ μ m l a) (M : ℝ) :
    Ideal.div a l
      = ∑ i, ∑ r, Ideal.div (Ideal.exp ((s i r : EReal) - (M : EReal)))
            (∑ i', ∑ r', Ideal.exp ((s i' r' : EReal) - (M : EReal))) * (v i r : EReal) := by
  have := SoftmaxTiles.div_eq_softmax (K := ι × κ) (fun p => s p.1 p.2) (fun p => v p.1 p.2) μ M
  simp only [Fintype.sum_prod_type] at this
  rw [h.l_eq, h.a_eq]
  exact this

/-- The same with the keys named by any finite type K through a bijection from (tile, position):
    the sum over all keys of the reference's weights times values. -/
theorem TileInv.div_eq_softmax_keys [Nonempty ι] [Nonempty κ] {K : Type*} [Fintype K] (e : ι × κ ≃ K)
    {s v : ι → κ → ℝ} (S V : K → ℝ) (hs : ∀ i r, s i r = S (e (i, r))) (hv : ∀ i r, v i r = V (e (i, r)))
    {μ : ℝ} {m l a : EReal} (h : TileInv s v Finset.univ μ m l a) (M : ℝ) :
    Ideal.div a l
      = ∑ k, Ideal.div (Ideal.exp ((S k : EReal) - (M : EReal)))
            (∑ k', Ideal.exp ((S k' : EReal) - (M : EReal))) * (V k : EReal) := by
  haveI : Nonempty K := ⟨e (Classical.arbitrary _)⟩
  have hl : l = ((∑ k, Real.exp (S k - μ) : ℝ) : EReal) := by
    rw [h.l_eq, ← Fintype.sum_prod_type' (fun i r => Real.exp (s i r - μ)), ← Equiv.sum_comp e]
    congr 1
    exact Finset.sum_congr rfl fun p _ => by rw [hs]
  have ha : a = ((∑ k, Real.exp (S k - μ) * V k : ℝ) : EReal) := by
    rw [h.a_eq, ← Fintype.sum_prod_type' (fun i r => Real.exp (s i r - μ) * v i r), ← Equiv.sum_comp e]
    congr 1
    exact Finset.sum_congr rfl fun p _ => by rw [hs, hv]
  rw [hl, ha]
  exact SoftmaxTiles.div_eq_softmax S V μ M

/-- A run over all n + 1 tiles ends in a state whose quotient is the softmax-then-weighted sum over
    (tile, position), with any real shift M. -/
theorem TileRun.div_eq_softmax [Nonempty κ] {n : ℕ} {s v : Fin (n + 1) → κ → ℝ} {μ : Fin (n + 1) → ℝ}
    {m l a : EReal} (h : TileRun s v μ (n + 1) m l a) (M : ℝ) :
    Ideal.div a l
      = ∑ i, ∑ r, Ideal.div (Ideal.exp ((s i r : EReal) - (M : EReal)))
            (∑ i', ∑ r', Ideal.exp ((s i' r' : EReal) - (M : EReal))) * (v i r : EReal) :=
  h.closed_all.div_eq_softmax M

/-- The same over keys named by K. -/
theorem TileRun.div_eq_softmax_keys [Nonempty κ] {n : ℕ} {K : Type*} [Fintype K] (e : Fin (n + 1) × κ ≃ K)
    {s v : Fin (n + 1) → κ → ℝ} (S V : K → ℝ) (hs : ∀ i r, s i r = S (e (i, r)))
    (hv : ∀ i r, v i r = V (e (i, r))) {μ : Fin (n + 1) → ℝ} {m l a : EReal}
    (h : TileRun s v μ (n + 1) m l a) (M : ℝ) :
    Ideal.div a l
      = ∑ k, Ideal.div (Ideal.exp ((S k : EReal) - (M : EReal)))
            (∑ k', Ideal.exp ((S k' : EReal) - (M : EReal))) * (V k : EReal) :=
  h.closed_all.div_eq_softmax_keys e S V hs hv M

end Final

end Cert.Proof.SoftmaxTiles
-- ==== Proof.AttnLaw.lean ====
/-
  The law that joins the streaming kernel to the one-pass reference, for one query row and one output coordinate.

  The keys come in four tiles of 1024. The kernel keeps (m, l, a) and, for a tile with scores sc and values vv,
  replaces them by
      m' = max m (max over k of sc k),   l' = exp (m - m') * l + sum over k of exp (sc k - m'),
      a' = exp (m - m') * a + sum over k of exp (sc k - m') * vv k,
  starting from (-inf, 0, 0). When every score and value is a real number this is the tile recurrence with the
  running maximum as offset, so after the four tiles
      l = sum over all 4096 keys of exp (S - M),   a = sum over all keys of exp (S - M) * V,
  M the largest score: exactly the reference's denominator and numerator. Also here: the kernel scales the
  projected queries before the product with the keys and the reference scales the product; over the reals
  these agree, the scale moving across a finite sum.
-/
import proofs.«145177_j79886391705810_2_alg».proof.Proof.LibSoftmaxTiles
import Mathlib.Algebra.BigOperators.Fin
import Mathlib.Logic.Equiv.Fin.Basic

open scoped BigOperators
open Idealize.ShloMosaic

noncomputable section

namespace Cert.AttnLaw

open Cert.Proof.SoftmaxTiles

section Step

variable {κ : Type*} [Fintype κ]

/-- One tile's update as the kernel computes it, on the extended reals. -/
def step (sc vv : κ → EReal) (st : EReal × EReal × EReal) : EReal × EReal × EReal :=
  (max st.1 ((Finset.univ : Finset κ).fold max (⊥ : EReal) sc),
   Ideal.exp (st.1 - max st.1 ((Finset.univ : Finset κ).fold max (⊥ : EReal) sc)) * st.2.1
     + ∑ k, Ideal.exp (sc k - max st.1 ((Finset.univ : Finset κ).fold max (⊥ : EReal) sc)),
   Ideal.exp (st.1 - max st.1 ((Finset.univ : Finset κ).fold max (⊥ : EReal) sc)) * st.2.2
     + ∑ k, Ideal.exp (sc k - max st.1 ((Finset.univ : Finset κ).fold max (⊥ : EReal) sc)) * vv k)

variable [Nonempty κ]

/-- From a running maximum of -inf, with real scores and values: the tile recurrence at offset the tile's maximum. -/
theorem step_bot (s v : κ → ℝ) (l a : EReal) :
    step (fun k => (s k : EReal)) (fun k => (v k : EReal)) (⊥, l, a)
      = tileStep s v (Finset.univ.sup' Finset.univ_nonempty s) (⊥, l, a) := by
  unfold step tileStep
  simp only [max_bot_fold_max_bot_univ_coe]

/-- From a real running maximum μ: the tile recurrence at offset max μ (the tile's maximum). -/
theorem step_coe (s v : κ → ℝ) (μ : ℝ) (l a : EReal) :
    step (fun k => (s k : EReal)) (fun k => (v k : EReal)) ((μ : EReal), l, a)
      = tileStep s v (max μ (Finset.univ.sup' Finset.univ_nonempty s)) ((μ : EReal), l, a) := by
  unfold step tileStep
  simp only [max_coe_fold_max_bot_univ_coe]

/-- The four offsets: the running maxima. -/
def offs (s : Fin 4 → κ → ℝ) : Fin 4 → ℝ
  | ⟨0, _⟩ => Finset.univ.sup' Finset.univ_nonempty (s 0)
  | ⟨1, _⟩ => max (Finset.univ.sup' Finset.univ_nonempty (s 0)) (Finset.univ.sup' Finset.univ_nonempty (s 1))
  | ⟨2, _⟩ => max (max (Finset.univ.sup' Finset.univ_nonempty (s 0)) (Finset.univ.sup' Finset.univ_nonempty (s 1))) (Finset.univ.sup' Finset.univ_nonempty (s 2))
  | ⟨3, _⟩ => max (max (max (Finset.univ.sup' Finset.univ_nonempty (s 0)) (Finset.univ.sup' Finset.univ_nonempty (s 1))) (Finset.univ.sup' Finset.univ_nonempty (s 2))) (Finset.univ.sup' Finset.univ_nonempty (s 3))
  | ⟨_ + 4, h⟩ => absurd h (by omega)

/-- Four kernel steps from (-inf, 0, 0) over real tiles: the closed form over all four tiles at the last offset. -/
theorem four_steps (s v : Fin 4 → κ → ℝ) :
    let st := step (fun k => (s 3 k : EReal)) (fun k => (v 3 k : EReal))
      (step (fun k => (s 2 k : EReal)) (fun k => (v 2 k : EReal))
        (step (fun k => (s 1 k : EReal)) (fun k => (v 1 k : EReal))
          (step (fun k => (s 0 k : EReal)) (fun k => (v 0 k : EReal)) (⊥, 0, 0))))
    TileInv s v Finset.univ (offs s 3) st.1 st.2.1 st.2.2 := by
  intro st
  have r0 : TileRun s v (offs s) 0 ⊥ 0 0 := TileRun.zero _
  have e0 : step (fun k => (s 0 k : EReal)) (fun k => (v 0 k : EReal)) (⊥, 0, 0)
      = tileStep (s 0) (v 0) (offs s 0) (⊥, 0, 0) := step_bot (s 0) (v 0) 0 0
  have r1 := TileRun.succ (j := 0) (by norm_num : 0 < 4) r0 (tileStep_spec (s ⟨0, by norm_num⟩) (v ⟨0, by norm_num⟩) (offs s ⟨0, by norm_num⟩) (⊥, 0, 0))
  have e1 : step (fun k => (s 1 k : EReal)) (fun k => (v 1 k : EReal)) (tileStep (s 0) (v 0) (offs s 0) (⊥, 0, 0))
      = tileStep (s 1) (v 1) (offs s 1) (tileStep (s 0) (v 0) (offs s 0) (⊥, 0, 0)) :=
    step_coe (s 1) (v 1) (offs s 0) _ _
  have r2 := TileRun.succ (j := 1) (by norm_num : 1 < 4) r1 (tileStep_spec (s ⟨1, by norm_num⟩) (v ⟨1, by norm_num⟩) (offs s ⟨1, by norm_num⟩) _)
  have e2 : step (fun k => (s 2 k : EReal)) (fun k => (v 2 k : EReal)) (tileStep (s 1) (v 1) (offs s 1) (tileStep (s 0) (v 0) (offs s 0) (⊥, 0, 0)))
      = tileStep (s 2) (v 2) (offs s 2) (tileStep (s 1) (v 1) (offs s 1) (tileStep (s 0) (v 0) (offs s 0) (⊥, 0, 0))) :=
    step_coe (s 2) (v 2) (offs s 1) _ _
  have r3 := TileRun.succ (j := 2) (by norm_num : 2 < 4) r2 (tileStep_spec (s ⟨2, by norm_num⟩) (v ⟨2, by norm_num⟩) (offs s ⟨2, by norm_num⟩) _)
  have e3 : step (fun k => (s 3 k : EReal)) (fun k => (v 3 k : EReal)) (tileStep (s 2) (v 2) (offs s 2) (tileStep (s 1) (v 1) (offs s 1) (tileStep (s 0) (v 0) (offs s 0) (⊥, 0, 0))))
      = tileStep (s 3) (v 3) (offs s 3) (tileStep (s 2) (v 2) (offs s 2) (tileStep (s 1) (v 1) (offs s 1) (tileStep (s 0) (v 0) (offs s 0) (⊥, 0, 0)))) :=
    step_coe (s 3) (v 3) (offs s 2) _ _
  have r4 := TileRun.succ (j := 3) (by norm_num : 3 < 4) r3 (tileStep_spec (s ⟨3, by norm_num⟩) (v ⟨3, by norm_num⟩) (offs s ⟨3, by norm_num⟩) _)
  have hst : st = tileStep (s 3) (v 3) (offs s 3) (tileStep (s 2) (v 2) (offs s 2) (tileStep (s 1) (v 1) (offs s 1) (tileStep (s 0) (v 0) (offs s 0) (⊥, 0, 0)))) := by
    show step _ _ (step _ _ (step _ _ (step _ _ (⊥, 0, 0)))) = _
    rw [e0, e1, e2, e3]
  rw [hst]
  exact TileRun.closed_all (n := 3) r4

end Step

/-! ## Four tiles of 1024 are the 4096 keys -/

section Keys

/-- Key number 1024 * i + k is position k of tile i. -/
def key (i : Fin 4) (k : Fin 1024) : Fin 4096 := ⟨1024 * i.val + k.val, by have := i.isLt; have := k.isLt; omega⟩

/-- (tile, position) ↔ key. -/
def keyEquiv : Fin 4 × Fin 1024 ≃ Fin 4096 where
  toFun p := key p.1 p.2
  invFun l := (⟨l.val / 1024, by have := l.isLt; omega⟩, ⟨l.val % 1024, Nat.mod_lt _ (by norm_num)⟩)
  left_inv p := by
    obtain ⟨i, k⟩ := p
    have hi := i.isLt; have hk := k.isLt
    refine Prod.ext (Fin.ext ?_) (Fin.ext ?_)
    · show (1024 * i.val + k.val) / 1024 = i.val; omega
    · show (1024 * i.val + k.val) % 1024 = k.val; omega
  right_inv l := by
    apply Fin.ext
    show 1024 * (l.val / 1024) + l.val % 1024 = l.val
    omega

variable (S V : Fin 4096 → ℝ)

/-- The last running maximum is the largest of all 4096 scores. -/
theorem offs_last : offs (fun i k => S (key i k)) 3 = Finset.univ.sup' Finset.univ_nonempty S := by
  show max (max (max (Finset.univ.sup' Finset.univ_nonempty fun k => S (key 0 k)) (Finset.univ.sup' Finset.univ_nonempty fun k => S (key 1 k)))
      (Finset.univ.sup' Finset.univ_nonempty fun k => S (key 2 k))) (Finset.univ.sup' Finset.univ_nonempty fun k => S (key 3 k)) = _
  apply le_antisymm
  · refine max_le (max_le (max_le ?_ ?_) ?_) ?_ <;>
      exact Finset.sup'_le _ _ fun k _ => Finset.le_sup' S (Finset.mem_univ _)
  · refine Finset.sup'_le _ _ fun l _ => ?_
    have hl : l = key (keyEquiv.symm l).1 (keyEquiv.symm l).2 := (keyEquiv.apply_symm_apply l).symm
    rw [hl]
    generalize (keyEquiv.symm l).2 = k
    generalize (keyEquiv.symm l).1 = i
    fin_cases i
    · exact le_max_of_le_left (le_max_of_le_left (le_max_of_le_left (Finset.le_sup' (fun k => S (key 0 k)) (Finset.mem_univ k))))
    · exact le_max_of_le_left (le_max_of_le_left (le_max_of_le_right (Finset.le_sup' (fun k => S (key 1 k)) (Finset.mem_univ k))))
    · exact le_max_of_le_left (le_max_of_le_right (Finset.le_sup' (fun k => S (key 2 k)) (Finset.mem_univ k)))
    · exact le_max_of_le_right (Finset.le_sup' (fun k => S (key 3 k)) (Finset.mem_univ k))

/-- Four kernel steps over the tiles of real scores S and values V end with the reference's denominator and
    numerator: sums over all keys of exp (S - M) and exp (S - M) * V, M the largest score. -/
theorem four_tiles :
    let st := step (fun k => (S (key 3 k) : EReal)) (fun k => (V (key 3 k) : EReal))
      (step (fun k => (S (key 2 k) : EReal)) (fun k => (V (key 2 k) : EReal))
        (step (fun k => (S (key 1 k) : EReal)) (fun k => (V (key 1 k) : EReal))
          (step (fun k => (S (key 0 k) : EReal)) (fun k => (V (key 0 k) : EReal)) (⊥, 0, 0))))
    st.2.1 = ((∑ l, Real.exp (S l - Finset.univ.sup' Finset.univ_nonempty S) : ℝ) : EReal)
      ∧ st.2.2 = ((∑ l, Real.exp (S l - Finset.univ.sup' Finset.univ_nonempty S) * V l : ℝ) : EReal) := by
  intro st
  have h := four_steps (fun i k => S (key i k)) (fun i k => V (key i k))
  rw [offs_last] at h
  refine ⟨h.l_eq.trans ?_, h.a_eq.trans ?_⟩
  · congr 1
    rw [← Fintype.sum_prod_type' (fun i k => Real.exp (S (key i k) - Finset.univ.sup' Finset.univ_nonempty S))]
    exact Equiv.sum_comp keyEquiv (fun l => Real.exp (S l - Finset.univ.sup' Finset.univ_nonempty S))
  · congr 1
    rw [← Fintype.sum_prod_type' (fun i k => Real.exp (S (key i k) - Finset.univ.sup' Finset.univ_nonempty S) * V (key i k))]
    exact Equiv.sum_comp keyEquiv (fun l => Real.exp (S l - Finset.univ.sup' Finset.univ_nonempty S) * V l)

end Keys

/-! ## Where the scale sits -/

/-- Scaling each projected query before the product with the keys is scaling the product. -/
theorem scale_across_sum {π : Type*} [Fintype π] (a b : π → ℝ) (c : ℝ) :
    ∑ p, (a p * c) * b p = (∑ p, a p * b p) * c := by
  rw [Finset.sum_mul]
  exact Finset.sum_congr rfl fun p _ => by ring

end Cert.AttnLaw

end
-- ==== Proof.AttnValue.lean ====
/-
  Region 1's result as one function of the arrays it finds, when those arrays hold real numbers. For one batch
  entry b, query row r and output coordinate d, the three running buffers read at (r, d) pass through the four
  key tiles by the kernel's step; by the tile law they end at the one-pass denominator and numerator over all
  4096 keys, and the output block written back at tile 3 is their quotient with the guard constant added to the
  denominator.
-/
import proofs.«145177_j79886391705810_2_alg».proof.Proof.AttnPieces
import proofs.«145177_j79886391705810_2_alg».proof.Proof.AttnRead
import proofs.«145177_j79886391705810_2_alg».proof.Proof.AttnBlocks
import proofs.«145177_j79886391705810_2_alg».proof.Proof.AttnLaw

set_option maxRecDepth 16384

noncomputable section

namespace Cert.KernelIdeal.Hand

open Idealize.ShloMosaic Idealize.ShloMosaic.TcCoe Idealize.ShloMosaic.ValueIdx
open Idealize.ShloMosaic.Pipeline (Dat Cfg Window)
open Cert.KernelIdeal Cert.KernelIdeal.Gen Cert.AttnLaw Cert.Proof.SoftmaxTiles

section Value

/-- The running state of one query row and one output coordinate. -/
def rd (p : Scr Ideal) (r d : Fin 1024) : EReal × EReal × EReal :=
  (p.1 (ix2 r (0 : Fin 1)), p.2.1 (ix2 r (0 : Fin 1)), p.2.2 (ix2 r d))

theorem rd_init (r d : Fin 1024) : rd (init (F := Ideal)) r d = (⊥, 0, 0) := by
  unfold rd init
  dsimp only
  rw [pay4_apply, pay5_apply, pay6_apply, ofBits_f32_neg_inf, Ideal.ofBits_zero_f32]

theorem rd_upd (q : Vec Ideal S1x1024x256 .bf16) (h : Vec Ideal S1x1024x1024 .f32) (w : Vec Ideal S256x1024 .f32) (p : Scr Ideal) (r d : Fin 1024) :
    rd (upd q h w p) r d = step (fun k => score q h w r k) (fun k => h (ix3 (0 : Fin 1) k d)) (rd p r d) := by
  unfold rd upd step
  dsimp only
  rw [pay2_eq, pay9_apply, pay12_apply, pay1_apply', pay10_apply, pay13_apply]
  unfold rowMax
  rw [ofBits_f32_neg_inf]

end Value

section Real

variable (V : (c : Dev nD) → (b : Ref sig .tc) → Buf (Elt Ideal) ((c : Thread nD τ).loc b)) (c : Dev nD)
variable (qS : Fin 8 → Fin 1024 → Fin 256 → ℝ) (hR : Fin 8 → Fin 4096 → Fin 1024 → ℝ) (wR : Fin 256 → Fin 1024 → ℝ)

/-- The score of query row t of batch entry b against key l, as a real: the pre-scaled projected query against the
    projected key. -/
def xs (b : Fin 8) (t : Fin 1024) (l : Fin 4096) : ℝ := ∑ p : Fin 256, qS b t p * ∑ d : Fin 1024, hR b l d * wR p d
/-- The largest score of a row. -/
def xmax (b : Fin 8) (t : Fin 1024) : ℝ := Finset.univ.sup' Finset.univ_nonempty (xs qS hR wR b t)
/-- The one-pass denominator and numerator. -/
def den (b : Fin 8) (t : Fin 1024) : ℝ := ∑ l : Fin 4096, Real.exp (xs qS hR wR b t l - xmax qS hR wR b t)
def num (b : Fin 8) (t : Fin 1024) (d : Fin 1024) : ℝ := ∑ l : Fin 4096, Real.exp (xs qS hR wR b t l - xmax qS hR wR b t) * hR b l d
/-- The result array. -/
def Gout : FVec Ideal S8x1024x1024 .f32 :=
  fun i => Ideal.div ((num qS hR wR (i 0) (i 1) (i 2) : ℝ) : EReal) (((den qS hR wR (i 0) (i 1) : ℝ) : EReal) + Ideal.ofBits .f32 0x322BCC77#32)

variable (hQ : ∀ b t p, (V c main_v0 : FVec Ideal S8x1024x256 .bf16) (ix3 b t p) = ((qS b t p : ℝ) : EReal))
  (hH : ∀ b l d, (V c main_arg0 : FVec Ideal S8x4096x1024 .f32) (ix3 b l d) = ((hR b l d : ℝ) : EReal))
  (hW : ∀ p d, (V c main_arg3 : FVec Ideal S256x1024 .f32) (ix2 p d) = ((wR p d : ℝ) : EReal))

include hQ hH hW in
/-- At point t (batch entry b, tile j) the tile's scores are the real scores of keys 1024 * j + k. -/
theorem score_real (t : Fin cfg1.N) (b : Fin 8) (hb : b.val = t.val / 4) (j : Fin 4) (hj : j.val = t.val % 4) (r k : Fin 1024) :
    score (iblk1 V c 0 t) (iblk1 V c 1 t) (iblk1 V c 2 t) r k = ((xs qS hR wR b r (key j k) : ℝ) : EReal) := by
  unfold score kproj xs
  rw [coe_finset_sum]
  refine Finset.sum_congr rfl fun p _ => ?_
  rw [blkQ V c t b hb 0 r p, hQ, EReal.coe_mul, coe_finset_sum]
  refine congrArg (fun x => ((qS b r p : ℝ) : EReal) * x) ?_
  refine Finset.sum_congr rfl fun d _ => ?_
  rw [blkH V c t b hb (key j k) 0 k (by show 1024 * j.val + k.val = _; omega) d, hH, blkW, hW, EReal.coe_mul]

include hH in
theorem value_real (t : Fin cfg1.N) (b : Fin 8) (hb : b.val = t.val / 4) (j : Fin 4) (hj : j.val = t.val % 4) (k d : Fin 1024) :
    iblk1 V c 1 t (ix3 (0 : Fin 1) k d) = ((hR b (key j k) d : ℝ) : EReal) := by
  rw [blkH V c t b hb (key j k) 0 k (by show 1024 * j.val + k.val = _; omega) d, hH]

/-! ## Through the four tiles -/

theorem rd_first (n : ℕ) (hn : n < cfg1.N) (h0 : n % 4 = 0) (r d : Fin 1024) :
    rd (scrAt V c n hn) r d
      = step (fun k => score (iblk1 V c 0 ⟨n, hn⟩) (iblk1 V c 1 ⟨n, hn⟩) (iblk1 V c 2 ⟨n, hn⟩) r k)
          (fun k => iblk1 V c 1 ⟨n, hn⟩ (ix3 (0 : Fin 1) k d)) (⊥, 0, 0) := by
  rw [show scrAt V c n hn = stepA V c ⟨n, hn⟩ h0 from scrAt_A V c ⟨n, hn⟩ h0, stepA_eq, rd_upd, rd_init]

theorem rd_next (n : ℕ) (hn : n + 1 < cfg1.N) (h0 : ¬(n + 1) % 4 = 0) (r d : Fin 1024) :
    rd (scrAt V c (n + 1) hn) r d
      = step (fun k => score (iblk1 V c 0 ⟨n + 1, hn⟩) (iblk1 V c 1 ⟨n + 1, hn⟩) (iblk1 V c 2 ⟨n + 1, hn⟩) r k)
          (fun k => iblk1 V c 1 ⟨n + 1, hn⟩ (ix3 (0 : Fin 1) k d)) (rd (scrAt V c n (Nat.lt_of_succ_lt hn)) r d) := by
  by_cases h1 : (n + 1) % 4 = 3
  · rw [show scrAt V c (n + 1) hn = stepC V c ⟨n + 1, hn⟩ h1 (scrAt V c n (Nat.lt_of_succ_lt hn)) from (dif_neg h0).trans (dif_pos h1),
      stepC_eq, rd_upd]
  · rw [show scrAt V c (n + 1) hn = stepB V c ⟨n + 1, hn⟩ h0 h1 (scrAt V c n (Nat.lt_of_succ_lt hn)) from (dif_neg h0).trans (dif_neg h1),
      stepB_eq, rd_upd]

include hQ hH hW in
/-- After tile 3 of batch entry b the denominators and the accumulator hold the one-pass sums. -/
theorem state_last (b : Fin 8) (hn : 4 * b.val + 1 + 1 + 1 < cfg1.N) (r d : Fin 1024) :
    (rd (scrAt V c (4 * b.val + 1 + 1 + 1) hn) r d).2.1 = ((den qS hR wR b r : ℝ) : EReal)
      ∧ (rd (scrAt V c (4 * b.val + 1 + 1 + 1) hn) r d).2.2 = ((num qS hR wR b r d : ℝ) : EReal) := by
  have hb := b.isLt
  have l2 : 4 * b.val + 1 + 1 < cfg1.N := Nat.lt_of_succ_lt hn
  have l1 : 4 * b.val + 1 < cfg1.N := Nat.lt_of_succ_lt l2
  have l0 : 4 * b.val < cfg1.N := Nat.lt_of_succ_lt l1
  rw [rd_next V c (4 * b.val + 1 + 1) hn (by omega) r d, rd_next V c (4 * b.val + 1) l2 (by omega) r d,
    rd_next V c (4 * b.val) l1 (by omega) r d, rd_first V c (4 * b.val) l0 (by omega) r d]
  rw [funext fun k => score_real V c qS hR wR hQ hH hW ⟨4 * b.val + 1 + 1 + 1, hn⟩ b (by show b.val = (4 * b.val + 1 + 1 + 1) / 4; omega) 3 (by show 3 = (4 * b.val + 1 + 1 + 1) % 4; omega) r k,
    funext fun k => score_real V c qS hR wR hQ hH hW ⟨4 * b.val + 1 + 1, l2⟩ b (by show b.val = (4 * b.val + 1 + 1) / 4; omega) 2 (by show 2 = (4 * b.val + 1 + 1) % 4; omega) r k,
    funext fun k => score_real V c qS hR wR hQ hH hW ⟨4 * b.val + 1, l1⟩ b (by show b.val = (4 * b.val + 1) / 4; omega) 1 (by show 1 = (4 * b.val + 1) % 4; omega) r k,
    funext fun k => score_real V c qS hR wR hQ hH hW ⟨4 * b.val, l0⟩ b (by show b.val = (4 * b.val) / 4; omega) 0 (by show 0 = (4 * b.val) % 4; omega) r k,
    funext fun k => value_real V c hR hH ⟨4 * b.val + 1 + 1 + 1, hn⟩ b (by show b.val = (4 * b.val + 1 + 1 + 1) / 4; omega) 3 (by show 3 = (4 * b.val + 1 + 1 + 1) % 4; omega) k d,
    funext fun k => value_real V c hR hH ⟨4 * b.val + 1 + 1, l2⟩ b (by show b.val = (4 * b.val + 1 + 1) / 4; omega) 2 (by show 2 = (4 * b.val + 1 + 1) % 4; omega) k d,
    funext fun k => value_real V c hR hH ⟨4 * b.val + 1, l1⟩ b (by show b.val = (4 * b.val + 1) / 4; omega) 1 (by show 1 = (4 * b.val + 1) % 4; omega) k d,
    funext fun k => value_real V c hR hH ⟨4 * b.val, l0⟩ b (by show b.val = (4 * b.val) / 4; omega) 0 (by show 0 = (4 * b.val) % 4; omega) k d]
  unfold den num xmax
  exact four_tiles (xs qS hR wR b r) (fun l => hR b l d)

include hQ hH hW in
/-- The output block of batch entry b, element (r, d): the numerator over the denominator plus the guard. -/
theorem out_value (b : Fin 8) (hn : 4 * b.val + 1 + 1 + 1 < cfg1.N) (u : Fin 1) (r d : Fin 1024) :
    outAt V c (4 * b.val + 1 + 1 + 1) hn (ix3 u r d)
      = Ideal.div ((num qS hR wR b r d : ℝ) : EReal) (((den qS hR wR b r : ℝ) : EReal) + Ideal.ofBits .f32 0x322BCC77#32) := by
  have hb := b.isLt
  have h1 : (4 * b.val + 1 + 1 + 1) % 4 = 3 := by omega
  have h0 : ¬(4 * b.val + 1 + 1 + 1) % 4 = 0 := by omega
  have eu : scrAt V c (4 * b.val + 1 + 1 + 1) hn
      = upd (iblk1 V c 0 ⟨4 * b.val + 1 + 1 + 1, hn⟩) (iblk1 V c 1 ⟨4 * b.val + 1 + 1 + 1, hn⟩) (iblk1 V c 2 ⟨4 * b.val + 1 + 1 + 1, hn⟩)
          (scrAt V c (4 * b.val + 1 + 1) (Nat.lt_of_succ_lt hn)) :=
    ((dif_neg h0).trans (dif_pos h1)).trans (stepC_eq V c ⟨4 * b.val + 1 + 1 + 1, hn⟩ h1 _)
  obtain ⟨hl, ha⟩ := state_last V c qS hR wR hQ hH hW b hn r d
  rw [eu] at hl ha
  unfold rd at hl ha
  dsimp only at hl ha
  rw [show outAt V c (4 * b.val + 1 + 1 + 1) hn = outC V c ⟨4 * b.val + 1 + 1 + 1, hn⟩ h1 (scrAt V c (4 * b.val + 1 + 1) (Nat.lt_of_succ_lt hn)) from dif_pos h1,
    outC_eq, pay3_apply, ha, hl]

theorem outAt_congr {n n' : ℕ} (e : n = n') (hn : n < cfg1.N) : outAt V c n hn = outAt V c n' (e ▸ hn) := by
  subst e; rfl

include hQ hH hW in
/-- What a tile-3 point writes back is its block of the result. -/
theorem flushedO_eq (t : Fin cfg1.N) (hf : (cfg1.win 3).flush t = true) :
    (dat1 V c).flushed 3 t = ((cfg1.win 3).blk t).view.read (Elt Ideal) (Gout qS hR wR) := by
  have h3 : t.val % 4 = 3 := (flush1_3 t).mp hf
  have hN : grid1.N = 32 := N_1
  have hN' : cfg1.N = 32 := N_1
  show (cfg1.win 3).cut (grid1.coords t) ((dat1 V c).after 3 t) = _
  rw [after1_3]
  funext j
  obtain ⟨u, r, d, rfl⟩ : ∃ (u : Fin 1) (r d : Fin 1024), j = ix3 u r d := ⟨j 0, j 1, j 2, eq_ix3 j⟩
  have ht := t.isLt
  have hbv : t.val / 4 < 8 := by omega
  have etv : t.val = 4 * (⟨t.val / 4, hbv⟩ : Fin 8).val + 1 + 1 + 1 := by show t.val = 4 * (t.val / 4) + 1 + 1 + 1; omega
  show outAt V c t.val t.isLt (ix3 u r d) = Gout qS hR wR (((cfg1.win 3).blk t).view.emb (ix3 u r d))
  rw [outAt_congr V c etv t.isLt, out_value V c qS hR wR hQ hH hW ⟨t.val / 4, hbv⟩ _ u r d, embO t ⟨t.val / 4, hbv⟩ rfl u r d]
  rfl

include hQ hH hW in
/-- The result array after region 1's run. -/
theorem finalO : (dat1 V c).arrAt 3 cfg1.N = Gout qS hR wR :=
  (dat1 V c).arrAt_eq_of_cover 3 (Gout qS hR wR) (fun t hf => flushedO_eq V c qS hR wR hQ hH hW t hf) coverO

end Real

end Cert.KernelIdeal.Hand

end
-- ==== Proof.RefSpec.lean ====
import Idealize.ShloMosaic.PureOps.Ideal
import Idealize.ShloMosaic.PureOps.Ideal.Laws
import Idealize.ShloMosaic.Lib.ValueIdx

/-!
# The reference's arithmetic, as functions of four abstract families

Softmax cross-attention over the extended reals, written index by index.

* h  : the keys/values,  8 × 4096 × 1024          (batch b, key position l, feature d)
* g  : the queries' source, 8 × 1024 × 768        (batch b, query position t, feature k)
* wq : the query projection, 256 × 768            (projected feature p, feature k)
* wk : the key projection,   256 × 1024           (projected feature p, feature k)

Q[b,t,p] = Σ_k g[b,t,k]·wq[p,k],   K[b,l,p] = Σ_k h[b,l,k]·wk[p,k],
logit[b,t,l] = (Σ_p Q[b,t,p]·K[b,l,p]) · 256^(-1/2),
m[b,t] = max over l of logit[b,t,l] (folded from -∞),
w[b,t,l] = exp(logit[b,t,l] - m[b,t]),   den[b,t] = 0 + Σ_l w[b,t,l],
num[b,t,d] = Σ_l w[b,t,l]·h[b,l,d],   out[b,t,d] = num[b,t,d] / (den[b,t] + ε).

Every float literal stays the word it is written as; the facts below say which extended real
each word denotes, and that 256^(-1/2) is 1/16.
-/

noncomputable section

namespace Cert.Spec

open Idealize.ShloMosaic
open scoped BigOperators

/-! ## The words -/

/-- The word 0x43800000 is 256. -/
theorem ofBits_256 : Ideal.ofBits .f32 0x43800000#32 = ((256 : ℝ) : EReal) := by
  simp [Ideal.ofBits, Ideal.ieee, -EReal.coe_mul]; norm_num

/-- The word 0xBF000000 is -1/2. -/
theorem ofBits_neg_half : Ideal.ofBits .f32 0xBF000000#32 = ((-(1 / 2) : ℝ) : EReal) := by
  simp [Ideal.ofBits, Ideal.ieee, -EReal.coe_mul]; norm_num

/-- The word 0x3D800000 is 1/16. -/
theorem ofBits_sixteenth : Ideal.ofBits .f32 0x3D800000#32 = ((1 / 16 : ℝ) : EReal) := by
  simp [Ideal.ofBits, Ideal.ieee, -EReal.coe_mul]; norm_num

/-- The word 0xFF800000 is -∞. -/
theorem ofBits_neg_inf : Ideal.ofBits .f32 0xFF800000#32 = ⊥ := by
  simp [Ideal.ofBits, Ideal.ieee]

/-- The word 0x00000000 is 0. -/
theorem ofBits_zero : Ideal.ofBits .f32 0x00000000#32 = 0 := Ideal.ofBits_zero_f32

/-- The word 0x322BCC77 is 11258999 · 2^(-50), the float nearest 1e-8. -/
theorem ofBits_eps : Ideal.ofBits .f32 0x322BCC77#32 = ((11258999 * (2 : ℝ) ^ (-50 : ℤ) : ℝ) : EReal) := by
  simp [Ideal.ofBits, Ideal.ieee, -EReal.coe_mul]

/-- … in particular a positive real. -/
theorem ofBits_eps_pos : ∃ e : ℝ, 0 < e ∧ Ideal.ofBits .f32 0x322BCC77#32 = (e : EReal) :=
  ⟨11258999 * (2 : ℝ) ^ (-50 : ℤ), by positivity, ofBits_eps⟩

/-- 256^(-1/2) = 1/16 over the reals: 256 = 16², and (16²)^(-1/2) = 16^(-1). -/
theorem rpow_256_neg_half : (256 : ℝ) ^ (-(1 / 2) : ℝ) = 1 / 16 := by
  rw [show (256 : ℝ) = 16 ^ (2 : ℝ) by norm_num, ← Real.rpow_mul (by norm_num)]
  norm_num

/-- The scale the logits are multiplied by, 256^(-1/2) as the two words spell it, is the word for 1/16. -/
theorem scale_eq :
    Ideal.pow (Ideal.ofBits .f32 0x43800000#32) (Ideal.ofBits .f32 0xBF000000#32) = Ideal.ofBits .f32 0x3D800000#32 := by
  rw [ofBits_256, ofBits_neg_half, ofBits_sixteenth, Ideal.pow_coe_coe]
  exact congrArg (fun r : ℝ => (r : EReal)) rpow_256_neg_half

/-- The same, as the real it is. -/
theorem scale_eq_coe :
    Ideal.pow (Ideal.ofBits .f32 0x43800000#32) (Ideal.ofBits .f32 0xBF000000#32) = ((1 / 16 : ℝ) : EReal) :=
  scale_eq.trans ofBits_sixteenth

/-! ## The arrangement -/

variable (h : Fin 8 → Fin 4096 → Fin 1024 → EReal) (g : Fin 8 → Fin 1024 → Fin 768 → EReal)
  (wq : Fin 256 → Fin 768 → EReal) (wk : Fin 256 → Fin 1024 → EReal)

/-- The projected query: Q[b,t,p] = Σ_k g[b,t,k] · wq[p,k]. -/
def qproj (b : Fin 8) (t : Fin 1024) (p : Fin 256) : EReal := ∑ k : Fin 768, g b t k * wq p k

/-- The projected key: K[b,l,p] = Σ_k h[b,l,k] · wk[p,k]. -/
def kproj (b : Fin 8) (l : Fin 4096) (p : Fin 256) : EReal := ∑ k : Fin 1024, h b l k * wk p k

/-- The scaled score of query position t against key position l: (Σ_p Q[b,t,p] · K[b,l,p]) · 256^(-1/2). -/
def refLogit (b : Fin 8) (t : Fin 1024) (l : Fin 4096) : EReal :=
  (∑ p : Fin 256, qproj g wq b t p * kproj h wk b l p)
    * Ideal.pow (Ideal.ofBits .f32 0x43800000#32) (Ideal.ofBits .f32 0xBF000000#32)

/-- The row maximum of the scores over the key positions, folded from -∞. -/
def refMax (b : Fin 8) (t : Fin 1024) : EReal :=
  (Finset.univ : Finset (Fin 4096)).fold max (Ideal.ofBits .f32 0xFF800000#32) (fun l => refLogit h g wq wk b t l)

/-- The unnormalised softmax weight: exp(score − row maximum). -/
def refWeight (b : Fin 8) (t : Fin 1024) (l : Fin 4096) : EReal :=
  Ideal.exp (refLogit h g wq wk b t l - refMax h g wq wk b t)

/-- The normaliser: the weights summed over the key positions, from the initial value 0. -/
def refDen (b : Fin 8) (t : Fin 1024) : EReal :=
  Ideal.ofBits .f32 0x00000000#32 + ∑ l : Fin 4096, refWeight h g wq wk b t l

/-- The weighted sum of the values: Σ_l w[b,t,l] · h[b,l,d]. -/
def refNum (b : Fin 8) (t : Fin 1024) (d : Fin 1024) : EReal :=
  ∑ l : Fin 4096, refWeight h g wq wk b t l * h b l d

/-- The result: the weighted sum divided by (the normaliser plus ε). -/
def refOut (b : Fin 8) (t : Fin 1024) (d : Fin 1024) : EReal :=
  Ideal.div (refNum h g wq wk b t d) (refDen h g wq wk b t + Ideal.ofBits .f32 0x322BCC77#32)

/-! ## The row maximum, in usable forms -/

/-- Folding max from -∞ is the supremum over the key positions. -/
theorem refMax_eq_sup (b : Fin 8) (t : Fin 1024) :
    refMax h g wq wk b t = (Finset.univ : Finset (Fin 4096)).sup (fun l => refLogit h g wq wk b t l) := by
  rw [refMax, ofBits_neg_inf]
  rfl

/-- Every score is at most the row maximum. -/
theorem le_refMax (b : Fin 8) (t : Fin 1024) (l : Fin 4096) : refLogit h g wq wk b t l ≤ refMax h g wq wk b t := by
  rw [refMax_eq_sup]
  exact Finset.le_sup (f := fun l => refLogit h g wq wk b t l) (Finset.mem_univ l)

/-- The row maximum is attained at some key position. -/
theorem exists_refMax (b : Fin 8) (t : Fin 1024) : ∃ l : Fin 4096, refMax h g wq wk b t = refLogit h g wq wk b t l := by
  rw [refMax_eq_sup]
  obtain ⟨l, _, hl⟩ := Finset.exists_mem_eq_sup (Finset.univ : Finset (Fin 4096)) ⟨0, Finset.mem_univ _⟩
    (fun l => refLogit h g wq wk b t l)
  exact ⟨l, hl⟩

/-- Anything above every score is above the row maximum. -/
theorem refMax_le (b : Fin 8) (t : Fin 1024) (a : EReal) (ha : ∀ l, refLogit h g wq wk b t l ≤ a) :
    refMax h g wq wk b t ≤ a := by
  rw [refMax_eq_sup]
  exact Finset.sup_le fun l _ => ha l

/-- When every score is a real number x l, the row maximum is the (real) maximum of the x l. -/
theorem refMax_coe (b : Fin 8) (t : Fin 1024) (x : Fin 4096 → ℝ)
    (hx : ∀ l, refLogit h g wq wk b t l = ((x l : ℝ) : EReal)) :
    refMax h g wq wk b t = (((Finset.univ : Finset (Fin 4096)).sup' Finset.univ_nonempty x : ℝ) : EReal) := by
  rw [refMax_eq_sup, show (fun l => refLogit h g wq wk b t l) = fun l => ((x l : ℝ) : EReal) from funext hx,
    ← Finset.sup'_eq_sup Finset.univ_nonempty]
  exact (Finset.comp_sup'_eq_sup'_comp Finset.univ_nonempty (fun r : ℝ => (r : EReal))
    (fun _ _ => EReal.coe_strictMono.monotone.map_max)).symm

end Cert.Spec

end
-- ==== Proof.KernelValue.lean ====
/-
  The kernel's result array and the reference's specification are one function of the argument arrays, when the
  arguments hold real numbers. Region 0 leaves the projected queries times 1/16; region 1 then leaves, at
  (b, t, d), the softmax numerator over (the denominator plus the guard constant), the scores being the scaled
  queries against the projected keys. The reference scales the product instead of the queries; over the reals the
  factor moves across the finite sum, so the scores, their maximum, the weights and both sums agree.
-/
import proofs.«145177_j79886391705810_2_alg».proof.Proof.KernelRun
import proofs.«145177_j79886391705810_2_alg».proof.Proof.QProjValue
import proofs.«145177_j79886391705810_2_alg».proof.Proof.AttnValue
import proofs.«145177_j79886391705810_2_alg».proof.Proof.RefSpec

set_option maxRecDepth 16384

noncomputable section

namespace Cert.KernelIdeal.Hand

open Idealize.ShloMosaic Idealize.ShloMosaic.TcCoe Idealize.ShloMosaic.ValueIdx
open Idealize.SL.Sem
open Cert.KernelIdeal Cert.KernelIdeal.Gen Cert.AttnLaw Cert.Proof.SoftmaxTiles

section Bridge

variable (gR : Fin 8 → Fin 1024 → Fin 768 → ℝ) (wqR : Fin 256 → Fin 768 → ℝ)
  (hR : Fin 8 → Fin 4096 → Fin 1024 → ℝ) (wR : Fin 256 → Fin 1024 → ℝ)

/-- The kernel's pre-scaled projected query. -/
def qS (b : Fin 8) (t : Fin 1024) (p : Fin 256) : ℝ := (∑ k : Fin 768, gR b t k * wqR p k) * (1 / 16)

/-- The reference's scaled score, with real arguments, is the kernel's score. -/
theorem refLogit_real (b : Fin 8) (t : Fin 1024) (l : Fin 4096) :
    Cert.Spec.refLogit (fun b l d => ((hR b l d : ℝ) : EReal)) (fun b t k => ((gR b t k : ℝ) : EReal))
        (fun p k => ((wqR p k : ℝ) : EReal)) (fun p k => ((wR p k : ℝ) : EReal)) b t l
      = ((xs (qS gR wqR) hR wR b t l : ℝ) : EReal) := by
  unfold Cert.Spec.refLogit Cert.Spec.qproj Cert.Spec.kproj xs qS
  rw [Cert.Spec.scale_eq_coe, scale_across_sum, EReal.coe_mul, coe_finset_sum]
  refine congrArg (· * ((1 / 16 : ℝ) : EReal)) (Finset.sum_congr rfl fun p _ => ?_)
  rw [EReal.coe_mul, coe_finset_sum, coe_finset_sum]
  refine congrArg₂ (· * ·) (Finset.sum_congr rfl fun k _ => (EReal.coe_mul _ _).symm) (Finset.sum_congr rfl fun d _ => (EReal.coe_mul _ _).symm)

/-- At explicit coordinates: the one-pass quotient of the kernel's scores is the reference's result. -/
theorem Gout_ref_at (b : Fin 8) (t d : Fin 1024) :
    Ideal.div ((num (qS gR wqR) hR wR b t d : ℝ) : EReal) (((den (qS gR wqR) hR wR b t : ℝ) : EReal) + Ideal.ofBits .f32 0x322BCC77#32)
      = Cert.Spec.refOut (fun b l d => ((hR b l d : ℝ) : EReal)) (fun b t k => ((gR b t k : ℝ) : EReal))
          (fun p k => ((wqR p k : ℝ) : EReal)) (fun p k => ((wR p k : ℝ) : EReal)) b t d := by
  have hmax := Cert.Spec.refMax_coe (fun b l d => ((hR b l d : ℝ) : EReal)) (fun b t k => ((gR b t k : ℝ) : EReal))
    (fun p k => ((wqR p k : ℝ) : EReal)) (fun p k => ((wR p k : ℝ) : EReal)) b t (xs (qS gR wqR) hR wR b t)
    (fun l => refLogit_real gR wqR hR wR b t l)
  unfold Cert.Spec.refOut Cert.Spec.refNum Cert.Spec.refDen Cert.Spec.refWeight num den xmax
  rw [hmax]
  simp only [refLogit_real]
  rw [sum_exp_coe, sum_exp_mul_coe, Cert.Spec.ofBits_zero, zero_add]

/-- The kernel's result function is the reference's specification of the same real arguments. -/
theorem Gout_eq_ref :
    Gout (qS gR wqR) hR wR = fun i => Cert.Spec.refOut (fun b l d => ((hR b l d : ℝ) : EReal)) (fun b t k => ((gR b t k : ℝ) : EReal))
        (fun p k => ((wqR p k : ℝ) : EReal)) (fun p k => ((wR p k : ℝ) : EReal)) (i 0) (i 1) (i 2) :=
  funext fun i => Gout_ref_at gR wqR hR wR (i 0) (i 1) (i 2)

end Bridge

section Kernel

variable (m : (ℓ : Loc nD τ sig) → Buf (Elt Ideal) ℓ) (ρ : Dev nD → PrngReg) (c : Dev nD)
variable (gR : Fin 8 → Fin 1024 → Fin 768 → ℝ) (wqR : Fin 256 → Fin 768 → ℝ)
  (hR : Fin 8 → Fin 4096 → Fin 1024 → ℝ) (wR : Fin 256 → Fin 1024 → ℝ)
variable (hH : ∀ b l d, (m ((c : Thread nD τ).loc main_arg0) : FVec Ideal S8x4096x1024 .f32) (ix3 b l d) = ((hR b l d : ℝ) : EReal))
  (hG : ∀ b t k, (m ((c : Thread nD τ).loc main_arg1) : FVec Ideal S8x1024x768 .f32) (ix3 b t k) = ((gR b t k : ℝ) : EReal))
  (hWq : ∀ p k, (m ((c : Thread nD τ).loc main_arg2) : FVec Ideal S256x768 .f32) (ix2 p k) = ((wqR p k : ℝ) : EReal))
  (hWk : ∀ p d, (m ((c : Thread nD τ).loc main_arg3) : FVec Ideal S256x1024 .f32) (ix2 p d) = ((wR p d : ℝ) : EReal))

include hG hWq in
/-- After region 0 the query array holds the scaled projected queries, as reals. -/
theorem V1_queries (b : Fin 8) (t : Fin 1024) (p : Fin 256) :
    (V1 m ρ c main_v0 : FVec Ideal S8x1024x256 .bf16) (ix3 b t p) = ((qS gR wqR b t p : ℝ) : EReal) := by
  have e : V1 m ρ c main_v0 = (dat0 (V0 m ρ) c).arrAt 2 cfg0.N := W1_arr m ρ c 2
  rw [e, finalQ]
  unfold Qfun qS
  rw [Cert.Spec.ofBits_sixteenth, EReal.coe_mul, coe_finset_sum]
  refine congrArg (· * ((1 / 16 : ℝ) : EReal)) (Finset.sum_congr rfl fun k _ => ?_)
  rw [EReal.coe_mul]
  exact congrArg₂ (· * ·) (hG b t k) (hWq p k)

include hH in
theorem V1_H (b : Fin 8) (l : Fin 4096) (d : Fin 1024) :
    (V1 m ρ c main_arg0 : FVec Ideal S8x4096x1024 .f32) (ix3 b l d) = ((hR b l d : ℝ) : EReal) := by
  have e : V1 m ρ c main_arg0 = V0 m ρ c main_arg0 := W1_of_ne m ρ c main_arg0 (by decide)
  rw [e]; exact hH b l d

include hWk in
theorem V1_Wk (p : Fin 256) (d : Fin 1024) :
    (V1 m ρ c main_arg3 : FVec Ideal S256x1024 .f32) (ix2 p d) = ((wR p d : ℝ) : EReal) := by
  have e : V1 m ρ c main_arg3 = V0 m ρ c main_arg3 := W1_of_ne m ρ c main_arg3 (by decide)
  rw [e]; exact hWk p d

include hH hG hWq hWk in
/-- The result array after the kernel program's run is the reference's specification of the arguments. -/
theorem kernel_value :
    (dat1 (V1 m ρ) c).arrAt 3 cfg1.N
      = fun i => Cert.Spec.refOut (fun b l d => (m ((c : Thread nD τ).loc main_arg0) : FVec Ideal S8x4096x1024 .f32) (ix3 b l d))
          (fun b t k => (m ((c : Thread nD τ).loc main_arg1) : FVec Ideal S8x1024x768 .f32) (ix3 b t k))
          (fun p k => (m ((c : Thread nD τ).loc main_arg2) : FVec Ideal S256x768 .f32) (ix2 p k))
          (fun p k => (m ((c : Thread nD τ).loc main_arg3) : FVec Ideal S256x1024 .f32) (ix2 p k)) (i 0) (i 1) (i 2) := by
  rw [show (fun b l d => (m ((c : Thread nD τ).loc main_arg0) : FVec Ideal S8x4096x1024 .f32) (ix3 b l d)) = fun b l d => ((hR b l d : ℝ) : EReal) from funext fun b => funext fun l => funext fun d => hH b l d,
    show (fun b t k => (m ((c : Thread nD τ).loc main_arg1) : FVec Ideal S8x1024x768 .f32) (ix3 b t k)) = fun b t k => ((gR b t k : ℝ) : EReal) from funext fun b => funext fun t => funext fun k => hG b t k,
    show (fun p k => (m ((c : Thread nD τ).loc main_arg2) : FVec Ideal S256x768 .f32) (ix2 p k)) = fun p k => ((wqR p k : ℝ) : EReal) from funext fun p => funext fun k => hWq p k,
    show (fun p k => (m ((c : Thread nD τ).loc main_arg3) : FVec Ideal S256x1024 .f32) (ix2 p k)) = fun p k => ((wR p k : ℝ) : EReal) from funext fun p => funext fun k => hWk p k]
  exact (finalO (V1 m ρ) c (qS gR wqR) hR wR (V1_queries m ρ c gR wqR hG hWq) (V1_H m ρ c hR hH) (V1_Wk m ρ c wR hWk)).trans
    (Gout_eq_ref gR wqR hR wR)

end Kernel

end Cert.KernelIdeal.Hand

end
-- ==== Proof.RefRead.lean ====
import proofs.«145177_j79886391705810_2_alg».proof.Defs
import proofs.«145177_j79886391705810_2_alg».proof.Proof.Gen.ReferenceIdeal.Read
import proofs.«145177_j79886391705810_2_alg».proof.Proof.RefSpec
import Idealize.ShloMosaic.Lib.ValueIdx
import Idealize.ShloMosaic.PureOps.Ideal.Laws

/-!
# The reference program computes the softmax cross-attention of `Cert.Spec`

The reference's result array, read at the index (b, t, d), is `Cert.Spec.refOut` of the four
argument arrays seen as families of their coordinates.  The proof follows the program's stages:
the two projections, the scores, their scaling by 256^(-1/2), the row maximum (a fold of max over
the key axis from -∞), the exponentials of the centred scores, their row sum from 0, the weighted
sum of the values, and the quotient by (row sum + ε).  Each stage is read at coordinates, the
program's composed index functions being identified with the coordinate constructors first.
-/

noncomputable section

namespace Cert.ReferenceIdeal.RefValue

open Cert.ReferenceIdeal Cert.ReferenceIdeal.Gen Cert.ReferenceIdeal.Read Idealize.ShloMosaic Idealize.ShloMosaic.ValueIdx
open scoped BigOperators

/-! ## The argument arrays as families of coordinates -/

/-- The keys/values array at (b, l, d). -/
abbrev famH (H : FVec Ideal S8x4096x1024 .f32) : Fin 8 → Fin 4096 → Fin 1024 → EReal := fun b l d => H (ix3 b l d)
/-- The queries' source array at (b, t, k). -/
abbrev famG (G : FVec Ideal S8x1024x768 .f32) : Fin 8 → Fin 1024 → Fin 768 → EReal := fun b t k => G (ix3 b t k)
/-- The query projection at (p, k). -/
abbrev famWq (Wq : FVec Ideal S256x768 .f32) : Fin 256 → Fin 768 → EReal := fun p k => Wq (ix2 p k)
/-- The key projection at (p, k). -/
abbrev famWk (Wk : FVec Ideal S256x1024 .f32) : Fin 256 → Fin 1024 → EReal := fun p k => Wk (ix2 p k)

/-! ## The program's index functions at coordinates -/

/-- Q[b,t,p] reads the queries' source at (b, t, k) … -/
theorem lidx1 (b : Fin 8) (t : Fin 1024) (p : Fin 256) (k : Fin 768) : lidx_main_v1 (ix3 b t p) k = ix3 b t k :=
  funext fun a => Fin.ext (by match a with | ⟨0, _⟩ => rfl | ⟨1, _⟩ => rfl | ⟨2, _⟩ => rfl)
/-- … and the query projection at (p, k). -/
theorem ridx1 (b : Fin 8) (t : Fin 1024) (p : Fin 256) (k : Fin 768) : ridx_main_v1 (ix3 b t p) k = ix2 p k :=
  funext fun a => Fin.ext (by match a with | ⟨0, _⟩ => rfl | ⟨1, _⟩ => rfl)
/-- K[b,l,p] reads the keys/values at (b, l, k) … -/
theorem lidx2 (b : Fin 8) (l : Fin 4096) (p : Fin 256) (k : Fin 1024) : lidx_main_v2 (ix3 b l p) k = ix3 b l k :=
  funext fun a => Fin.ext (by match a with | ⟨0, _⟩ => rfl | ⟨1, _⟩ => rfl | ⟨2, _⟩ => rfl)
/-- … and the key projection at (p, k). -/
theorem ridx2 (b : Fin 8) (l : Fin 4096) (p : Fin 256) (k : Fin 1024) : ridx_main_v2 (ix3 b l p) k = ix2 p k :=
  funext fun a => Fin.ext (by match a with | ⟨0, _⟩ => rfl | ⟨1, _⟩ => rfl)
/-- The score at (b, t, l) reads Q at (b, t, p) … -/
theorem lidx3 (b : Fin 8) (t : Fin 1024) (l : Fin 4096) (p : Fin 256) : lidx_main_v3 (ix3 b t l) p = ix3 b t p :=
  funext fun a => Fin.ext (by match a with | ⟨0, _⟩ => rfl | ⟨1, _⟩ => rfl | ⟨2, _⟩ => rfl)
/-- … and K at (b, l, p). -/
theorem ridx3 (b : Fin 8) (t : Fin 1024) (l : Fin 4096) (p : Fin 256) : ridx_main_v3 (ix3 b t l) p = ix3 b l p :=
  funext fun a => Fin.ext (by match a with | ⟨0, _⟩ => rfl | ⟨1, _⟩ => rfl | ⟨2, _⟩ => rfl)
/-- The row maximum kept as a column: (b, t, 0) reads row (b, t). -/
theorem idx7 (b : Fin 8) (t : Fin 1024) (z : Fin 1) : idx_main_v7 (ix3 b t z) = ix2 b t :=
  funext fun a => Fin.ext (by match a with | ⟨0, _⟩ => rfl | ⟨1, _⟩ => rfl)
/-- The column spread along the key axis: (b, t, l) reads (b, t, 0). -/
theorem idx8 (b : Fin 8) (t : Fin 1024) (l : Fin 4096) : idx_main_v8 (ix3 b t l) = ix3 b t (⟨0, Nat.one_pos⟩ : Fin 1) :=
  funext fun a => Fin.ext (by match a with | ⟨0, _⟩ => rfl | ⟨1, _⟩ => rfl | ⟨2, _⟩ => rfl)
/-- The row sum at (b, t) runs over the weights at (b, t, l). -/
theorem idx11 (b : Fin 8) (t : Fin 1024) (l : Fin 4096) : idx_main_v11 (ix2 b t) l = ix3 b t l :=
  funext fun a => Fin.ext (by match a with | ⟨0, _⟩ => rfl | ⟨1, _⟩ => rfl | ⟨2, _⟩ => rfl)
/-- The row sum kept as a column: (b, t, 0) reads row (b, t). -/
theorem idx12 (b : Fin 8) (t : Fin 1024) (z : Fin 1) : idx_main_v12 (ix3 b t z) = ix2 b t :=
  funext fun a => Fin.ext (by match a with | ⟨0, _⟩ => rfl | ⟨1, _⟩ => rfl)
/-- The weighted sum at (b, t, d) reads the weight at (b, t, l) … -/
theorem lidx13 (b : Fin 8) (t : Fin 1024) (d : Fin 1024) (l : Fin 4096) : lidx_main_v13 (ix3 b t d) l = ix3 b t l :=
  funext fun a => Fin.ext (by match a with | ⟨0, _⟩ => rfl | ⟨1, _⟩ => rfl | ⟨2, _⟩ => rfl)
/-- … and the value at (b, l, d). -/
theorem ridx13 (b : Fin 8) (t : Fin 1024) (d : Fin 1024) (l : Fin 4096) : ridx_main_v13 (ix3 b t d) l = ix3 b l d :=
  funext fun a => Fin.ext (by match a with | ⟨0, _⟩ => rfl | ⟨1, _⟩ => rfl | ⟨2, _⟩ => rfl)
/-- The divisor column spread along the feature axis: (b, t, d) reads (b, t, 0). -/
theorem idx16 (b : Fin 8) (t : Fin 1024) (d : Fin 1024) : idx_main_v16 (ix3 b t d) = ix3 b t (⟨0, Nat.one_pos⟩ : Fin 1) :=
  funext fun a => Fin.ext (by match a with | ⟨0, _⟩ => rfl | ⟨1, _⟩ => rfl | ⟨2, _⟩ => rfl)

/-- A row index (b, t) with the key coordinate l put back on the reduced axis is (b, t, l). -/
theorem lift_ix3 (hR : S8x1024x4096.Reduces [2] S8x1024) (b : Fin 8) (t : Fin 1024) (l : Fin (S8x1024x4096.size 2)) :
    hR.lift (ix2 b t) l = ix3 b t (⟨l.val, l.isLt⟩ : Fin 4096) := by
  funext c; apply Fin.ext
  fin_cases c <;> rfl

/-! ## The stages -/

variable (H : FVec Ideal S8x4096x1024 .f32) (G : FVec Ideal S8x1024x768 .f32)
  (Wq : FVec Ideal S256x768 .f32) (Wk : FVec Ideal S256x1024 .f32)

/-- The first product is the projected query. -/
theorem q_at (b : Fin 8) (t : Fin 1024) (p : Fin 256) :
    val_main_v1 (F := Ideal) G Wq (ix3 b t p) = Cert.Spec.qproj (famG G) (famWq Wq) b t p := by
  rw [val_main_v1_apply]
  unfold Cert.Spec.qproj
  exact Finset.sum_congr rfl fun k _ => by rw [lidx1, ridx1]

/-- The second product is the projected key. -/
theorem k_at (b : Fin 8) (l : Fin 4096) (p : Fin 256) :
    val_main_v2 (F := Ideal) H Wk (ix3 b l p) = Cert.Spec.kproj (famH H) (famWk Wk) b l p := by
  rw [val_main_v2_apply]
  unfold Cert.Spec.kproj
  exact Finset.sum_congr rfl fun k _ => by rw [lidx2, ridx2]

/-- The third product is the unscaled score Σ_p Q[b,t,p] · K[b,l,p]. -/
theorem dot_at (b : Fin 8) (t : Fin 1024) (l : Fin 4096) :
    val_main_v3 (F := Ideal) H G Wq Wk (ix3 b t l)
      = ∑ p : Fin 256, Cert.Spec.qproj (famG G) (famWq Wq) b t p * Cert.Spec.kproj (famH H) (famWk Wk) b l p := by
  rw [val_main_v3_apply]
  exact Finset.sum_congr rfl fun p _ => by rw [lidx3, ridx3, q_at, k_at]

/-- The spread scalar is 256^(-1/2), as the two words spell it, at every index. -/
theorem scale_at (i : S8x1024x4096.Idx) :
    val_main_v4 (F := Ideal) i = Ideal.pow (Ideal.ofBits .f32 0x43800000#32) (Ideal.ofBits .f32 0xBF000000#32) := by
  rw [val_main_v4_apply]
  rfl

/-- The scaled score. -/
theorem logit_at (b : Fin 8) (t : Fin 1024) (l : Fin 4096) :
    val_main_v5 (F := Ideal) H G Wq Wk (ix3 b t l)
      = Cert.Spec.refLogit (famH H) (famG G) (famWq Wq) (famWk Wk) b t l := by
  rw [val_main_v5_apply, dot_at, scale_at, Ideal.mulf_def]
  rfl

/-- The row maximum: the program's reduce over the key axis is the fold of max from -∞ over the key positions. -/
theorem max_at (b : Fin 8) (t : Fin 1024) :
    val_main_v6 (F := Ideal) H G Wq Wk (ix2 b t)
      = Cert.Spec.refMax (famH H) (famG G) (famWq Wq) (famWk Wk) b t := by
  have hR : S8x1024x4096.Reduces [2] S8x1024 := by decide
  unfold val_main_v6
  rw [Host.reduce_eq_fold_single FloatOps.maximumf _ _ reducesTo_S8x1024x4096_S8x1024_d2 hR h_S_]
  have hf : (val_main_v5 (F := Ideal) H G Wq Wk ∘ hR.lift (ix2 b t))
      = fun l : Fin 4096 => Cert.Spec.refLogit (famH H) (famG G) (famWq Wq) (famWk Wk) b t l :=
    funext fun l => (congrArg (val_main_v5 (F := Ideal) H G Wq Wk) (lift_ix3 hR b t l)).trans (logit_at H G Wq Wk b t _)
  unfold Cert.Spec.refMax
  exact congrArg (fun f => Finset.fold max (Ideal.ofBits .f32 0xFF800000#32) f (Finset.univ : Finset (Fin 4096))) hf

/-- The unnormalised weight exp(score − row maximum). -/
theorem weight_at (b : Fin 8) (t : Fin 1024) (l : Fin 4096) :
    val_main_v10 (F := Ideal) H G Wq Wk (ix3 b t l)
      = Cert.Spec.refWeight (famH H) (famG G) (famWq Wq) (famWk Wk) b t l := by
  rw [val_main_v10_apply, val_main_v9_apply, val_main_v8_apply, val_main_v7_apply, idx8, idx7, logit_at, max_at]
  rfl

/-- The normaliser 0 + Σ_l w[b,t,l]. -/
theorem den_at (b : Fin 8) (t : Fin 1024) :
    val_main_v11 (F := Ideal) H G Wq Wk (ix2 b t)
      = Cert.Spec.refDen (famH H) (famG G) (famWq Wq) (famWk Wk) b t := by
  rw [val_main_v11_apply]
  unfold Cert.Spec.refDen
  refine congrArg₂ (· + ·) rfl (Finset.sum_congr rfl fun l _ => ?_)
  rw [idx11, weight_at]

/-- The weighted sum of the values Σ_l w[b,t,l] · h[b,l,d]. -/
theorem num_at (b : Fin 8) (t : Fin 1024) (d : Fin 1024) :
    val_main_v13 (F := Ideal) H G Wq Wk (ix3 b t d)
      = Cert.Spec.refNum (famH H) (famG G) (famWq Wq) (famWk Wk) b t d := by
  rw [val_main_v13_apply]
  unfold Cert.Spec.refNum
  exact Finset.sum_congr rfl fun l _ => by rw [lidx13, ridx13, weight_at]

/-- The result at (b, t, d): the weighted sum over (the normaliser plus ε). -/
theorem result_at (b : Fin 8) (t : Fin 1024) (d : Fin 1024) :
    val_main_v17 (F := Ideal) H G Wq Wk (ix3 b t d)
      = Cert.Spec.refOut (famH H) (famG G) (famWq Wq) (famWk Wk) b t d := by
  rw [val_main_v17_apply, num_at, val_main_v16_apply, val_main_v15_apply, val_main_v12_apply, val_main_v14_apply, idx16,
    idx12, den_at]
  rfl

/-! ## The result, in the forms a bridge uses -/

/-- THE REFERENCE IS THE SPECIFICATION, at an index given by its coordinates. -/
theorem result_eq (b : Fin 8) (t : Fin 1024) (d : Fin 1024) :
    val_main_v17 (F := Ideal) H G Wq Wk (ix3 b t d)
      = Cert.Spec.refOut (fun b l d => H (ix3 b l d)) (fun b t k => G (ix3 b t k)) (fun p k => Wq (ix2 p k))
          (fun p k => Wk (ix2 p k)) b t d :=
  result_at H G Wq Wk b t d

/-- The same as an equation of whole arrays. -/
theorem result_fun_eq :
    val_main_v17 (F := Ideal) H G Wq Wk
      = fun i => Cert.Spec.refOut (fun b l d => H (ix3 b l d)) (fun b t k => G (ix3 b t k)) (fun p k => Wq (ix2 p k))
          (fun p k => Wk (ix2 p k)) (i 0) (i 1) (i 2) := by
  funext i
  obtain ⟨b, t, d, rfl⟩ : ∃ (b : Fin 8) (t : Fin 1024) (d : Fin 1024), i = ix3 b t d := ⟨i 0, i 1, i 2, eq_ix3 i⟩
  exact result_at H G Wq Wk b t d

/-! ## The reference's run, with its result stated as the specification -/

section Run

open Idealize.ShloMosaic.TcCoe Idealize.SL.Sem Idealize.ShloMosaic.StableHlo

/-- Every weakly fair execution of the reference terminates with its result array equal, index by index, to the
    softmax cross-attention of its four argument arrays as they were at the start, and leaves those arrays unchanged. -/
theorem run_spec (m : (ℓ : Loc nD τ sig) → Buf (Elt Ideal) ℓ) (ρ : Dev nD → PrngReg) :
    θ_run (defs (F := Ideal)) (onTc (τ := τ) (main (F := Ideal))) ⟨m, fun _ => 0, ρ⟩ fun r => ∀ c : Dev nD,
      r.2.mem ((c.tc : Thread nD τ).loc main_v17)
        = (fun i => Cert.Spec.refOut (fun b l d => m ((c.tc : Thread nD τ).loc main_arg0) (ix3 b l d))
            (fun b t k => m ((c.tc : Thread nD τ).loc main_arg1) (ix3 b t k))
            (fun p k => m ((c.tc : Thread nD τ).loc main_arg2) (ix2 p k))
            (fun p k => m ((c.tc : Thread nD τ).loc main_arg3) (ix2 p k)) (i 0) (i 1) (i 2))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3) :=
  (θ_run defs _ _).mono
    (fun _ h c => ⟨(h c).1.trans ((val_main_v17_eq _ _ _ _).trans (result_fun_eq _ _ _ _)), (h c).2⟩)
    (Cert.ReferenceIdeal.Value.run (F := Ideal) m ρ)

end Run

end Cert.ReferenceIdeal.RefValue

end
-- ==== Proof.FiniteInputs.lean ====
import proofs.«145177_j79886391705810_2_alg».proof.Defs
import Idealize.ShloMosaic.Lib.ReduceAll
import Idealize.ShloMosaic.Lib.ValueIdx

/-!
# Every input entry is a real number

The precondition is one truth value: the conjunction, over the four argument arrays, of
"every entry x satisfies |x| < +∞", where |x| = max x (-x) on the extended reals and +∞ is
what the word 0x7F800000 denotes.  An extended real with |x| < +∞ is neither +∞ nor -∞
(|±∞| = +∞), hence the coercion of a real number.  This module reads that conclusion out of
the precondition, array by array.
-/

noncomputable section

namespace Cert.Finite

open Idealize.ShloMosaic Idealize.ShloMosaic.ValueIdx

/-- The word 0x7F800000 is +∞. -/
theorem ofBits_pos_inf : Ideal.ofBits .f32 0x7F800000#32 = ⊤ := by
  simp [Ideal.ofBits, Ideal.ieee]

/-- An extended real whose absolute value max x (-x) is strictly below +∞ is a real number:
    at x = +∞ the maximum is +∞ itself, at x = -∞ it is -(-∞) = +∞, and +∞ < +∞ is false. -/
theorem real_of_abs_lt_inf (x : EReal)
    (h : Ideal.cmp .olt (max x (-x)) (Ideal.ofBits .f32 0x7F800000#32) = 1#1) : ∃ r : ℝ, x = (r : EReal) := by
  rw [ofBits_pos_inf] at h
  induction x using EReal.rec with
  | bot => simp [Ideal.cmp] at h
  | coe r => exact ⟨r, rfl⟩
  | top => simp [Ideal.cmp] at h

/-- The scalar shape has exactly one index. -/
instance : Subsingleton Cert.Pre_finite_inputs.S_.Idx := ⟨fun a b => funext fun d => d.elim0⟩

/-- From the precondition (the conjunction of the four "all entries have |x| < +∞" tests is true)
    to: every entry of each of the four argument arrays is a real number. -/
theorem inputs_real [Cert.Pre_finite_inputs.Facts]
    (H : FVec Ideal Cert.Pre_finite_inputs.S8x4096x1024 .f32) (G : FVec Ideal Cert.Pre_finite_inputs.S8x1024x768 .f32)
    (Wq : FVec Ideal Cert.Pre_finite_inputs.S256x768 .f32) (Wk : FVec Ideal Cert.Pre_finite_inputs.S256x1024 .f32)
    (h : Cert.Pre_finite_inputs.fn (F := Ideal) H G Wq Wk = (fun _ => 1#1)) :
    (∀ i, ∃ r : ℝ, H i = (r : EReal)) ∧ (∀ i, ∃ r : ℝ, G i = (r : EReal))
      ∧ (∀ i, ∃ r : ℝ, Wq i = (r : EReal)) ∧ (∀ i, ∃ r : ℝ, Wk i = (r : EReal)) := by
  have h0 := congrFun h ix0
  dsimp only [Cert.Pre_finite_inputs.fn, Cert.Pre_finite_inputs.fn_part1] at h0
  -- the truth value is ((all H ∧ all G) ∧ all Wq) ∧ all Wk
  obtain ⟨h123, h4⟩ := IntOp.andi_eq_one.1 h0
  obtain ⟨h12, h3⟩ := IntOp.andi_eq_one.1 h123
  obtain ⟨h1, h2⟩ := IntOp.andi_eq_one.1 h12
  refine ⟨fun i => ?_, fun i => ?_, fun i => ?_, fun i => ?_⟩
  · exact real_of_abs_lt_inf (H i) (Host.reduce_andi_all _ _ _ _ _ h1 i)
  · exact real_of_abs_lt_inf (G i) (Host.reduce_andi_all _ _ _ _ _ h2 i)
  · exact real_of_abs_lt_inf (Wq i) (Host.reduce_andi_all _ _ _ _ _ h3 i)
  · exact real_of_abs_lt_inf (Wk i) (Host.reduce_andi_all _ _ _ _ _ h4 i)

end Cert.Finite

end
-- ==== Proof.lean ====
/-
  The five claims of this certificate.

  The kernel program is two regions: a projection of the queries, scaled by 1/16, and a streaming attention over
  four key tiles per batch entry that keeps a running maximum, denominator and accumulator. Both the word-level
  program and its exact reading run to the end without a fault and leave the four argument arrays as launched.
  At the exact reading, with real-valued arguments, the streamed state after the fourth tile is the one-pass
  softmax's denominator and numerator (the tile recurrence with the running maximum as offset), the scale moves
  across the finite sum over the projected features, and 256 to the power -1/2 is 1/16; so the kernel's result
  and the reference's are the same function of the arguments, index by index.
-/
import proofs.«145177_j79886391705810_2_alg».proof.Defs
import proofs.«145177_j79886391705810_2_alg».proof.Proof.Gen.Kernel
import proofs.«145177_j79886391705810_2_alg».proof.Proof.Gen.KernelIdeal
import proofs.«145177_j79886391705810_2_alg».proof.Proof.Gen.ReferenceIdeal
import proofs.«145177_j79886391705810_2_alg».proof.Proof.Gen.Pre_finite_inputs
import proofs.«145177_j79886391705810_2_alg».proof.Proof.BitsKernelRun
import proofs.«145177_j79886391705810_2_alg».proof.Proof.KernelRun
import proofs.«145177_j79886391705810_2_alg».proof.Proof.KernelValue
import proofs.«145177_j79886391705810_2_alg».proof.Proof.RefRead
import proofs.«145177_j79886391705810_2_alg».proof.Proof.FiniteInputs
import Idealize.ShloMosaic.Adequacy
import Idealize.ShloMosaic.Init

noncomputable section

namespace Cert.Proof

open Idealize.ShloMosaic Idealize.ShloMosaic.TcCoe Idealize.SL.Sem Idealize.ShloMosaic.ValueIdx

/-- The word-level program runs and keeps its arguments. -/
theorem frame_kernel : Cert.frame_Kernel := fun m ρ _ => Cert.Kernel.Hand.frame (F := Bits) m ρ

/-- So does its exact reading. -/
theorem frame_kernelIdeal : Cert.frame_KernelIdeal := fun m ρ _ => Cert.KernelIdeal.Hand.frame (F := Ideal) m ρ

/-- The reference is host operations only: its run, with the result forgotten. -/
theorem frame_referenceIdeal : Cert.frame_ReferenceIdeal := fun m ρ _ =>
  (θ_run Cert.ReferenceIdeal.defs _ _).mono (fun _ h c => (h c).2) (Cert.ReferenceIdeal.RefValue.run_spec m ρ)

/-- The ideal pass rewrote nothing. -/
theorem preserves : Cert.preserves_Kernel_KernelIdeal := trivial

/-- From memories agreeing on the arguments, finite by the precondition, both programs end with the softmax
    cross-attention of the arguments in their result arrays. -/
theorem algebraic : Cert.algebraic_KernelIdeal_ReferenceIdeal := by
  intro m ρ m' ρ' hpre hagree
  refine ⟨fun c => fun i => Cert.Spec.refOut
      (fun b l d => m ((c.tc : Thread Cert.KernelIdeal.nD Cert.KernelIdeal.τ).loc Cert.KernelIdeal.main_arg0) (ix3 b l d))
      (fun b t k => m ((c.tc : Thread Cert.KernelIdeal.nD Cert.KernelIdeal.τ).loc Cert.KernelIdeal.main_arg1) (ix3 b t k))
      (fun p k => m ((c.tc : Thread Cert.KernelIdeal.nD Cert.KernelIdeal.τ).loc Cert.KernelIdeal.main_arg2) (ix2 p k))
      (fun p k => m ((c.tc : Thread Cert.KernelIdeal.nD Cert.KernelIdeal.τ).loc Cert.KernelIdeal.main_arg3) (ix2 p k)) (i 0) (i 1) (i 2), ?_, ?_⟩
  · refine (θ_run Cert.KernelIdeal.defs _ _).mono (fun r h c => ?_) (Cert.KernelIdeal.Hand.run_value (F := Ideal) m ρ)
    obtain ⟨fH, fG, fWq, fWk⟩ := Cert.Finite.inputs_real _ _ _ _ (hpre c)
    choose hR hHr using fH
    choose gR hGr using fG
    choose wqR hWqr using fWq
    choose wR hWkr using fWk
    refine ⟨(h c).1.trans ?_, (h c).2⟩
    exact Cert.KernelIdeal.Hand.kernel_value m ρ c (fun b t k => gR (ix3 b t k)) (fun p k => wqR (ix2 p k))
      (fun b l d => hR (ix3 b l d)) (fun p d => wR (ix2 p d))
      (fun b l d => hHr _) (fun b t k => hGr _) (fun p k => hWqr _) (fun p d => hWkr _)
  · refine (θ_run Cert.ReferenceIdeal.defs _ _).mono (fun r h c => ?_) (Cert.ReferenceIdeal.RefValue.run_spec m' ρ')
    refine ⟨(h c).1.trans ?_, (h c).2⟩
    rw [(hagree c).1, (hagree c).2.1, (hagree c).2.2.1, (hagree c).2.2.2]
    rfl

theorem claim : Cert.Claim :=
  ⟨Cert.Kernel.Gen.facts, Cert.KernelIdeal.Gen.facts, Cert.ReferenceIdeal.Gen.facts, Cert.Pre_finite_inputs.Gen.facts,
    frame_kernel, frame_kernelIdeal, frame_referenceIdeal, preserves, algebraic⟩

end Cert.Proof

end
